-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v13) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v65) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x312 : Shape := ⟨2, ![8192, 312]⟩
abbrev S624x4096 : Shape := ⟨2, ![624, 4096]⟩
abbrev S4096 : Shape := ⟨1, ![4096]⟩
abbrev S4096x2048 : Shape := ⟨2, ![4096, 2048]⟩
abbrev S2048 : Shape := ⟨1, ![2048]⟩
abbrev S8192x4096 : Shape := ⟨2, ![8192, 4096]⟩
abbrev S_ : Shape := ⟨0, ![]⟩

class Facts : Prop where
  bcast_S_S8192x312 : S_.BroadcastsInDim S8192x312 (![] : Fin 0 → Fin S8192x312.rank)
  reducesTo_S8192x312_S_d0_1 : S8192x312.ReducesTo [0, 1] S_
  h_S_ : 0 < S_.numel
  bcast_S_S624x4096 : S_.BroadcastsInDim S624x4096 (![] : Fin 0 → Fin S624x4096.rank)
  reducesTo_S624x4096_S_d0_1 : S624x4096.ReducesTo [0, 1] S_
  bcast_S_S4096 : S_.BroadcastsInDim S4096 (![] : Fin 0 → Fin S4096.rank)
  reducesTo_S4096_S_d0 : S4096.ReducesTo [0] S_
  bcast_S_S4096x2048 : S_.BroadcastsInDim S4096x2048 (![] : Fin 0 → Fin S4096x2048.rank)
  reducesTo_S4096x2048_S_d0_1 : S4096x2048.ReducesTo [0, 1] S_
  bcast_S_S2048 : S_.BroadcastsInDim S2048 (![] : Fin 0 → Fin S2048.rank)
  reducesTo_S2048_S_d0 : S2048.ReducesTo [0] S_
  bcast_S_S8192x4096 : S_.BroadcastsInDim S8192x4096 (![] : Fin 0 → Fin S8192x4096.rank)
  reducesTo_S8192x4096_S_d0_1 : S8192x4096.ReducesTo [0, 1] S_

variable [Facts]

def fn_part3 {F : FTy → Type} [FloatOps F] (main_v48 : IVec S_ 1) (main_v49 : FVec F S8192x4096 .f32) (main_v50 : FVec F S8192x4096 .f32) : IVec S_ 1 :=
  let main_v51 : IVec S8192x4096 1 := cmpf .olt main_v49 main_v50
  let main_c_19 : IVec S_ 1 := constantI S_ 1 1#1
  let main_v52 : IVec S_ 1 := (fun x v => Host.reduce IntOp.andi x v reducesTo_S8192x4096_S_d0_1 h_S_) main_v51 main_c_19
  let main_v53 : IVec S_ 1 := andi main_v48 main_v52
  main_v53

def fn_part2 {F : FTy → Type} [FloatOps F] (main_arg7 : FVec F S2048 .f32) (main_arg8 : FVec F S2048 .f32) (main_arg9 : FVec F S2048 .f32) (main_arg10 : FVec F S8192x4096 .f32) (main_v33 : IVec S_ 1) : IVec S_ 1 :=
  let main_v34 : FVec F S2048 .f32 := Host.absf main_arg7
  let main_cst_12 : FVec F S_ .f32 := constant S_ .f32 0x7F800000#32
  let main_v35 : FVec F S2048 .f32 := broadcastInDim S2048 ![] bcast_S_S2048 main_cst_12
  let main_v36 : IVec S2048 1 := cmpf .olt main_v34 main_v35
  let main_c_13 : IVec S_ 1 := constantI S_ 1 1#1
  let main_v37 : IVec S_ 1 := (fun x v => Host.reduce IntOp.andi x v reducesTo_S2048_S_d0 h_S_) main_v36 main_c_13
  let main_v38 : IVec S_ 1 := andi main_v33 main_v37
  let main_v39 : FVec F S2048 .f32 := Host.absf main_arg8
  let main_cst_14 : FVec F S_ .f32 := constant S_ .f32 0x7F800000#32
  let main_v40 : FVec F S2048 .f32 := broadcastInDim S2048 ![] bcast_S_S2048 main_cst_14
  let main_v41 : IVec S2048 1 := cmpf .olt main_v39 main_v40
  let main_c_15 : IVec S_ 1 := constantI S_ 1 1#1
  let main_v42 : IVec S_ 1 := (fun x v => Host.reduce IntOp.andi x v reducesTo_S2048_S_d0 h_S_) main_v41 main_c_15
  let main_v43 : IVec S_ 1 := andi main_v38 main_v42
  let main_v44 : FVec F S2048 .f32 := Host.absf main_arg9
  let main_cst_16 : FVec F S_ .f32 := constant S_ .f32 0x7F800000#32
  let main_v45 : FVec F S2048 .f32 := broadcastInDim S2048 ![] bcast_S_S2048 main_cst_16
  let main_v46 : IVec S2048 1 := cmpf .olt main_v44 main_v45
  let main_c_17 : IVec S_ 1 := constantI S_ 1 1#1
  let main_v47 : IVec S_ 1 := (fun x v => Host.reduce IntOp.andi x v reducesTo_S2048_S_d0 h_S_) main_v46 main_c_17
  let main_v48 : IVec S_ 1 := andi main_v43 main_v47
  let main_v49 : FVec F S8192x4096 .f32 := Host.absf main_arg10
  let main_cst_18 : FVec F S_ .f32 := constant S_ .f32 0x7F800000#32
  let main_v50 : FVec F S8192x4096 .f32 := broadcastInDim S8192x4096 ![] bcast_S_S8192x4096 main_cst_18
  fn_part3 (F := F) main_v48 main_v49 main_v50

def fn_part1 {F : FTy → Type} [FloatOps F] (main_arg4 : FVec F S4096 .f32) (main_arg5 : FVec F S4096 .f32) (main_arg6 : FVec F S4096x2048 .f32) (main_arg7 : FVec F S2048 .f32) (main_arg8 : FVec F S2048 .f32) (main_arg9 : FVec F S2048 .f32) (main_arg10 : FVec F S8192x4096 .f32) (main_v13 : IVec S_ 1) (main_v16 : IVec S4096 1) : IVec S_ 1 :=
  let main_c_5 : IVec S_ 1 := constantI S_ 1 1#1
  let main_v17 : IVec S_ 1 := (fun x v => Host.reduce IntOp.andi x v reducesTo_S4096_S_d0 h_S_) main_v16 main_c_5
  let main_v18 : IVec S_ 1 := andi main_v13 main_v17
  let main_v19 : FVec F S4096 .f32 := Host.absf main_arg4
  let main_cst_6 : FVec F S_ .f32 := constant S_ .f32 0x7F800000#32
  let main_v20 : FVec F S4096 .f32 := broadcastInDim S4096 ![] bcast_S_S4096 main_cst_6
  let main_v21 : IVec S4096 1 := cmpf .olt main_v19 main_v20
  let main_c_7 : IVec S_ 1 := constantI S_ 1 1#1
  let main_v22 : IVec S_ 1 := (fun x v => Host.reduce IntOp.andi x v reducesTo_S4096_S_d0 h_S_) main_v21 main_c_7
  let main_v23 : IVec S_ 1 := andi main_v18 main_v22
  let main_v24 : FVec F S4096 .f32 := Host.absf main_arg5
  let main_cst_8 : FVec F S_ .f32 := constant S_ .f32 0x7F800000#32
  let main_v25 : FVec F S4096 .f32 := broadcastInDim S4096 ![] bcast_S_S4096 main_cst_8
  let main_v26 : IVec S4096 1 := cmpf .olt main_v24 main_v25
  let main_c_9 : IVec S_ 1 := constantI S_ 1 1#1
  let main_v27 : IVec S_ 1 := (fun x v => Host.reduce IntOp.andi x v reducesTo_S4096_S_d0 h_S_) main_v26 main_c_9
  let main_v28 : IVec S_ 1 := andi main_v23 main_v27
  let main_v29 : FVec F S4096x2048 .f32 := Host.absf main_arg6
  let main_cst_10 : FVec F S_ .f32 := constant S_ .f32 0x7F800000#32
  let main_v30 : FVec F S4096x2048 .f32 := broadcastInDim S4096x2048 ![] bcast_S_S4096x2048 main_cst_10
  let main_v31 : IVec S4096x2048 1 := cmpf .olt main_v29 main_v30
  let main_c_11 : IVec S_ 1 := constantI S_ 1 1#1
  let main_v32 : IVec S_ 1 := (fun x v => Host.reduce IntOp.andi x v reducesTo_S4096x2048_S_d0_1 h_S_) main_v31 main_c_11
  let main_v33 : IVec S_ 1 := andi main_v28 main_v32
  fn_part2 (F := F) main_arg7 main_arg8 main_arg9 main_arg10 main_v33

def fn {F : FTy → Type} [FloatOps F] (main_arg0 : FVec F S8192x312 .f32) (main_arg1 : FVec F S8192x312 .f32) (main_arg2 : FVec F S624x4096 .f32) (main_arg3 : FVec F S4096 .f32) (main_arg4 : FVec F S4096 .f32) (main_arg5 : FVec F S4096 .f32) (main_arg6 : FVec F S4096x2048 .f32) (main_arg7 : FVec F S2048 .f32) (main_arg8 : FVec F S2048 .f32) (main_arg9 : FVec F S2048 .f32) (main_arg10 : FVec F S8192x4096 .f32) : IVec S_ 1 :=
  let main_v0 : FVec F S8192x312 .f32 := Host.absf main_arg0
  let main_cst : FVec F S_ .f32 := constant S_ .f32 0x7F800000#32
  let main_v1 : FVec F S8192x312 .f32 := broadcastInDim S8192x312 ![] bcast_S_S8192x312 main_cst
  let main_v2 : IVec S8192x312 1 := cmpf .olt main_v0 main_v1
  let main_c : IVec S_ 1 := constantI S_ 1 1#1
  let main_v3 : IVec S_ 1 := (fun x v => Host.reduce IntOp.andi x v reducesTo_S8192x312_S_d0_1 h_S_) main_v2 main_c
  let main_v4 : FVec F S8192x312 .f32 := Host.absf main_arg1
  let main_cst_0 : FVec F S_ .f32 := constant S_ .f32 0x7F800000#32
  let main_v5 : FVec F S8192x312 .f32 := broadcastInDim S8192x312 ![] bcast_S_S8192x312 main_cst_0
  let main_v6 : IVec S8192x312 1 := cmpf .olt main_v4 main_v5
  let main_c_1 : IVec S_ 1 := constantI S_ 1 1#1
  let main_v7 : IVec S_ 1 := (fun x v => Host.reduce IntOp.andi x v reducesTo_S8192x312_S_d0_1 h_S_) main_v6 main_c_1
  let main_v8 : IVec S_ 1 := andi main_v3 main_v7
  let main_v9 : FVec F S624x4096 .f32 := Host.absf main_arg2
  let main_cst_2 : FVec F S_ .f32 := constant S_ .f32 0x7F800000#32
  let main_v10 : FVec F S624x4096 .f32 := broadcastInDim S624x4096 ![] bcast_S_S624x4096 main_cst_2
  let main_v11 : IVec S624x4096 1 := cmpf .olt main_v9 main_v10
  let main_c_3 : IVec S_ 1 := constantI S_ 1 1#1
  let main_v12 : IVec S_ 1 := (fun x v => Host.reduce IntOp.andi x v reducesTo_S624x4096_S_d0_1 h_S_) main_v11 main_c_3
  let main_v13 : IVec S_ 1 := andi main_v8 main_v12
  let main_v14 : FVec F S4096 .f32 := Host.absf main_arg3
  let main_cst_4 : FVec F S_ .f32 := constant S_ .f32 0x7F800000#32
  let main_v15 : FVec F S4096 .f32 := broadcastInDim S4096 ![] bcast_S_S4096 main_cst_4
  let main_v16 : IVec S4096 1 := cmpf .olt main_v14 main_v15
  fn_part1 (F := F) main_arg4 main_arg5 main_arg6 main_arg7 main_arg8 main_arg9 main_arg10 main_v13 main_v16
-- ==== Kernel.lean ====
abbrev S8192x312 : Shape := ⟨2, ![8192, 312]⟩
abbrev S624x4096 : Shape := ⟨2, ![624, 4096]⟩
abbrev S4096 : Shape := ⟨1, ![4096]⟩
abbrev S4096x2048 : Shape := ⟨2, ![4096, 2048]⟩
abbrev S2048 : Shape := ⟨1, ![2048]⟩
abbrev S8192x4096 : Shape := ⟨2, ![8192, 4096]⟩
abbrev S1x4096 : Shape := ⟨2, ![1, 4096]⟩
abbrev S1x2048 : Shape := ⟨2, ![1, 2048]⟩
abbrev S512x312 : Shape := ⟨2, ![512, 312]⟩
abbrev S512x4096 : Shape := ⟨2, ![512, 4096]⟩
abbrev S512x624 : Shape := ⟨2, ![512, 624]⟩
abbrev S8192x2048 : Shape := ⟨2, ![8192, 2048]⟩
abbrev S128x4096 : Shape := ⟨2, ![128, 4096]⟩
abbrev S128x2048 : Shape := ⟨2, ![128, 2048]⟩
abbrev S512x2048 : Shape := ⟨2, ![512, 2048]⟩

abbrev nBuf : Space → Nat
  | .hbm => 29
  | .vmem => 32
  | .smem => 0
  | _ => 0

abbrev bufTy : (tb : Table) → Fin (tcTables nBuf tb) → BufTy
  | .hbm, ⟨0, _⟩ => ⟨S8192x312, .f32⟩
  | .hbm, ⟨1, _⟩ => ⟨S8192x312, .f32⟩
  | .hbm, ⟨2, _⟩ => ⟨S624x4096, .f32⟩
  | .hbm, ⟨3, _⟩ => ⟨S4096, .f32⟩
  | .hbm, ⟨4, _⟩ => ⟨S4096, .f32⟩
  | .hbm, ⟨5, _⟩ => ⟨S4096, .f32⟩
  | .hbm, ⟨6, _⟩ => ⟨S4096x2048, .f32⟩
  | .hbm, ⟨7, _⟩ => ⟨S2048, .f32⟩
  | .hbm, ⟨8, _⟩ => ⟨S2048, .f32⟩
  | .hbm, ⟨9, _⟩ => ⟨S2048, .f32⟩
  | .hbm, ⟨10, _⟩ => ⟨S8192x4096, .f32⟩
  | .hbm, ⟨11, _⟩ => ⟨S8192x312, .bf16⟩
  | .hbm, ⟨12, _⟩ => ⟨S8192x312, .bf16⟩
  | .hbm, ⟨13, _⟩ => ⟨S624x4096, .bf16⟩
  | .hbm, ⟨14, _⟩ => ⟨S4096x2048, .bf16⟩
  | .hbm, ⟨15, _⟩ => ⟨S8192x4096, .bf16⟩
  | .hbm, ⟨16, _⟩ => ⟨S1x4096, .f32⟩
  | .hbm, ⟨17, _⟩ => ⟨S1x4096, .f32⟩
  | .hbm, ⟨18, _⟩ => ⟨S1x4096, .f32⟩
  | .hbm, ⟨19, _⟩ => ⟨S1x2048, .f32⟩
  | .hbm, ⟨20, _⟩ => ⟨S1x2048, .f32⟩
  | .hbm, ⟨21, _⟩ => ⟨S1x2048, .f32⟩
  | .hbm, ⟨22, _⟩ => ⟨S8192x4096, .f32⟩
  | .hbm, ⟨23, _⟩ => ⟨S1x4096, .f32⟩
  | .hbm, ⟨24, _⟩ => ⟨S1x4096, .f32⟩
  | .hbm, ⟨25, _⟩ => ⟨S8192x2048, .f32⟩
  | .hbm, ⟨26, _⟩ => ⟨S1x2048, .f32⟩
  | .hbm, ⟨27, _⟩ => ⟨S1x2048, .f32⟩
  | .hbm, ⟨28, _⟩ => ⟨S8192x2048, .f32⟩
  | .local _ .vmem, ⟨0, _⟩ => ⟨S512x312, .bf16⟩
  | .local _ .vmem, ⟨1, _⟩ => ⟨S512x312, .bf16⟩
  | .local _ .vmem, ⟨2, _⟩ => ⟨S512x312, .bf16⟩
  | .local _ .vmem, ⟨3, _⟩ => ⟨S512x312, .bf16⟩
  | .local _ .vmem, ⟨4, _⟩ => ⟨S624x4096, .bf16⟩
  | .local _ .vmem, ⟨5, _⟩ => ⟨S1x4096, .f32⟩
  | .local _ .vmem, ⟨6, _⟩ => ⟨S512x4096, .f32⟩
  | .local _ .vmem, ⟨7, _⟩ => ⟨S512x4096, .f32⟩
  | .local _ .vmem, ⟨8, _⟩ => ⟨S1x4096, .f32⟩
  | .local _ .vmem, ⟨9, _⟩ => ⟨S1x4096, .f32⟩
  | .local _ .vmem, ⟨10, _⟩ => ⟨S128x4096, .f32⟩
  | .local _ .vmem, ⟨11, _⟩ => ⟨S128x4096, .f32⟩
  | .local _ .vmem, ⟨12, _⟩ => ⟨S1x4096, .f32⟩
  | .local _ .vmem, ⟨13, _⟩ => ⟨S1x4096, .f32⟩
  | .local _ .vmem, ⟨14, _⟩ => ⟨S1x4096, .f32⟩
  | .local _ .vmem, ⟨15, _⟩ => ⟨S1x4096, .f32⟩
  | .local _ .vmem, ⟨16, _⟩ => ⟨S128x4096, .bf16⟩
  | .local _ .vmem, ⟨17, _⟩ => ⟨S128x4096, .bf16⟩
  | .local _ .vmem, ⟨18, _⟩ => ⟨S4096x2048, .bf16⟩
  | .local _ .vmem, ⟨19, _⟩ => ⟨S1x2048, .f32⟩
  | .local _ .vmem, ⟨20, _⟩ => ⟨S128x2048, .f32⟩
  | .local _ .vmem, ⟨21, _⟩ => ⟨S128x2048, .f32⟩
  | .local _ .vmem, ⟨22, _⟩ => ⟨S1x2048, .f32⟩
  | .local _ .vmem, ⟨23, _⟩ => ⟨S1x2048, .f32⟩
  | .local _ .vmem, ⟨24, _⟩ => ⟨S512x2048, .f32⟩
  | .local _ .vmem, ⟨25, _⟩ => ⟨S512x2048, .f32⟩
  | .local _ .vmem, ⟨26, _⟩ => ⟨S1x2048, .f32⟩
  | .local _ .vmem, ⟨27, _⟩ => ⟨S1x2048, .f32⟩
  | .local _ .vmem, ⟨28, _⟩ => ⟨S1x2048, .f32⟩
  | .local _ .vmem, ⟨29, _⟩ => ⟨S1x2048, .f32⟩
  | .local _ .vmem, ⟨30, _⟩ => ⟨S512x2048, .f32⟩
  | .local _ .vmem, ⟨31, _⟩ => ⟨S512x2048, .f32⟩
  | _, _ => ⟨S8192x312, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11_0 : Ref sig .tc := ⟨.hbm, 22, rfl⟩
abbrev main_v11_1 : Ref sig .tc := ⟨.hbm, 23, rfl⟩
abbrev main_v11_2 : Ref sig .tc := ⟨.hbm, 24, rfl⟩
abbrev main_v12_0 : Ref sig .tc := ⟨.hbm, 25, rfl⟩
abbrev main_v12_1 : Ref sig .tc := ⟨.hbm, 26, rfl⟩
abbrev main_v12_2 : Ref sig .tc := ⟨.hbm, 27, rfl⟩
abbrev main_v13 : Ref sig .tc := ⟨.hbm, 28, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc1_stg6_0 : Ref sig .tc := ⟨.vmem, 18, rfl⟩
abbrev cc1_stg7_0 : Ref sig .tc := ⟨.vmem, 19, rfl⟩
abbrev cc1_stg8_0 : Ref sig .tc := ⟨.vmem, 20, rfl⟩
abbrev cc1_stg8_1 : Ref sig .tc := ⟨.vmem, 21, rfl⟩
abbrev cc1_stg9_0 : Ref sig .tc := ⟨.vmem, 22, rfl⟩
abbrev cc1_stg10_0 : Ref sig .tc := ⟨.vmem, 23, rfl⟩
abbrev cc2_stg0_0 : Ref sig .tc := ⟨.vmem, 24, rfl⟩
abbrev cc2_stg0_1 : Ref sig .tc := ⟨.vmem, 25, rfl⟩
abbrev cc2_stg1_0 : Ref sig .tc := ⟨.vmem, 26, rfl⟩
abbrev cc2_stg2_0 : Ref sig .tc := ⟨.vmem, 27, rfl⟩
abbrev cc2_stg3_0 : Ref sig .tc := ⟨.vmem, 28, rfl⟩
abbrev cc2_stg4_0 : Ref sig .tc := ⟨.vmem, 29, rfl⟩
abbrev cc2_stg5_0 : Ref sig .tc := ⟨.vmem, 30, rfl⟩
abbrev cc2_stg5_1 : Ref sig .tc := ⟨.vmem, 31, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem6_0 : DmaSem sig := 9
abbrev cc1_sem0_0 : DmaSem sig := 10
abbrev cc1_sem0_1 : DmaSem sig := 11
abbrev cc1_sem1_0 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17
abbrev cc1_sem6_0 : DmaSem sig := 18
abbrev cc1_sem7_0 : DmaSem sig := 19
abbrev cc1_sem8_0 : DmaSem sig := 20
abbrev cc1_sem8_1 : DmaSem sig := 21
abbrev cc1_sem9_0 : DmaSem sig := 22
abbrev cc1_sem10_0 : DmaSem sig := 23
abbrev cc2_sem0_0 : DmaSem sig := 24
abbrev cc2_sem0_1 : DmaSem sig := 25
abbrev cc2_sem1_0 : DmaSem sig := 26
abbrev cc2_sem2_0 : DmaSem sig := 27
abbrev cc2_sem3_0 : DmaSem sig := 28
abbrev cc2_sem4_0 : DmaSem sig := 29
abbrev cc2_sem5_0 : DmaSem sig := 30
abbrev cc2_sem5_1 : DmaSem sig := 31

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x312 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x312 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S624x4096 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x4096 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x4096 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x4096 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x4096 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev grid1 : Pipeline.Grid := ⟨1, ![64], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_9 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_10 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S128x4096 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x4096 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x4096 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x4096 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x4096 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S128x4096 .bf16 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 1 → Memref sig .tc .vmem S4096x2048 .bf16 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S1x2048 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 2 → Memref sig .tc .vmem S128x2048 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]

abbrev stage1_9 : Fin 1 → Memref sig .tc .vmem S1x2048 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false]

abbrev stage1_10 : Fin 1 → Memref sig .tc .vmem S1x2048 .f32 := fun | 0 => Memref.whole cc1_stg10_0 | ⟨_ + 1, h⟩ => absurd h (Nat.not_lt.2 (Nat.le_add_left _ _))
abbrev sem1_10 : Fin 1 → DmaSem sig := fun | 0 => cc1_sem10_0 | ⟨_ + 1, h⟩ => absurd h (Nat.not_lt.2 (Nat.le_add_left _ _))
abbrev reads1_10 : Fin grid1.rank → Bool := ![false]

abbrev grid2 : Pipeline.Grid := ⟨1, ![16], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S512x2048 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x2048 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x2048 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x2048 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x2048 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S512x2048 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

class Facts₀ : Prop where
  bitsLt_bf16_f32 : FTy.bits .bf16 < FTy.bits .f32
  shapeCasts_S4096_S1x4096 : S4096.ShapeCasts S1x4096
  shapeCasts_S2048_S1x2048 : S2048.ShapeCasts S1x2048
  inb_S1x4096_S1x4096_0_0 : ∀ a, (![0, 0] : Fin 2 → Nat) a + S1x4096.size a ≤ S1x4096.size a
  h_S1x4096 : 0 < S1x4096.numel
  inb_S512x312_S512x312_0_0 : ∀ a, (![0, 0] : Fin 2 → Nat) a + S512x312.size a ≤ S512x312.size a
  h_S512x312 : 0 < S512x312.numel
  shapeCasts_S512x312_S512x312 : S512x312.ShapeCasts S512x312
  concatenates_S512x312_S512x312_S512x624_d1 : Shape.Concatenates [S512x312, S512x312] S512x624 1
  inb_S624x4096_S624x4096_0_0 : ∀ a, (![0, 0] : Fin 2 → Nat) a + S624x4096.size a ≤ S624x4096.size a
  h_S624x4096 : 0 < S624x4096.numel
  shapeCasts_S624x4096_S624x4096 : S624x4096.ShapeCasts S624x4096
  shapeCasts_S1x4096_S1x4096 : S1x4096.ShapeCasts S1x4096
  broadcasts_S1x4096_S512x4096 : S1x4096.Broadcasts S512x4096
  inb_S512x4096_S512x4096_0_0 : ∀ a, (![0, 0] : Fin 2 → Nat) a + S512x4096.size a ≤ S512x4096.size a
  h_S512x4096 : 0 < S512x4096.numel
  reduces_S512x4096_S4096 : S512x4096.Reduces [0] S4096
  inb_S1x2048_S1x2048_0_0 : ∀ a, (![0, 0] : Fin 2 → Nat) a + S1x2048.size a ≤ S1x2048.size a
  h_S1x2048 : 0 < S1x2048.numel
  inb_S128x4096_S128x4096_0_0 : ∀ a, (![0, 0] : Fin 2 → Nat) a + S128x4096.size a ≤ S128x4096.size a
  h_S128x4096 : 0 < S128x4096.numel
  shapeCasts_S128x4096_S128x4096 : S128x4096.ShapeCasts S128x4096
  broadcasts_S1x4096_S128x4096 : S1x4096.Broadcasts S128x4096
  inb_S4096x2048_S4096x2048_0_0 : ∀ a, (![0, 0] : Fin 2 → Nat) a + S4096x2048.size a ≤ S4096x2048.size a
  h_S4096x2048 : 0 < S4096x2048.numel
  shapeCasts_S4096x2048_S4096x2048 : S4096x2048.ShapeCasts S4096x2048
  shapeCasts_S1x2048_S1x2048 : S1x2048.ShapeCasts S1x2048
  broadcasts_S1x2048_S128x2048 : S1x2048.Broadcasts S128x2048
  inb_S128x2048_S128x2048_0_0 : ∀ a, (![0, 0] : Fin 2 → Nat) a + S128x2048.size a ≤ S128x2048.size a
  h_S128x2048 : 0 < S128x2048.numel
  reduces_S128x2048_S2048 : S128x2048.Reduces [0] S2048
  inb_S512x2048_S512x2048_0_0 : ∀ a, (![0, 0] : Fin 2 → Nat) a + S512x2048.size a ≤ S512x2048.size a
  h_S512x2048 : 0 < S512x2048.numel
  shapeCasts_S512x2048_S512x2048 : S512x2048.ShapeCasts S512x2048
  broadcasts_S1x2048_S512x2048 : S1x2048.Broadcasts S512x2048
  dot_S512x624_S624x4096_S512x4096_1_0_0_1_n_n_wf : DotDims.WF S512x624 S624x4096 S512x4096 [1] [0] [0] [1] [] []
  dot_S128x4096_S4096x2048_S128x2048_1_0_0_1_n_n_wf : DotDims.WF S128x4096 S4096x2048 S128x2048 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x312.size a ≤ S8192x312.size a
  hwx0_0 : ∀ i : grid0.Coords, EltTy.bits .bf16 = 32 ∨ (Rect.block (s := S8192x312) S512x312.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x312.size a ≤ S8192x312.size a
  hwx0_1 : ∀ i : grid0.Coords, EltTy.bits .bf16 = 32 ∨ (Rect.block (s := S8192x312) S512x312.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S624x4096.size a ≤ S624x4096.size a
  hwx0_2 : ∀ i : grid0.Coords, EltTy.bits .bf16 = 32 ∨ (Rect.block (s := S624x4096) S624x4096.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x4096.size a ≤ S1x4096.size a
  hwx0_3 : ∀ i : grid0.Coords, EltTy.bits .f32 = 32 ∨ (Rect.block (s := S1x4096) S1x4096.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S512x4096.size a ≤ S8192x4096.size a
  hwx0_4 : ∀ i : grid0.Coords, EltTy.bits .f32 = 32 ∨ (Rect.block (s := S8192x4096) S512x4096.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x4096.size a ≤ S1x4096.size a
  hwx0_5 : ∀ i : grid0.Coords, EltTy.bits .f32 = 32 ∨ (Rect.block (s := S1x4096) S1x4096.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x4096.size a ≤ S1x4096.size a
  hwx0_6 : ∀ i : grid0.Coords, EltTy.bits .f32 = 32 ∨ (Rect.block (s := S1x4096) S1x4096.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S128x4096.size a ≤ S8192x4096.size a
  hwx1_0 : ∀ i : grid1.Coords, EltTy.bits .f32 = 32 ∨ (Rect.block (s := S8192x4096) S128x4096.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x4096.size a ≤ S1x4096.size a
  hwx1_1 : ∀ i : grid1.Coords, EltTy.bits .f32 = 32 ∨ (Rect.block (s := S1x4096) S1x4096.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x4096.size a ≤ S1x4096.size a
  hwx1_2 : ∀ i : grid1.Coords, EltTy.bits .f32 = 32 ∨ (Rect.block (s := S1x4096) S1x4096.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x4096.size a ≤ S1x4096.size a
  hwx1_3 : ∀ i : grid1.Coords, EltTy.bits .f32 = 32 ∨ (Rect.block (s := S1x4096) S1x4096.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x4096.size a ≤ S1x4096.size a
  hwx1_4 : ∀ i : grid1.Coords, EltTy.bits .f32 = 32 ∨ (Rect.block (s := S1x4096) S1x4096.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S128x4096.size a ≤ S8192x4096.size a
  hwx1_5 : ∀ i : grid1.Coords, EltTy.bits .bf16 = 32 ∨ (Rect.block (s := S8192x4096) S128x4096.size (cc1_transform_5 i) (hinb1_5 i)).WholeWords (EltTy.packing .bf16)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S4096x2048.size a ≤ S4096x2048.size a
  hwx1_6 : ∀ i : grid1.Coords, EltTy.bits .bf16 = 32 ∨ (Rect.block (s := S4096x2048) S4096x2048.size (cc1_transform_6 i) (hinb1_6 i)).WholeWords (EltTy.packing .bf16)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S1x2048.size a ≤ S1x2048.size a
  hwx1_7 : ∀ i : grid1.Coords, EltTy.bits .f32 = 32 ∨ (Rect.block (s := S1x2048) S1x2048.size (cc1_transform_7 i) (hinb1_7 i)).WholeWords (EltTy.packing .f32)
  hstage1_8 : ∀ j, (stage1_8 j).IsWhole
  nbuf1_8 : grid1.bufCount reads1_8 false = 2
  hreads1_8 : ∀ i i' : grid1.Coords, (∀ a, reads1_8 a = true → i a = i' a) → cc1_transform_8 i = cc1_transform_8 i'
  hinb1_8 : ∀ (i : grid1.Coords) a, (cc1_transform_8 i a + 1) * S128x2048.size a ≤ S8192x2048.size a
  hwx1_8 : ∀ i : grid1.Coords, EltTy.bits .f32 = 32 ∨ (Rect.block (s := S8192x2048) S128x2048.size (cc1_transform_8 i) (hinb1_8 i)).WholeWords (EltTy.packing .f32)
  hstage1_9 : ∀ j, (stage1_9 j).IsWhole
  nbuf1_9 : grid1.bufCount reads1_9 true = 1
  hreads1_9 : ∀ i i' : grid1.Coords, (∀ a, reads1_9 a = true → i a = i' a) → cc1_transform_9 i = cc1_transform_9 i'
  hinb1_9 : ∀ (i : grid1.Coords) a, (cc1_transform_9 i a + 1) * S1x2048.size a ≤ S1x2048.size a
  hwx1_9 : ∀ i : grid1.Coords, EltTy.bits .f32 = 32 ∨ (Rect.block (s := S1x2048) S1x2048.size (cc1_transform_9 i) (hinb1_9 i)).WholeWords (EltTy.packing .f32)
  hstage1_10 : ∀ j, (stage1_10 j).IsWhole
  nbuf1_10 : grid1.bufCount reads1_10 true = 1
  hreads1_10 : ∀ i i' : grid1.Coords, (∀ a, reads1_10 a = true → i a = i' a) → cc1_transform_10 i = cc1_transform_10 i'
  hinb1_10 : ∀ (i : grid1.Coords) a, (cc1_transform_10 i a + 1) * S1x2048.size a ≤ S1x2048.size a
  hwx1_10 : ∀ i : grid1.Coords, EltTy.bits .f32 = 32 ∨ (Rect.block (s := S1x2048) S1x2048.size (cc1_transform_10 i) (hinb1_10 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S512x2048.size a ≤ S8192x2048.size a
  hwx2_0 : ∀ i : grid2.Coords, EltTy.bits .f32 = 32 ∨ (Rect.block (s := S8192x2048) S512x2048.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x2048.size a ≤ S1x2048.size a
  hwx2_1 : ∀ i : grid2.Coords, EltTy.bits .f32 = 32 ∨ (Rect.block (s := S1x2048) S1x2048.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x2048.size a ≤ S1x2048.size a
  hwx2_2 : ∀ i : grid2.Coords, EltTy.bits .f32 = 32 ∨ (Rect.block (s := S1x2048) S1x2048.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x2048.size a ≤ S1x2048.size a
  hwx2_3 : ∀ i : grid2.Coords, EltTy.bits .f32 = 32 ∨ (Rect.block (s := S1x2048) S1x2048.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x2048.size a ≤ S1x2048.size a
  hwx2_4 : ∀ i : grid2.Coords, EltTy.bits .f32 = 32 ∨ (Rect.block (s := S1x2048) S1x2048.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S512x2048.size a ≤ S8192x2048.size a
  hwx2_5 : ∀ i : grid2.Coords, EltTy.bits .f32 = 32 ∨ (Rect.block (s := S8192x2048) S512x2048.size (cc2_transform_5 i) (hinb2_5 i)).WholeWords (EltTy.packing .f32)

variable [Facts₀]

def dot_S512x624_S624x4096_S512x4096_1_0_0_1_n_n : DotDims S512x624 S624x4096 S512x4096 where
  lhsContracting := [1]
  rhsContracting := [0]
  lhsNonContracting := [0]
  rhsNonContracting := [1]
  lhsBatch := []
  rhsBatch := []
  wf := dot_S512x624_S624x4096_S512x4096_1_0_0_1_n_n_wf
def dot_S128x4096_S4096x2048_S128x2048_1_0_0_1_n_n : DotDims S128x4096 S4096x2048 S128x2048 where
  lhsContracting := [1]
  rhsContracting := [0]
  lhsNonContracting := [0]
  rhsNonContracting := [1]
  lhsBatch := []
  rhsBatch := []
  wf := dot_S128x4096_S4096x2048_S128x2048_1_0_0_1_n_n_wf

abbrev win0_0 : Pipeline.Window sig grid0 :=
  Pipeline.Window.ofSpec (Memref.whole main_v0) S512x312.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S512x312.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S624x4096.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v5) S1x4096.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v11_0) S512x4096.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v11_1) S1x4096.size cc0_transform_5 reads0_5 true true 1 stage0_5 sem0_5
    hrank0 hreads0_5 hinb0_5 nbuf0_5 (Memref.isWhole_whole _) hwx0_5 hstage0_5

abbrev win0_6 : Pipeline.Window sig grid0 :=
  Pipeline.Window.ofSpec (Memref.whole main_v11_2) S1x4096.size cc0_transform_6 reads0_6 true true 1 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v11_0) S128x4096.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v11_1) S1x4096.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v11_2) S1x4096.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v6) S1x4096.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v7) S1x4096.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v4) S128x4096.size cc1_transform_5 reads1_5 false false 2 stage1_5 sem1_5
    hrank1 hreads1_5 hinb1_5 nbuf1_5 (Memref.isWhole_whole _) hwx1_5 hstage1_5

abbrev win1_6 : Pipeline.Window sig grid1 :=
  Pipeline.Window.ofSpec (Memref.whole main_v3) S4096x2048.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v8) S1x2048.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v12_0) S128x2048.size cc1_transform_8 reads1_8 true false 2 stage1_8 sem1_8
    hrank1 hreads1_8 hinb1_8 nbuf1_8 (Memref.isWhole_whole _) hwx1_8 hstage1_8

abbrev win1_9 : Pipeline.Window sig grid1 :=
  Pipeline.Window.ofSpec (Memref.whole main_v12_1) S1x2048.size cc1_transform_9 reads1_9 true true 1 stage1_9 sem1_9
    hrank1 hreads1_9 hinb1_9 nbuf1_9 (Memref.isWhole_whole _) hwx1_9 hstage1_9

abbrev win1_10 : Pipeline.Window sig grid1 :=
  Pipeline.Window.ofSpec (Memref.whole main_v12_2) S1x2048.size cc1_transform_10 reads1_10 true true 1 stage1_10 sem1_10
    hrank1 hreads1_10 hinb1_10 nbuf1_10 (Memref.isWhole_whole _) hwx1_10 hstage1_10

abbrev win1 : Fin 11 → Pipeline.Window sig grid1 := fun | 0 => win1_0 | 1 => win1_1 | 2 => win1_2 | 3 => win1_3 | 4 => win1_4 | 5 => win1_5 | 6 => win1_6 | 7 => win1_7 | 8 => win1_8 | 9 => win1_9 | 10 => win1_10 | ⟨_ + 11, h⟩ => absurd h (Nat.not_lt.2 (Nat.le_add_left _ _))
abbrev spec1 : Fin 11 → Pipeline.WinSpec sig grid1.rank := fun w => (win1 w).toWinSpec

abbrev win2_0 : Pipeline.Window sig grid2 :=
  Pipeline.Window.ofSpec (Memref.whole main_v12_0) S512x2048.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v12_1) S1x2048.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v12_2) S1x2048.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v9) S1x2048.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v10) S1x2048.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v13) S512x2048.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

class Facts : Prop extends Facts₀ where

variable [Facts]
-- ==== ReferenceIdeal.lean ====
abbrev S8192x312 : Shape := ⟨2, ![8192, 312]⟩
abbrev S624x4096 : Shape := ⟨2, ![624, 4096]⟩
abbrev S4096 : Shape := ⟨1, ![4096]⟩
abbrev S4096x2048 : Shape := ⟨2, ![4096, 2048]⟩
abbrev S2048 : Shape := ⟨1, ![2048]⟩
abbrev S8192x4096 : Shape := ⟨2, ![8192, 4096]⟩
abbrev S8192x624 : Shape := ⟨2, ![8192, 624]⟩
abbrev S1x4096 : Shape := ⟨2, ![1, 4096]⟩
abbrev S_ : Shape := ⟨0, ![]⟩
abbrev S8192x2048 : Shape := ⟨2, ![8192, 2048]⟩
abbrev S1x2048 : Shape := ⟨2, ![1, 2048]⟩

abbrev nBuf : Space → Nat
  | .hbm => 91
  | .vmem => 0
  | .smem => 0
  | _ => 0

abbrev bufTy : (tb : Table) → Fin (tcTables nBuf tb) → BufTy
  | .hbm, ⟨0, _⟩ => ⟨S8192x312, .f32⟩
  | .hbm, ⟨1, _⟩ => ⟨S8192x312, .f32⟩
  | .hbm, ⟨2, _⟩ => ⟨S624x4096, .f32⟩
  | .hbm, ⟨3, _⟩ => ⟨S4096, .f32⟩
  | .hbm, ⟨4, _⟩ => ⟨S4096, .f32⟩
  | .hbm, ⟨5, _⟩ => ⟨S4096, .f32⟩
  | .hbm, ⟨6, _⟩ => ⟨S4096x2048, .f32⟩
  | .hbm, ⟨7, _⟩ => ⟨S2048, .f32⟩
  | .hbm, ⟨8, _⟩ => ⟨S2048, .f32⟩
  | .hbm, ⟨9, _⟩ => ⟨S2048, .f32⟩
  | .hbm, ⟨10, _⟩ => ⟨S8192x4096, .f32⟩
  | .hbm, ⟨11, _⟩ => ⟨S8192x624, .f32⟩
  | .hbm, ⟨12, _⟩ => ⟨S8192x4096, .f32⟩
  | .hbm, ⟨13, _⟩ => ⟨S1x4096, .f32⟩
  | .hbm, ⟨14, _⟩ => ⟨S8192x4096, .f32⟩
  | .hbm, ⟨15, _⟩ => ⟨S8192x4096, .f32⟩
  | .hbm, ⟨16, _⟩ => ⟨S_, .f32⟩
  | .hbm, ⟨17, _⟩ => ⟨S4096, .f32⟩
  | .hbm, ⟨18, _⟩ => ⟨S_, .f32⟩
  | .hbm, ⟨19, _⟩ => ⟨S4096, .f32⟩
  | .hbm, ⟨20, _⟩ => ⟨S4096, .f32⟩
  | .hbm, ⟨21, _⟩ => ⟨S1x4096, .f32⟩
  | .hbm, ⟨22, _⟩ => ⟨S8192x4096, .f32⟩
  | .hbm, ⟨23, _⟩ => ⟨S8192x4096, .f32⟩
  | .hbm, ⟨24, _⟩ => ⟨S8192x4096, .f32⟩
  | .hbm, ⟨25, _⟩ => ⟨S_, .f32⟩
  | .hbm, ⟨26, _⟩ => ⟨S4096, .f32⟩
  | .hbm, ⟨27, _⟩ => ⟨S_, .f32⟩
  | .hbm, ⟨28, _⟩ => ⟨S4096, .f32⟩
  | .hbm, ⟨29, _⟩ => ⟨S4096, .f32⟩
  | .hbm, ⟨30, _⟩ => ⟨S1x4096, .f32⟩
  | .hbm, ⟨31, _⟩ => ⟨S8192x4096, .f32⟩
  | .hbm, ⟨32, _⟩ => ⟨S8192x4096, .f32⟩
  | .hbm, ⟨33, _⟩ => ⟨S1x4096, .f32⟩
  | .hbm, ⟨34, _⟩ => ⟨S8192x4096, .f32⟩
  | .hbm, ⟨35, _⟩ => ⟨S8192x4096, .f32⟩
  | .hbm, ⟨36, _⟩ => ⟨S_, .f32⟩
  | .hbm, ⟨37, _⟩ => ⟨S4096, .f32⟩
  | .hbm, ⟨38, _⟩ => ⟨S4096, .f32⟩
  | .hbm, ⟨39, _⟩ => ⟨S4096, .f32⟩
  | .hbm, ⟨40, _⟩ => ⟨S1x4096, .f32⟩
  | .hbm, ⟨41, _⟩ => ⟨S8192x4096, .f32⟩
  | .hbm, ⟨42, _⟩ => ⟨S8192x4096, .f32⟩
  | .hbm, ⟨43, _⟩ => ⟨S1x4096, .f32⟩
  | .hbm, ⟨44, _⟩ => ⟨S8192x4096, .f32⟩
  | .hbm, ⟨45, _⟩ => ⟨S8192x4096, .f32⟩
  | .hbm, ⟨46, _⟩ => ⟨S_, .f32⟩
  | .hbm, ⟨47, _⟩ => ⟨S8192x4096, .f32⟩
  | .hbm, ⟨48, _⟩ => ⟨S8192x4096, .i1⟩
  | .hbm, ⟨49, _⟩ => ⟨S_, .f32⟩
  | .hbm, ⟨50, _⟩ => ⟨S8192x4096, .f32⟩
  | .hbm, ⟨51, _⟩ => ⟨S8192x4096, .f32⟩
  | .hbm, ⟨52, _⟩ => ⟨S8192x4096, .f32⟩
  | .hbm, ⟨53, _⟩ => ⟨S8192x4096, .f32⟩
  | .hbm, ⟨54, _⟩ => ⟨S8192x2048, .f32⟩
  | .hbm, ⟨55, _⟩ => ⟨S1x2048, .f32⟩
  | .hbm, ⟨56, _⟩ => ⟨S8192x2048, .f32⟩
  | .hbm, ⟨57, _⟩ => ⟨S8192x2048, .f32⟩
  | .hbm, ⟨58, _⟩ => ⟨S_, .f32⟩
  | .hbm, ⟨59, _⟩ => ⟨S2048, .f32⟩
  | .hbm, ⟨60, _⟩ => ⟨S_, .f32⟩
  | .hbm, ⟨61, _⟩ => ⟨S2048, .f32⟩
  | .hbm, ⟨62, _⟩ => ⟨S2048, .f32⟩
  | .hbm, ⟨63, _⟩ => ⟨S1x2048, .f32⟩
  | .hbm, ⟨64, _⟩ => ⟨S8192x2048, .f32⟩
  | .hbm, ⟨65, _⟩ => ⟨S8192x2048, .f32⟩
  | .hbm, ⟨66, _⟩ => ⟨S8192x2048, .f32⟩
  | .hbm, ⟨67, _⟩ => ⟨S_, .f32⟩
  | .hbm, ⟨68, _⟩ => ⟨S2048, .f32⟩
  | .hbm, ⟨69, _⟩ => ⟨S_, .f32⟩
  | .hbm, ⟨70, _⟩ => ⟨S2048, .f32⟩
  | .hbm, ⟨71, _⟩ => ⟨S2048, .f32⟩
  | .hbm, ⟨72, _⟩ => ⟨S1x2048, .f32⟩
  | .hbm, ⟨73, _⟩ => ⟨S8192x2048, .f32⟩
  | .hbm, ⟨74, _⟩ => ⟨S8192x2048, .f32⟩
  | .hbm, ⟨75, _⟩ => ⟨S1x2048, .f32⟩
  | .hbm, ⟨76, _⟩ => ⟨S8192x2048, .f32⟩
  | .hbm, ⟨77, _⟩ => ⟨S8192x2048, .f32⟩
  | .hbm, ⟨78, _⟩ => ⟨S_, .f32⟩
  | .hbm, ⟨79, _⟩ => ⟨S2048, .f32⟩
  | .hbm, ⟨80, _⟩ => ⟨S2048, .f32⟩
  | .hbm, ⟨81, _⟩ => ⟨S2048, .f32⟩
  | .hbm, ⟨82, _⟩ => ⟨S1x2048, .f32⟩
  | .hbm, ⟨83, _⟩ => ⟨S8192x2048, .f32⟩
  | .hbm, ⟨84, _⟩ => ⟨S8192x2048, .f32⟩
  | .hbm, ⟨85, _⟩ => ⟨S1x2048, .f32⟩
  | .hbm, ⟨86, _⟩ => ⟨S8192x2048, .f32⟩
  | .hbm, ⟨87, _⟩ => ⟨S8192x2048, .f32⟩
  | .hbm, ⟨88, _⟩ => ⟨S_, .f32⟩
  | .hbm, ⟨89, _⟩ => ⟨S8192x2048, .f32⟩
  | .hbm, ⟨90, _⟩ => ⟨S8192x2048, .f32⟩
  | _, _ => ⟨S8192x312, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_cst : Ref sig .tc := ⟨.hbm, 16, rfl⟩
abbrev main_v5 : Ref sig .tc := ⟨.hbm, 17, rfl⟩
abbrev main_cst_0 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_cst_1 : Ref sig .tc := ⟨.hbm, 25, rfl⟩
abbrev main_v12 : Ref sig .tc := ⟨.hbm, 26, rfl⟩
abbrev main_cst_2 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_cst_3 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_cst_4 : Ref sig .tc := ⟨.hbm, 46, rfl⟩
abbrev main_v30 : Ref sig .tc := ⟨.hbm, 47, rfl⟩
abbrev main_v31 : Ref sig .tc := ⟨.hbm, 48, rfl⟩
abbrev main_cst_5 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_cst_6 : Ref sig .tc := ⟨.hbm, 58, rfl⟩
abbrev main_v40 : Ref sig .tc := ⟨.hbm, 59, rfl⟩
abbrev main_cst_7 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_cst_8 : Ref sig .tc := ⟨.hbm, 67, rfl⟩
abbrev main_v47 : Ref sig .tc := ⟨.hbm, 68, rfl⟩
abbrev main_cst_9 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_cst_10 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_call1_cst : Ref sig .tc := ⟨.hbm, 88, rfl⟩
abbrev main_call1_v0 : Ref sig .tc := ⟨.hbm, 89, rfl⟩
abbrev main_v65 : Ref sig .tc := ⟨.hbm, 90, rfl⟩

abbrev nD : Nat := 1
abbrev τ : Topo := Topo.v7x

variable {F : FTy → Type} [FloatOps F]

class Facts₀ : Prop where
  concatenates_S8192x312_S8192x312_S8192x624_d1 : Shape.Concatenates [S8192x312, S8192x312] S8192x624 1
  bcast_S4096_S1x4096_1 : S4096.BroadcastsInDim S1x4096 (![1] : Fin 1 → Fin S1x4096.rank)
  bcast_S1x4096_S8192x4096_0_1 : S1x4096.BroadcastsInDim S8192x4096 (![0, 1] : Fin 2 → Fin S8192x4096.rank)
  reducesTo_S8192x4096_S4096_d0 : S8192x4096.ReducesTo [0] S4096
  h_S_ : 0 < S_.numel
  bcast_S_S4096 : S_.BroadcastsInDim S4096 (![] : Fin 0 → Fin S4096.rank)
  bcast_S_S8192x4096 : S_.BroadcastsInDim S8192x4096 (![] : Fin 0 → Fin S8192x4096.rank)
  bcast_S2048_S1x2048_1 : S2048.BroadcastsInDim S1x2048 (![1] : Fin 1 → Fin S1x2048.rank)
  bcast_S1x2048_S8192x2048_0_1 : S1x2048.BroadcastsInDim S8192x2048 (![0, 1] : Fin 2 → Fin S8192x2048.rank)
  reducesTo_S8192x2048_S2048_d0 : S8192x2048.ReducesTo [0] S2048
  bcast_S_S2048 : S_.BroadcastsInDim S2048 (![] : Fin 0 → Fin S2048.rank)
  bcast_S_S8192x2048 : S_.BroadcastsInDim S8192x2048 (![] : Fin 0 → Fin S8192x2048.rank)
  dot_S8192x624_S624x4096_S8192x4096_1_0_0_1_n_n_wf : DotDims.WF S8192x624 S624x4096 S8192x4096 [1] [0] [0] [1] [] []
  dot_S8192x4096_S4096x2048_S8192x2048_1_0_0_1_n_n_wf : DotDims.WF S8192x4096 S4096x2048 S8192x2048 [1] [0] [0] [1] [] []

variable [Facts₀]

def dot_S8192x624_S624x4096_S8192x4096_1_0_0_1_n_n : DotDims S8192x624 S624x4096 S8192x4096 where
  lhsContracting := [1]
  rhsContracting := [0]
  lhsNonContracting := [0]
  rhsNonContracting := [1]
  lhsBatch := []
  rhsBatch := []
  wf := dot_S8192x624_S624x4096_S8192x4096_1_0_0_1_n_n_wf
def dot_S8192x4096_S4096x2048_S8192x2048_1_0_0_1_n_n : DotDims S8192x4096 S4096x2048 S8192x2048 where
  lhsContracting := [1]
  rhsContracting := [0]
  lhsNonContracting := [0]
  rhsNonContracting := [1]
  lhsBatch := []
  rhsBatch := []
  wf := dot_S8192x4096_S4096x2048_S8192x2048_1_0_0_1_n_n_wf

class Facts : Prop extends Facts₀ where

variable [Facts]
-- ==== Proof.KernelRun.lean ====
/-
  The idealized kernel's run with its result named.

  The program is a stretch of host operations followed by three kernel launches. Every weakly fair execution ends with
  each buffer that is not scoped to a launch at the contents the last launch leaves: the result buffer at what the third
  launch's write-backs leave of its output, and the eleven argument buffers as they were.
-/
import proofs.«178448_j5592047419764_2_alg».proof.Proof.Gen.KernelIdeal.Frame

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution terminates without a fault, the result buffer holding what the third launch leaves and
    the arguments unchanged. -/
theorem run_result : θ_run defs (onTc (τ := τ) (main (F := F))) ⟨m, fun _ => 0, ρ⟩ (fun r => ∀ c : Dev nD,
      r.2.mem ((c.tc : Thread nD τ).loc main_v13) = W4 m ρ c (Proc.devRef .tc main_v13)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v13 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c),
       (h c _ (mem_uc main_arg7 (by decide))).trans (W4_main_arg7 m ρ c),
       (h c _ (mem_uc main_arg8 (by decide))).trans (W4_main_arg8 m ρ c),
       (h c _ (mem_uc main_arg9 (by decide))).trans (W4_main_arg9 m ρ c),
       (h c _ (mem_uc main_arg10 (by decide))).trans (W4_main_arg10 m ρ c)⟩)

end Cert.KernelIdeal.RunValue

end
-- ==== Proof.KernelChain.lean ====
/-
  The kernel program's buffers at each boundary between its host stretch and its three launches, read back to the
  arguments.

  The host stretch only changes formats and adds a leading unit axis: over the extended reals a change of format is
  the identity, and a row with a unit axis in front reads the vector it came from. Each launch then leaves its
  output arrays at what its pipeline wrote back and every other buffer as it found it.
-/
import proofs.«178448_j5592047419764_2_alg».proof.Proof.Gen.KernelIdeal.Frame
import Idealize.ShloMosaic.Lib.Pipeline.Value
import Idealize.ShloMosaic.Lib.ValueIdx
import Idealize.ShloMosaic.Lib.ValueLayout
import Idealize.ShloMosaic.Lib.Tactic

noncomputable section

open Idealize.ShloMosaic Idealize.ShloMosaic.TcCoe Idealize.SL.Sem
open Idealize.ShloMosaic.Pipeline (Dat)

namespace Cert.KernelIdeal.Chain

open Cert.KernelIdeal Cert.KernelIdeal.Gen Idealize.ShloMosaic.ValueIdx Idealize.ShloMosaic.StableHlo

variable (m : (ℓ : Loc nD τ sig) → Buf (Elt Ideal) ℓ) (ρ : Dev nD → PrngReg) (c : Dev nD)

/-! ## The host stretch: a change of format is the identity, a unit axis in front reads the vector -/

/-- The first input block enters the first launch as the argument itself. -/
theorem host_x (p : Fin 8192) (k : Fin 312) :
    V1 m ρ c main_v0 (ix2 p k) = m ((c : Thread nD τ).loc main_arg0) (ix2 p k) := by
  have e : (V1 m ρ c main_v0 : S8192x312.Idx → EReal) = (m ((c : Thread nD τ).loc main_arg0) : S8192x312.Idx → EReal) := by
    dsimp only [Gen.V1, Gen.W1, Gen.W0, Gen.hostOps0]
    after_results
    rfl
  exact congrFun e (ix2 p k)

/-- The second input block likewise. -/
theorem host_n (p : Fin 8192) (k : Fin 312) :
    V1 m ρ c main_v1 (ix2 p k) = m ((c : Thread nD τ).loc main_arg1) (ix2 p k) := by
  have e : (V1 m ρ c main_v1 : S8192x312.Idx → EReal) = (m ((c : Thread nD τ).loc main_arg1) : S8192x312.Idx → EReal) := by
    dsimp only [Gen.V1, Gen.W1, Gen.W0, Gen.hostOps0]
    after_results
    rfl
  exact congrFun e (ix2 p k)

/-- The first layer's weights likewise. -/
theorem host_w1 (k : Fin 624) (q : Fin 4096) :
    V1 m ρ c main_v2 (ix2 k q) = m ((c : Thread nD τ).loc main_arg2) (ix2 k q) := by
  have e : (V1 m ρ c main_v2 : S624x4096.Idx → EReal) = (m ((c : Thread nD τ).loc main_arg2) : S624x4096.Idx → EReal) := by
    dsimp only [Gen.V1, Gen.W1, Gen.W0, Gen.hostOps0]
    after_results
    rfl
  exact congrFun e (ix2 k q)

/-- The second layer's weights likewise. -/
theorem host_w2 (k : Fin 4096) (q : Fin 2048) :
    V1 m ρ c main_v3 (ix2 k q) = m ((c : Thread nD τ).loc main_arg6) (ix2 k q) := by
  have e : (V1 m ρ c main_v3 : S4096x2048.Idx → EReal) = (m ((c : Thread nD τ).loc main_arg6) : S4096x2048.Idx → EReal) := by
    dsimp only [Gen.V1, Gen.W1, Gen.W0, Gen.hostOps0]
    after_results
    rfl
  exact congrFun e (ix2 k q)

/-- The mask likewise. -/
theorem host_mask (p : Fin 8192) (k : Fin 4096) :
    V1 m ρ c main_v4 (ix2 p k) = m ((c : Thread nD τ).loc main_arg10) (ix2 p k) := by
  have e : (V1 m ρ c main_v4 : S8192x4096.Idx → EReal) = (m ((c : Thread nD τ).loc main_arg10) : S8192x4096.Idx → EReal) := by
    dsimp only [Gen.V1, Gen.W1, Gen.W0, Gen.hostOps0]
    after_results
    rfl
  exact congrFun e (ix2 p k)

/-- The first layer's bias, as a row with a unit axis in front, reads the bias vector. -/
theorem host_b1 (q : Fin 4096) :
    V1 m ρ c main_v5 (ix2 (0 : Fin 1) q) = m ((c : Thread nD τ).loc main_arg3) (ix1 q) := by
  have e : (V1 m ρ c main_v5 : S1x4096.Idx → EReal)
      = shapeCast S1x4096 (m ((c : Thread nD τ).loc main_arg3) : S4096.Idx → EReal) shapeCasts_S4096_S1x4096 := by
    dsimp only [Gen.V1, Gen.W1, Gen.W0, Gen.hostOps0]
    after_results
    rfl
  exact (congrFun e (ix2 (0 : Fin 1) q)).trans (shapeCast_a_1a_apply _ _ 0 q)

/-- The first normalisation's scale likewise. -/
theorem host_g1 (q : Fin 4096) :
    V1 m ρ c main_v6 (ix2 (0 : Fin 1) q) = m ((c : Thread nD τ).loc main_arg4) (ix1 q) := by
  have e : (V1 m ρ c main_v6 : S1x4096.Idx → EReal)
      = shapeCast S1x4096 (m ((c : Thread nD τ).loc main_arg4) : S4096.Idx → EReal) shapeCasts_S4096_S1x4096 := by
    dsimp only [Gen.V1, Gen.W1, Gen.W0, Gen.hostOps0]
    after_results
    rfl
  exact (congrFun e (ix2 (0 : Fin 1) q)).trans (shapeCast_a_1a_apply _ _ 0 q)

/-- The first normalisation's shift likewise. -/
theorem host_be1 (q : Fin 4096) :
    V1 m ρ c main_v7 (ix2 (0 : Fin 1) q) = m ((c : Thread nD τ).loc main_arg5) (ix1 q) := by
  have e : (V1 m ρ c main_v7 : S1x4096.Idx → EReal)
      = shapeCast S1x4096 (m ((c : Thread nD τ).loc main_arg5) : S4096.Idx → EReal) shapeCasts_S4096_S1x4096 := by
    dsimp only [Gen.V1, Gen.W1, Gen.W0, Gen.hostOps0]
    after_results
    rfl
  exact (congrFun e (ix2 (0 : Fin 1) q)).trans (shapeCast_a_1a_apply _ _ 0 q)

/-- The second layer's bias likewise. -/
theorem host_b2 (q : Fin 2048) :
    V1 m ρ c main_v8 (ix2 (0 : Fin 1) q) = m ((c : Thread nD τ).loc main_arg7) (ix1 q) := by
  have e : (V1 m ρ c main_v8 : S1x2048.Idx → EReal)
      = shapeCast S1x2048 (m ((c : Thread nD τ).loc main_arg7) : S2048.Idx → EReal) shapeCasts_S2048_S1x2048 := by
    dsimp only [Gen.V1, Gen.W1, Gen.W0, Gen.hostOps0]
    after_results
    rfl
  exact (congrFun e (ix2 (0 : Fin 1) q)).trans (shapeCast_a_1a_apply _ _ 0 q)

/-- The second normalisation's scale likewise. -/
theorem host_g2 (q : Fin 2048) :
    V1 m ρ c main_v9 (ix2 (0 : Fin 1) q) = m ((c : Thread nD τ).loc main_arg8) (ix1 q) := by
  have e : (V1 m ρ c main_v9 : S1x2048.Idx → EReal)
      = shapeCast S1x2048 (m ((c : Thread nD τ).loc main_arg8) : S2048.Idx → EReal) shapeCasts_S2048_S1x2048 := by
    dsimp only [Gen.V1, Gen.W1, Gen.W0, Gen.hostOps0]
    after_results
    rfl
  exact (congrFun e (ix2 (0 : Fin 1) q)).trans (shapeCast_a_1a_apply _ _ 0 q)

/-- The second normalisation's shift likewise. -/
theorem host_be2 (q : Fin 2048) :
    V1 m ρ c main_v10 (ix2 (0 : Fin 1) q) = m ((c : Thread nD τ).loc main_arg9) (ix1 q) := by
  have e : (V1 m ρ c main_v10 : S1x2048.Idx → EReal)
      = shapeCast S1x2048 (m ((c : Thread nD τ).loc main_arg9) : S2048.Idx → EReal) shapeCasts_S2048_S1x2048 := by
    dsimp only [Gen.V1, Gen.W1, Gen.W0, Gen.hostOps0]
    after_results
    rfl
  exact (congrFun e (ix2 (0 : Fin 1) q)).trans (shapeCast_a_1a_apply _ _ 0 q)

/-! ## The boundaries: a launch's outputs hold what its pipeline wrote back, every other buffer what it held -/

/-- After the first launch the first layer's output array holds the write-backs of output window 4. -/
theorem after0_block : V2 m ρ c main_v11_0 = (dat0 (V1 m ρ) c).arrAt 4 cfg0.N := W2_arr m ρ c 4
/-- After the first launch the running row of column sums holds the write-backs of window 5. -/
theorem after0_sum : V2 m ρ c main_v11_1 = (dat0 (V1 m ρ) c).arrAt 5 cfg0.N := W2_arr m ρ c 5
/-- After the first launch the running row of column sums of squares holds the write-backs of window 6. -/
theorem after0_sumsq : V2 m ρ c main_v11_2 = (dat0 (V1 m ρ) c).arrAt 6 cfg0.N := W2_arr m ρ c 6

/-- The first launch does not write this buffer. -/
theorem keep0_v3 : V2 m ρ c main_v3 = V1 m ρ c main_v3 := W2_of_ne m ρ c main_v3 (by decide)
/-- The first launch does not write this buffer. -/
theorem keep0_v4 : V2 m ρ c main_v4 = V1 m ρ c main_v4 := W2_of_ne m ρ c main_v4 (by decide)
/-- The first launch does not write this buffer. -/
theorem keep0_v6 : V2 m ρ c main_v6 = V1 m ρ c main_v6 := W2_of_ne m ρ c main_v6 (by decide)
/-- The first launch does not write this buffer. -/
theorem keep0_v7 : V2 m ρ c main_v7 = V1 m ρ c main_v7 := W2_of_ne m ρ c main_v7 (by decide)
/-- The first launch does not write this buffer. -/
theorem keep0_v8 : V2 m ρ c main_v8 = V1 m ρ c main_v8 := W2_of_ne m ρ c main_v8 (by decide)
/-- The first launch does not write this buffer. -/
theorem keep0_v9 : V2 m ρ c main_v9 = V1 m ρ c main_v9 := W2_of_ne m ρ c main_v9 (by decide)
/-- The first launch does not write this buffer. -/
theorem keep0_v10 : V2 m ρ c main_v10 = V1 m ρ c main_v10 := W2_of_ne m ρ c main_v10 (by decide)

/-- After the second launch the second layer's output array holds the write-backs of output window 8. -/
theorem after1_block : V3 m ρ c main_v12_0 = (dat1 (V2 m ρ) c).arrAt 8 cfg1.N := W3_arr m ρ c 8
/-- After the second launch the running row of column sums holds the write-backs of window 9. -/
theorem after1_sum : V3 m ρ c main_v12_1 = (dat1 (V2 m ρ) c).arrAt 9 cfg1.N := W3_arr m ρ c 9
/-- After the second launch the running row of column sums of squares holds the write-backs of window 10. -/
theorem after1_sumsq : V3 m ρ c main_v12_2 = (dat1 (V2 m ρ) c).arrAt 10 cfg1.N := W3_arr m ρ c 10

/-- The second launch does not write this buffer. -/
theorem keep1_v9 : V3 m ρ c main_v9 = V2 m ρ c main_v9 := W3_of_ne m ρ c main_v9 (by decide)
/-- The second launch does not write this buffer. -/
theorem keep1_v10 : V3 m ρ c main_v10 = V2 m ρ c main_v10 := W3_of_ne m ρ c main_v10 (by decide)

/-- After the third launch the result array holds the write-backs of output window 5. -/
theorem result : W4 m ρ c (Proc.devRef .tc main_v13) = (dat2 (V3 m ρ) c).arrAt 5 cfg2.N := W4_arr m ρ c 5

end Cert.KernelIdeal.Chain

end
-- ==== Proof.Stage1Pieces.lean ====
/-
  The first launch, one grid point at a time: what the body leaves in each output's staging buffer.

  The body computes the block `h = [x | noise]·W1 + b1` of 512 rows, stores it, and adds the block's column sums and
  column sums of squares into two running rows. At the first point the two rows are first set to zero; at the other
  points they continue from what the previous point left. So each output after a point is one payload of the blocks
  loaded at that point (and, for the running rows, of the row before).
-/
import proofs.«178448_j5592047419764_2_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)

namespace Cert.KernelIdeal.Stage1

open Cert.KernelIdeal Cert.KernelIdeal.Gen

variable {F : FTy → Type} [FloatOps F]

theorem hz : (![0, 0] : Fin 2 → Nat) = fun _ => 0 := funext fun a => by fin_cases a <;> rfl

/-- A point after the first: the stored block is the affine payload of the loaded blocks. -/
theorem later_block (c : Dev nD) (i : grid0.Coords) (a1 : Memref sig .tc .vmem S512x312 .bf16) (h1 : a1.IsWhole) (a2 : Memref sig .tc .vmem S512x312 .bf16) (h2 : a2.IsWhole) (a3 : Memref sig .tc .vmem S624x4096 .bf16) (h3 : a3.IsWhole) (a4 : Memref sig .tc .vmem S1x4096 .f32) (h4 : a4.IsWhole) (a5 : Memref sig .tc .vmem S512x4096 .f32) (h5 : a5.IsWhole) (a6 : Memref sig .tc .vmem S1x4096 .f32) (h6 : a6.IsWhole) (a7 : Memref sig .tc .vmem S1x4096 .f32) (h7 : a7.IsWhole) (hc : ¬cond0_0 i)
    (x0 x1 : Vec F S512x312 .bf16) (x2 : Vec F S624x4096 .bf16) (x3 xo5 xo6 : Vec F S1x4096 .f32) :
    out0_B_4 c i a1 h1 a2 h2 a3 h3 a4 h4 a5 h5 a6 h6 a7 h7 hc x0 x1 x2 x3 xo5 xo6 = k0_pay3 x0 x1 x2 x3 := by
  unfold out0_B_4
  rw [View.read_writes_eq_canon _ _ _ (cover0_B_4 c i a1 h1 a2 h2 a3 h3 a4 h4 a5 h5 a6 h6 a7 h7 hc x0 x1 x2 x3 xo5 xo6)]
  unfold kernelRun0_B
  dsimp only
  rw [View.canon_unit_zero hz]
  simp only [View.readAt_eq_ld, h1.read_unread, h2.read_unread, h3.read_unread, h4.read_unread, View.ld_unit_zero (S := S512x312) hz, View.ld_unit_zero (S := S624x4096) hz, View.ld_unit_zero (S := S1x4096) hz]

/-- A point after the first: the running row of sums is the row before plus the block's column sums. -/
theorem later_sum (c : Dev nD) (i : grid0.Coords) (a1 : Memref sig .tc .vmem S512x312 .bf16) (h1 : a1.IsWhole) (a2 : Memref sig .tc .vmem S512x312 .bf16) (h2 : a2.IsWhole) (a3 : Memref sig .tc .vmem S624x4096 .bf16) (h3 : a3.IsWhole) (a4 : Memref sig .tc .vmem S1x4096 .f32) (h4 : a4.IsWhole) (a5 : Memref sig .tc .vmem S512x4096 .f32) (h5 : a5.IsWhole) (a6 : Memref sig .tc .vmem S1x4096 .f32) (h6 : a6.IsWhole) (a7 : Memref sig .tc .vmem S1x4096 .f32) (h7 : a7.IsWhole) (hc : ¬cond0_0 i)
    (x0 x1 : Vec F S512x312 .bf16) (x2 : Vec F S624x4096 .bf16) (x3 xo5 xo6 : Vec F S1x4096 .f32) :
    out0_B_5 c i a1 h1 a2 h2 a3 h3 a4 h4 a5 h5 a6 h6 a7 h7 hc x0 x1 x2 x3 xo5 xo6 = k0_pay4 x0 x1 x2 x3 xo5 := by
  unfold out0_B_5
  rw [View.read_writes_eq_canon _ _ _ (cover0_B_5 c i a1 h1 a2 h2 a3 h3 a4 h4 a5 h5 a6 h6 a7 h7 hc x0 x1 x2 x3 xo5 xo6)]
  unfold kernelRun0_B
  dsimp only
  rw [View.canon_unit_zero hz]
  simp only [View.readAt_eq_ld, h1.read_unread, h2.read_unread, h3.read_unread, h4.read_unread, View.ld_unit_zero (S := S512x312) hz, View.ld_unit_zero (S := S624x4096) hz, View.ld_unit_zero (S := S1x4096) hz, h6.read_unread]

/-- A point after the first: the running row of sums of squares likewise. -/
theorem later_sumsq (c : Dev nD) (i : grid0.Coords) (a1 : Memref sig .tc .vmem S512x312 .bf16) (h1 : a1.IsWhole) (a2 : Memref sig .tc .vmem S512x312 .bf16) (h2 : a2.IsWhole) (a3 : Memref sig .tc .vmem S624x4096 .bf16) (h3 : a3.IsWhole) (a4 : Memref sig .tc .vmem S1x4096 .f32) (h4 : a4.IsWhole) (a5 : Memref sig .tc .vmem S512x4096 .f32) (h5 : a5.IsWhole) (a6 : Memref sig .tc .vmem S1x4096 .f32) (h6 : a6.IsWhole) (a7 : Memref sig .tc .vmem S1x4096 .f32) (h7 : a7.IsWhole) (hc : ¬cond0_0 i)
    (x0 x1 : Vec F S512x312 .bf16) (x2 : Vec F S624x4096 .bf16) (x3 xo5 xo6 : Vec F S1x4096 .f32) :
    out0_B_6 c i a1 h1 a2 h2 a3 h3 a4 h4 a5 h5 a6 h6 a7 h7 hc x0 x1 x2 x3 xo5 xo6 = k0_pay5 x0 x1 x2 x3 xo6 := by
  unfold out0_B_6
  rw [View.read_writes_eq_canon _ _ _ (cover0_B_6 c i a1 h1 a2 h2 a3 h3 a4 h4 a5 h5 a6 h6 a7 h7 hc x0 x1 x2 x3 xo5 xo6)]
  unfold kernelRun0_B
  dsimp only
  rw [View.canon_unit_zero hz]
  simp only [View.readAt_eq_ld, h1.read_unread, h2.read_unread, h3.read_unread, h4.read_unread, View.ld_unit_zero (S := S512x312) hz, View.ld_unit_zero (S := S624x4096) hz, View.ld_unit_zero (S := S1x4096) hz, h7.read_unread]

/-- The first point: the stored block is the same payload. -/
theorem first_block (c : Dev nD) (i : grid0.Coords) (a1 : Memref sig .tc .vmem S512x312 .bf16) (h1 : a1.IsWhole) (a2 : Memref sig .tc .vmem S512x312 .bf16) (h2 : a2.IsWhole) (a3 : Memref sig .tc .vmem S624x4096 .bf16) (h3 : a3.IsWhole) (a4 : Memref sig .tc .vmem S1x4096 .f32) (h4 : a4.IsWhole) (a5 : Memref sig .tc .vmem S512x4096 .f32) (h5 : a5.IsWhole) (a6 : Memref sig .tc .vmem S1x4096 .f32) (h6 : a6.IsWhole) (a7 : Memref sig .tc .vmem S1x4096 .f32) (h7 : a7.IsWhole) (hc : cond0_0 i)
    (x0 x1 : Vec F S512x312 .bf16) (x2 : Vec F S624x4096 .bf16) (x3 : Vec F S1x4096 .f32) :
    out0_A_4 c i a1 h1 a2 h2 a3 h3 a4 h4 a5 h5 a6 h6 a7 h7 hc x0 x1 x2 x3 = k0_pay3 x0 x1 x2 x3 := by
  unfold out0_A_4
  rw [View.read_writes_eq_canon _ _ _ (cover0_A_4 c i a1 h1 a2 h2 a3 h3 a4 h4 a5 h5 a6 h6 a7 h7 hc x0 x1 x2 x3)]
  unfold kernelRun0_A
  dsimp only
  rw [View.canon_unit_zero hz]
  simp only [View.readAt_eq_ld, h1.read_unread, h2.read_unread, h3.read_unread, h4.read_unread, View.ld_unit_zero (S := S512x312) hz, View.ld_unit_zero (S := S624x4096) hz, View.ld_unit_zero (S := S1x4096) hz]

/-- The first point: the running row of sums starts from the zero row the body has just stored. -/
theorem first_sum (c : Dev nD) (i : grid0.Coords) (a1 : Memref sig .tc .vmem S512x312 .bf16) (h1 : a1.IsWhole) (a2 : Memref sig .tc .vmem S512x312 .bf16) (h2 : a2.IsWhole) (a3 : Memref sig .tc .vmem S624x4096 .bf16) (h3 : a3.IsWhole) (a4 : Memref sig .tc .vmem S1x4096 .f32) (h4 : a4.IsWhole) (a5 : Memref sig .tc .vmem S512x4096 .f32) (h5 : a5.IsWhole) (a6 : Memref sig .tc .vmem S1x4096 .f32) (h6 : a6.IsWhole) (a7 : Memref sig .tc .vmem S1x4096 .f32) (h7 : a7.IsWhole) (hc : cond0_0 i)
    (x0 x1 : Vec F S512x312 .bf16) (x2 : Vec F S624x4096 .bf16) (x3 : Vec F S1x4096 .f32) :
    out0_A_5 c i a1 h1 a2 h2 a3 h3 a4 h4 a5 h5 a6 h6 a7 h7 hc x0 x1 x2 x3 = k0_pay4 x0 x1 x2 x3 k0_pay1 := by
  unfold out0_A_5
  rw [View.read_writes_eq_canon _ _ _ (cover0_A_5 c i a1 h1 a2 h2 a3 h3 a4 h4 a5 h5 a6 h6 a7 h7 hc x0 x1 x2 x3)]
  unfold kernelRun0_A
  dsimp only
  sl_unfold_words
  rw [View.canon_cons_unit_zero (S := S1x4096) hz, View.readCov_unit_zero (S := S1x4096) _ hz]
  simp only [View.readAt_eq_ld, h1.read_unread, h2.read_unread, h3.read_unread, h4.read_unread, View.ld_unit_zero (S := S512x312) hz, View.ld_unit_zero (S := S624x4096) hz, View.ld_unit_zero (S := S1x4096) hz]

/-- The first point: the running row of sums of squares likewise. -/
theorem first_sumsq (c : Dev nD) (i : grid0.Coords) (a1 : Memref sig .tc .vmem S512x312 .bf16) (h1 : a1.IsWhole) (a2 : Memref sig .tc .vmem S512x312 .bf16) (h2 : a2.IsWhole) (a3 : Memref sig .tc .vmem S624x4096 .bf16) (h3 : a3.IsWhole) (a4 : Memref sig .tc .vmem S1x4096 .f32) (h4 : a4.IsWhole) (a5 : Memref sig .tc .vmem S512x4096 .f32) (h5 : a5.IsWhole) (a6 : Memref sig .tc .vmem S1x4096 .f32) (h6 : a6.IsWhole) (a7 : Memref sig .tc .vmem S1x4096 .f32) (h7 : a7.IsWhole) (hc : cond0_0 i)
    (x0 x1 : Vec F S512x312 .bf16) (x2 : Vec F S624x4096 .bf16) (x3 : Vec F S1x4096 .f32) :
    out0_A_6 c i a1 h1 a2 h2 a3 h3 a4 h4 a5 h5 a6 h6 a7 h7 hc x0 x1 x2 x3 = k0_pay5 x0 x1 x2 x3 k0_pay2 := by
  unfold out0_A_6
  rw [View.read_writes_eq_canon _ _ _ (cover0_A_6 c i a1 h1 a2 h2 a3 h3 a4 h4 a5 h5 a6 h6 a7 h7 hc x0 x1 x2 x3)]
  unfold kernelRun0_A
  dsimp only
  sl_unfold_words
  rw [View.canon_cons_unit_zero (S := S1x4096) hz, View.readCov_unit_zero (S := S1x4096) _ hz]
  simp only [View.readAt_eq_ld, h1.read_unread, h2.read_unread, h3.read_unread, h4.read_unread, View.ld_unit_zero (S := S512x312) hz, View.ld_unit_zero (S := S624x4096) hz, View.ld_unit_zero (S := S1x4096) hz]

end Cert.KernelIdeal.Stage1

end
-- ==== Proof.Spec.lean ====
/-
  A two-layer perceptron with batch normalisation, written as functions on the extended reals.

  The input of the first layer is two row blocks side by side. Each layer is affine, `x·W + b`, followed by a
  normalisation of every column over the batch, `γ·(h − μ)·rsqrt(v + ε) + β`. Between the layers sits a leaky
  rectifier and an entrywise mask; after the second normalisation a rectifier.

  The column statistics come in two arrangements. One divides: `μ = (z + Σₚ h) / n` and
  `v = (z + Σₚ (h − μ)²) / n`. The other multiplies by a reciprocal and uses the second moment:
  `μ = (Σₚ h)·c` and `v = max((Σₚ h²)·c − μ², z)`. With `z = 0`, `n` the batch size and `c = 1/n` the two
  agree on real data (`BnMath`), because the mean of the squared deviations is the mean of the squares minus
  the square of the mean, and that number is never negative.

  The constants `z`, `n`, `c`, `ε` and the rectifier's slope are parameters here.
-/
import Idealize.ShloMosaic.PureOps.Ideal

noncomputable section

namespace Cert.Mlp

open Idealize.ShloMosaic

variable {B K N : ℕ}

/-- Two row blocks `x` (`K₁` columns) and `y` (`K₂` columns) side by side: column `k` is `x`'s for `k < K₁`
    and `y`'s column `k − K₁` otherwise. -/
def joined {K₁ K₂ : ℕ} (hK : K₁ + K₂ = K) (x : Fin B → Fin K₁ → EReal) (y : Fin B → Fin K₂ → EReal)
    (p : Fin B) (k : Fin K) : EReal :=
  if h : k.val < K₁ then x p ⟨k.val, h⟩ else y p ⟨k.val - K₁, by omega⟩

/-- The affine layer `x·W + b`. -/
def affine (x : Fin B → Fin K → EReal) (w : Fin K → Fin N → EReal) (b : Fin N → EReal)
    (p : Fin B) (q : Fin N) : EReal :=
  (∑ k : Fin K, x p k * w k q) + b q

/-- The sum of a column over the batch. -/
def colSum (h : Fin B → Fin N → EReal) (q : Fin N) : EReal := ∑ p : Fin B, h p q

/-- The sum of the squares of a column over the batch. -/
def colSumSq (h : Fin B → Fin N → EReal) (q : Fin N) : EReal := ∑ p : Fin B, h p q * h p q

/-- `γ·(h − μ)·rsqrt(v + ε) + β`, column by column. -/
def normalize (eps : EReal) (mu v g be : Fin N → EReal) (h : Fin B → Fin N → EReal)
    (p : Fin B) (q : Fin N) : EReal :=
  g q * (h p q - mu q) * Ideal.rsqrt (v q + eps) + be q

/-- The column mean as a quotient, the sum started from `z`. -/
def meanDiv (z n : EReal) (h : Fin B → Fin N → EReal) (q : Fin N) : EReal :=
  Ideal.div (z + colSum h q) n

/-- The column variance as the quotient of the summed squared deviations, the sum started from `z`. -/
def varDiv (z n : EReal) (h : Fin B → Fin N → EReal) (q : Fin N) : EReal :=
  Ideal.div (z + ∑ p : Fin B, (h p q - meanDiv z n h q) * (h p q - meanDiv z n h q)) n

/-- The column mean as the sum times a reciprocal `c`. -/
def meanMul (c : EReal) (h : Fin B → Fin N → EReal) (q : Fin N) : EReal := colSum h q * c

/-- The column variance as second moment minus squared mean, clamped below at `z`. -/
def varMul (c z : EReal) (h : Fin B → Fin N → EReal) (q : Fin N) : EReal :=
  max (colSumSq h q * c - meanMul c h q * meanMul c h q) z

/-- The leaky rectifier: `v` where `v ≥ z`, else `s·v`. -/
def leaky (z s v : EReal) : EReal :=
  Scalar.select (FloatOps.cmpf (F := Ideal) (φ := .f32) .oge v z) v (s * v)

/-- The network with the statistics as quotients. -/
def netDiv {K₁ K₂ H O : ℕ} (z n eps s : EReal) (hK : K₁ + K₂ = K)
    (x : Fin B → Fin K₁ → EReal) (y : Fin B → Fin K₂ → EReal)
    (w1 : Fin K → Fin H → EReal) (b1 g1 be1 : Fin H → EReal)
    (w2 : Fin H → Fin O → EReal) (b2 g2 be2 : Fin O → EReal) (mask : Fin B → Fin H → EReal)
    (p : Fin B) (q : Fin O) : EReal :=
  let h := affine (joined hK x y) w1 b1
  let a : Fin B → Fin H → EReal := fun p k =>
    leaky z s (normalize eps (meanDiv z n h) (varDiv z n h) g1 be1 h p k) * mask p k
  let o := affine a w2 b2
  max (normalize eps (meanDiv z n o) (varDiv z n o) g2 be2 o p q) z

/-- The network with the statistics as products with a reciprocal. -/
def netMul {K₁ K₂ H O : ℕ} (z c eps s : EReal) (hK : K₁ + K₂ = K)
    (x : Fin B → Fin K₁ → EReal) (y : Fin B → Fin K₂ → EReal)
    (w1 : Fin K → Fin H → EReal) (b1 g1 be1 : Fin H → EReal)
    (w2 : Fin H → Fin O → EReal) (b2 g2 be2 : Fin O → EReal) (mask : Fin B → Fin H → EReal)
    (p : Fin B) (q : Fin O) : EReal :=
  let h := affine (joined hK x y) w1 b1
  let a : Fin B → Fin H → EReal := fun p k =>
    leaky z s (normalize eps (meanMul c h) (varMul c z h) g1 be1 h p k) * mask p k
  let o := affine a w2 b2
  max (normalize eps (meanMul c o) (varMul c z o) g2 be2 o p q) z

end Cert.Mlp

end
-- ==== Proof.LibPlainMatmul.lean ====
import Idealize.ShloMosaic.PureOps.Ideal.Laws
import Idealize.ShloMosaic.Lib.ValueIdx
import Idealize.ShloMosaic.Lib.Pipeline.Value

noncomputable section

namespace Idealize.ShloMosaic.PlainMatmul

open Idealize.ShloMosaic Idealize.ShloMosaic.ValueIdx

variable {M K N : Nat} {φ₁ φ₂ : FTy}

/-- The dimension numbers of a plain matrix product, rows × contraction by contraction × columns, for any witness of their
    side conditions. -/
abbrev dims (wf : DotDims.WF ⟨2, ![M, K]⟩ ⟨2, ![K, N]⟩ ⟨2, ![M, N]⟩ [1] [0] [0] [1] [] []) :
    DotDims ⟨2, ![M, K]⟩ ⟨2, ![K, N]⟩ ⟨2, ![M, N]⟩ :=
  ⟨[1], [0], [0], [1], [], [], wf⟩

/-- Over the extended reals a plain matrix product into a zero accumulator is, at row `p` and column `q`, the sum over
    the contracted coordinate `k` of the left operand at `(p, k)` times the right operand at `(k, q)`. -/
theorem matmul_zero_apply (wf : DotDims.WF ⟨2, ![M, K]⟩ ⟨2, ![K, N]⟩ ⟨2, ![M, N]⟩ [1] [0] [0] [1] [] [])
    (prec : Option ContractPrecision)
    (lhs : FVec Ideal ⟨2, ![M, K]⟩ φ₁) (rhs : FVec Ideal ⟨2, ![K, N]⟩ φ₂) (p : Fin M) (q : Fin N) :
    FloatOps.matmul (dims wf) prec lhs rhs (constant ⟨2, ![M, N]⟩ .f32 0x00000000#32) (ix2 p q)
      = ∑ k : Fin K, lhs (ix2 p k) * rhs (ix2 k q) := by
  rw [Ideal.matmul_constant_zero_apply, ← Equiv.sum_comp (contrEquiv1 (dims wf) K rfl rfl).symm]
  refine Finset.sum_congr rfl fun k _ => ?_
  have hk := contrEquiv1_symm_val (dims wf) K rfl rfl k
  have el : (dims wf).lhsIdx (ix2 p q) ((contrEquiv1 (dims wf) K rfl rfl).symm k) = ix2 p k := funext fun a => Fin.ext (by
    match a with
    | ⟨0, h0⟩ =>
      unfold DotDims.lhsIdx
      rw [dif_neg (List.not_mem_nil : ¬(⟨0, h0⟩ : Fin 2) ∈ (dims wf).lhsBatch),
        dif_pos (List.mem_singleton.mpr rfl : (⟨0, h0⟩ : Fin 2) ∈ (dims wf).lhsNonContracting)]
      rfl
    | ⟨1, _⟩ => exact ((dims wf).lhsIdx_val_of_single rfl _ _).trans hk)
  have er : (dims wf).rhsIdx (ix2 p q) ((contrEquiv1 (dims wf) K rfl rfl).symm k) = ix2 k q := funext fun a => Fin.ext (by
    match a with
    | ⟨0, _⟩ => exact ((dims wf).rhsIdx_val_of_single rfl _ _).trans hk
    | ⟨1, h1⟩ =>
      unfold DotDims.rhsIdx
      rw [dif_neg (List.not_mem_nil : ¬(⟨1, h1⟩ : Fin 2) ∈ (dims wf).rhsBatch),
        dif_pos (List.mem_singleton.mpr rfl : (⟨1, h1⟩ : Fin 2) ∈ (dims wf).rhsNonContracting)]
      rfl)
  rw [el, er]

end Idealize.ShloMosaic.PlainMatmul

end
-- ==== Proof.LibAxisReduce.lean ====
/-
  Reductions along one axis of a matrix, a matrix product, and values kept on unit axes, read at an index — over the
  extended reals.

  A reduction of an `a × b` matrix along its rows (axis 1) or down its columns (axis 0) leaves a vector; read at a kept
  coordinate it is the sum, or the fold of `min` or `max` from the value the reduction starts at, over the reduced
  coordinate. The two float words of the infinities are `⊤` and `⊥`, so a minimum started at `+∞` and a maximum started at
  `−∞` are characterised by their bounds alone. A vector of per-column values kept as a `1 × b` row and spread down the
  columns reads the value of its column. The product of an `m × k` and a `k × n` matrix accumulated into the zero matrix
  reads, at `(a, b)`, the sum over the contracted coordinate of the products of the entries. A `1 × 1` value's square
  root given a third unit axis and spread over `n` lanes reads the root of the value in every lane.
-/
import Idealize.ShloMosaic.PureOps.Ideal.Laws
import Idealize.ShloMosaic.PureOps.Reduce
import Idealize.ShloMosaic.Lib.ValueIdx
import Idealize.ShloMosaic.Lib.ValueLayout
import Idealize.ShloMosaic.Lib.Pipeline.Value

noncomputable section

namespace Idealize.ShloMosaic.AxisReduce

open Idealize.ShloMosaic Idealize.ShloMosaic.ValueIdx

/-! ## The two infinities as float words -/

/-- The f32 word of `+∞` is the top of the extended reals. -/
theorem ofBits_pinf : Ideal.ofBits .f32 0x7F800000#32 = ⊤ := by simp [Ideal.ofBits, Ideal.ieee]

/-- The f32 word of `−∞` is the bottom of the extended reals. -/
theorem ofBits_ninf : Ideal.ofBits .f32 0xFF800000#32 = ⊥ := by simp [Ideal.ofBits, Ideal.ieee]

/-! ## Reductions along one axis of a matrix, read at the kept coordinate -/

section Reductions
variable {a b : Nat} {φ : FTy}

/-- The index of row `p` with the column `k` put back. -/
theorem lift_ix1 (h : (⟨2, ![a, b]⟩ : Shape).Reduces [1] ⟨1, ![a]⟩) (p : Fin a) (k : Fin b) :
    h.lift (ix1 p) k = ix2 p k :=
  funext fun d => Fin.ext (by
    match d with
    | ⟨0, _⟩ => rfl
    | ⟨1, _⟩ => rfl)

/-- The index of column `c` with the row `k` put back. -/
theorem lift_ix0 (h : (⟨2, ![a, b]⟩ : Shape).Reduces [0] ⟨1, ![b]⟩) (c : Fin b) (k : Fin a) :
    h.lift (ix1 c) k = ix2 k c :=
  funext fun d => Fin.ext (by
    match d with
    | ⟨0, _⟩ => rfl
    | ⟨1, _⟩ => rfl)

/-- Over the extended reals a minimum over one axis, at a kept index, is the fold of `min` over that axis's coordinates
    from the value the reduction starts at. -/
theorem multiReduction_minimumf_single {s t : Shape} {ax : Fin s.rank} (src : FVec Ideal s φ) (acc : BitVec φ.bits)
    (h : s.Reduces [ax] t) (hφ : FKind.Formats φ) (hacc : acc = FKind.minimumf.neutral φ hφ) (j : t.Idx) :
    multiReduction .minimumf [ax] t src acc h hφ hacc j
      = (Finset.univ : Finset (Fin (s.size ax))).fold min (FloatOps.ofBits φ acc) (src ∘ h.lift j) := by
  rw [multiReduction_minimumf_eq_fold]; exact h.fold_filter_drop_single _ _ src j

/-- The minimum along each row, at row `p`: the fold of `min` over the row's entries. -/
theorem rowMin_apply (src : FVec Ideal ⟨2, ![a, b]⟩ φ) (acc : BitVec φ.bits)
    (h : (⟨2, ![a, b]⟩ : Shape).Reduces [1] ⟨1, ![a]⟩) (hφ : FKind.Formats φ) (hacc : acc = FKind.minimumf.neutral φ hφ) (p : Fin a) :
    multiReduction .minimumf [1] ⟨1, ![a]⟩ src acc h hφ hacc (ix1 p)
      = (Finset.univ : Finset (Fin b)).fold min (FloatOps.ofBits φ acc) (fun k => src (ix2 p k)) :=
  (multiReduction_minimumf_single src acc h hφ hacc (ix1 p)).trans
    (congrArg (Finset.fold min (FloatOps.ofBits φ acc) · (Finset.univ : Finset (Fin b)))
      (funext fun k => congrArg src (lift_ix1 h p k)))

/-- The minimum down each column, at column `c`: the fold of `min` over the column's entries. -/
theorem colMin_apply (src : FVec Ideal ⟨2, ![a, b]⟩ φ) (acc : BitVec φ.bits)
    (h : (⟨2, ![a, b]⟩ : Shape).Reduces [0] ⟨1, ![b]⟩) (hφ : FKind.Formats φ) (hacc : acc = FKind.minimumf.neutral φ hφ) (c : Fin b) :
    multiReduction .minimumf [0] ⟨1, ![b]⟩ src acc h hφ hacc (ix1 c)
      = (Finset.univ : Finset (Fin a)).fold min (FloatOps.ofBits φ acc) (fun k => src (ix2 k c)) :=
  (multiReduction_minimumf_single src acc h hφ hacc (ix1 c)).trans
    (congrArg (Finset.fold min (FloatOps.ofBits φ acc) · (Finset.univ : Finset (Fin a)))
      (funext fun k => congrArg src (lift_ix0 h c k)))

/-- The maximum down each column, at column `c`: the fold of `max` over the column's entries. -/
theorem colMax_apply (src : FVec Ideal ⟨2, ![a, b]⟩ φ) (acc : BitVec φ.bits)
    (h : (⟨2, ![a, b]⟩ : Shape).Reduces [0] ⟨1, ![b]⟩) (hφ : FKind.Formats φ) (hacc : acc = FKind.maximumf.neutral φ hφ) (c : Fin b) :
    multiReduction .maximumf [0] ⟨1, ![b]⟩ src acc h hφ hacc (ix1 c)
      = (Finset.univ : Finset (Fin a)).fold max (FloatOps.ofBits φ acc) (fun k => src (ix2 k c)) :=
  (Ideal.multiReduction_maximumf_single src acc h hφ hacc (ix1 c)).trans
    (congrArg (Finset.fold max (FloatOps.ofBits φ acc) · (Finset.univ : Finset (Fin a)))
      (funext fun k => congrArg src (lift_ix0 h c k)))

/-- The sum down each column, at column `c`: the sum of the column's entries. -/
theorem colSum_apply (src : FVec Ideal ⟨2, ![a, b]⟩ φ) (acc : BitVec φ.bits)
    (h : (⟨2, ![a, b]⟩ : Shape).Reduces [0] ⟨1, ![b]⟩) (hφ : FKind.Formats φ) (hacc : acc = FKind.add.neutral φ hφ) (c : Fin b) :
    multiReduction .add [0] ⟨1, ![b]⟩ src acc h hφ hacc (ix1 c) = ∑ k : Fin a, src (ix2 k c) :=
  (Ideal.multiReduction_add_single src acc h hφ hacc (ix1 c)).trans
    (Finset.sum_congr rfl fun k _ => congrArg src (lift_ix0 h c k))

end Reductions

/-! ## A row kept as a unit axis -/

/-- A per-column value kept as a `1 × b` row and spread down the columns of an `a × b` matrix is, at `(p, c)`, the value
    of column `c`. -/
theorem keepdims_row_apply {α : Type} {a b : Nat} (x : (⟨1, ![b]⟩ : Shape).Idx → α)
    (hc : (⟨1, ![b]⟩ : Shape).ShapeCasts ⟨2, ![1, b]⟩) (hb : (⟨2, ![1, b]⟩ : Shape).Broadcasts ⟨2, ![a, b]⟩)
    (p : Fin a) (c : Fin b) :
    broadcastTo ⟨2, ![a, b]⟩ (shapeCast ⟨2, ![1, b]⟩ x hc) hb (ix2 p c) = x (ix1 c) :=
  (broadcastTo_1b_ab_apply _ hb p c).trans (shapeCast_a_1a_apply x hc 0 c)

/-! ## A matrix product into the zero matrix -/

/-- The product of an `m × k` and a `k × n` matrix accumulated into the zero matrix reads, at `(a, b)`, the sum over the
    contracted coordinate of the products of the entries. `w` is the dimension numbers' well-formedness, which a program states. -/
theorem matmul_zero_apply {m k n : Nat} {φ₁ φ₂ : FTy}
    (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂) (a : Fin m) (b : Fin n) :
    matmul (⟨[1], [0], [0], [1], [], [], w⟩ : DotDims ⟨2, ![m, k]⟩ ⟨2, ![k, n]⟩ ⟨2, ![m, n]⟩) prec A B
        (constant (F := Ideal) ⟨2, ![m, n]⟩ .f32 0x00000000#32) (ix2 a b)
      = ∑ c : Fin k, A (ix2 a c) * B (ix2 c b) := by
  refine (Ideal.matmul_constant_zero_apply _ prec A B (ix2 a b)).trans ?_
  rw [← Equiv.sum_comp (contrEquiv1 (⟨[1], [0], [0], [1], [], [], w⟩ : DotDims ⟨2, ![m, k]⟩ ⟨2, ![k, n]⟩ ⟨2, ![m, n]⟩) k rfl rfl).symm]
  refine Finset.sum_congr rfl fun c _ => ?_
  have c2 := contrEquiv1_symm_val
    (⟨[1], [0], [0], [1], [], [], w⟩ : DotDims ⟨2, ![m, k]⟩ ⟨2, ![k, n]⟩ ⟨2, ![m, n]⟩) k rfl rfl c
  have l2 : (⟨[1], [0], [0], [1], [], [], w⟩ : DotDims ⟨2, ![m, k]⟩ ⟨2, ![k, n]⟩ ⟨2, ![m, n]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [0], [0], [1], [], [], w⟩ : DotDims ⟨2, ![m, k]⟩ ⟨2, ![k, n]⟩ ⟨2, ![m, n]⟩).rhsIdx (ix2 a b)
      ((contrEquiv1 _ k rfl rfl).symm c) = ix2 c b := by
    funext ax; apply Fin.ext
    match ax with
    | ⟨0, _⟩ => simp [DotDims.rhsIdx]; exact c2
    | ⟨1, _⟩ => simp [DotDims.rhsIdx]; rfl
  rw [l2, r2]

/-! ## A square root read through unit axes -/

/-- A `[1, 1, 1]` value spread over `n` lanes reads its one entry in every lane. -/
theorem broadcastTo_111_11n_apply {α : Type} {n : Nat} (v : (⟨3, ![1, 1, 1]⟩ : Shape).Idx → α)
    (hb : (⟨3, ![1, 1, 1]⟩ : Shape).Broadcasts ⟨3, ![1, 1, n]⟩) (l : Fin n) :
    broadcastTo ⟨3, ![1, 1, n]⟩ v hb (ix3 (0 : Fin 1) (0 : Fin 1) l) = v (ix3 (0 : Fin 1) (0 : Fin 1) (0 : Fin 1)) := by
  refine broadcastTo_apply v hb (ix3 (0 : Fin 1) (0 : Fin 1) l) (ix3 (0 : Fin 1) (0 : Fin 1) (0 : Fin 1)) fun ax => ?_
  match ax with
  | ⟨0, _⟩ => rfl
  | ⟨1, _⟩ => rfl
  | ⟨2, _⟩ => rfl

/-- A `[1, 1]` value's square root, given a third unit axis (through a cast to its own shape) and spread over `n` lanes,
    reads the root of the value in every lane. -/
theorem sqrt_lanes_apply {n : Nat} {φ : FTy} (w : FVec Ideal ⟨2, ![1, 1]⟩ φ)
    (h1 : (⟨2, ![1, 1]⟩ : Shape).ShapeCasts ⟨3, ![1, 1, 1]⟩) (h2 : (⟨3, ![1, 1, 1]⟩ : Shape).ShapeCasts ⟨3, ![1, 1, 1]⟩)
    (hb : (⟨3, ![1, 1, 1]⟩ : Shape).Broadcasts ⟨3, ![1, 1, n]⟩) (l : Fin n) :
    broadcastTo ⟨3, ![1, 1, n]⟩ (shapeCast ⟨3, ![1, 1, 1]⟩ (shapeCast ⟨3, ![1, 1, 1]⟩ (sqrt w) h1) h2) hb (ix3 0 0 l)
      = Ideal.sqrt (w (ix2 0 0)) := by
  refine (broadcastTo_111_11n_apply _ hb l).trans ?_
  rw [shapeCast_self]
  exact shapeCast_ab_1ab_apply (sqrt w) h1 0 0 0

end Idealize.ShloMosaic.AxisReduce

end
-- ==== Proof.Stage1Payload.lean ====
/-
  The first launch's arithmetic at an index, over the extended reals.

  The block the body stores is, at row `p` and column `q`, `Σₖ [x | noise](p, k)·W1(k, q) + b1(q)`: the matrix
  product into a zero accumulator is the plain sum, the two operand blocks sit side by side, and the bias row is spread
  down the rows. A running row is, at column `q`, the row before plus the sum over the block's rows of the entry (or
  of its square).
-/
import proofs.«178448_j5592047419764_2_alg».proof.Proof.Gen.KernelIdeal.Skeleton
import proofs.«178448_j5592047419764_2_alg».proof.Proof.Spec
import proofs.«178448_j5592047419764_2_alg».proof.Proof.LibPlainMatmul
import proofs.«178448_j5592047419764_2_alg».proof.Proof.LibAxisReduce
import Idealize.ShloMosaic.Lib.ValueIdx
import Idealize.ShloMosaic.Lib.ValueLayout
import Idealize.ShloMosaic.Lib.Pipeline.Value
import Idealize.ShloMosaic.PureOps.Ideal.Laws

noncomputable section

open Idealize.ShloMosaic Idealize.ShloMosaic.ValueIdx

namespace Cert.KernelIdeal.Stage1

open Cert.KernelIdeal Cert.KernelIdeal.Gen

/-- Two blocks of 312 columns side by side, read at `(p, k)`. -/
theorem cat_apply (u v : Vec Ideal S512x312 .bf16) (p : Fin 512) (k : Fin 624) :
    concatenate S512x624 1 [⟨S512x312, u⟩, ⟨S512x312, v⟩] concatenates_S512x312_S512x312_S512x624_d1 (ix2 p k)
      = Cert.Mlp.joined (rfl : 312 + 312 = 624) (fun p k => u (ix2 p k)) (fun p k => v (ix2 p k)) p k := by
  unfold Cert.Mlp.joined
  by_cases h : k.val < 312
  · rw [dif_pos h]
    exact concatenate_pair_apply_left (1 : Fin 2) u v concatenates_S512x312_S512x312_S512x624_d1 (ix2 p k) rfl
      (ix2 p ⟨k.val, h⟩) (fun b => by
        match b with
        | ⟨0, _⟩ => rfl
        | ⟨1, _⟩ => rfl)
  · rw [dif_neg h]
    exact concatenate_pair_apply_right (1 : Fin 2) u v concatenates_S512x312_S512x312_S512x624_d1 (ix2 p k) rfl rfl
      (ix2 p ⟨k.val - 312, by have := k.isLt; omega⟩) (fun b hb => by
        match b, hb with
        | ⟨0, _⟩, _ => rfl
        | ⟨1, _⟩, hb => exact absurd rfl hb)
      (by show (k.val - 312) + 312 = k.val; omega)

/-- The stored block at `(p, q)`: the affine layer of the loaded blocks. -/
theorem block_apply (x0 x1 : Vec Ideal S512x312 .bf16) (x2 : Vec Ideal S624x4096 .bf16) (x3 : Vec Ideal S1x4096 .f32)
    (p : Fin 512) (q : Fin 4096) :
    k0_pay3 (F := Ideal) x0 x1 x2 x3 (ix2 p q)
      = Cert.Mlp.affine (Cert.Mlp.joined (rfl : 312 + 312 = 624) (fun p k => x0 (ix2 p k)) (fun p k => x1 (ix2 p k)))
          (fun k q => x2 (ix2 k q)) (fun q => x3 (ix2 (0 : Fin 1) q)) p q := by
  unfold k0_pay3 Cert.Mlp.affine
  dsimp only
  refine congrArg₂ (· + ·) ?_ ?_
  · refine (PlainMatmul.matmul_zero_apply dot_S512x624_S624x4096_S512x4096_1_0_0_1_n_n_wf none _ _ p q).trans ?_
    refine Finset.sum_congr rfl fun k _ => ?_
    refine congrArg₂ (· * ·) ?_ (congrFun (shapeCast_self x2 _) _)
    refine Eq.trans ?_ (cat_apply x0 x1 p k)
    exact congrFun (congrArg₂ (fun a b => concatenate S512x624 1 [⟨S512x312, a⟩, ⟨S512x312, b⟩]
      concatenates_S512x312_S512x312_S512x624_d1) (shapeCast_self x0 _) (shapeCast_self x1 _)) _
  · refine (broadcastTo_1b_ab_apply _ _ p q).trans ?_
    exact congrFun (shapeCast_self x3 _) _

/-- A running row of sums at column `q`: the row before plus the block's column sum. -/
theorem sum_apply (x0 x1 : Vec Ideal S512x312 .bf16) (x2 : Vec Ideal S624x4096 .bf16) (x3 xo : Vec Ideal S1x4096 .f32)
    (q : Fin 4096) :
    k0_pay4 (F := Ideal) x0 x1 x2 x3 xo (ix2 (0 : Fin 1) q)
      = xo (ix2 (0 : Fin 1) q) + ∑ r : Fin 512, k0_pay3 (F := Ideal) x0 x1 x2 x3 (ix2 r q) := by
  unfold k0_pay4
  dsimp only
  refine congrArg₂ (· + ·) (congrFun (shapeCast_self xo _) _) ?_
  refine (shapeCast_a_1a_apply _ _ (0 : Fin 1) q).trans ?_
  exact AxisReduce.colSum_apply _ _ _ _ _ q

/-- A running row of sums of squares at column `q`. -/
theorem sumsq_apply (x0 x1 : Vec Ideal S512x312 .bf16) (x2 : Vec Ideal S624x4096 .bf16) (x3 xo : Vec Ideal S1x4096 .f32)
    (q : Fin 4096) :
    k0_pay5 (F := Ideal) x0 x1 x2 x3 xo (ix2 (0 : Fin 1) q)
      = xo (ix2 (0 : Fin 1) q)
        + ∑ r : Fin 512, k0_pay3 (F := Ideal) x0 x1 x2 x3 (ix2 r q) * k0_pay3 (F := Ideal) x0 x1 x2 x3 (ix2 r q) := by
  unfold k0_pay5
  dsimp only
  refine congrArg₂ (· + ·) (congrFun (shapeCast_self xo _) _) ?_
  refine (shapeCast_a_1a_apply _ _ (0 : Fin 1) q).trans ?_
  exact AxisReduce.colSum_apply _ _ _ _ _ q

/-- The zero rows the first point stores. -/
theorem zero_row_sum (i : S1x4096.Idx) : k0_pay1 (F := Ideal) i = 0 := by
  unfold k0_pay1
  exact Ideal.ofBits_zero_f32

theorem zero_row_sumsq (i : S1x4096.Idx) : k0_pay2 (F := Ideal) i = 0 := by
  unfold k0_pay2
  exact Ideal.ofBits_zero_f32

end Cert.KernelIdeal.Stage1

end
-- ==== Proof.Stage1Rows.lean ====
/-
  The first launch over its sixteen grid points.

  After point `n` the block buffer holds the affine payload of point `n`'s blocks, and the two running rows hold the
  zero row plus the column sums (of the entries, of their squares) of the blocks of points `0 … n`: by induction on the
  point, the first point starting the rows from zero and every later point adding to what the point before left.
-/
import proofs.«178448_j5592047419764_2_alg».proof.Proof.Stage1Pieces
import proofs.«178448_j5592047419764_2_alg».proof.Proof.Stage1Payload

noncomputable section

open Idealize.ShloMosaic Idealize.ShloMosaic.TcCoe Idealize.SL.Sem Idealize.ShloMosaic.ValueIdx
open Idealize.ShloMosaic.Pipeline (Dat)

namespace Cert.KernelIdeal.Stage1

open Cert.KernelIdeal Cert.KernelIdeal.Gen

section AnyFloat
variable {F : FTy → Type} [FloatOps F]
variable (V : (c : Dev nD) → (b : Ref sig .tc) → Buf (Elt F) ((c : Thread nD τ).loc b))

/-- The running row of column sums after point `n`. -/
def rowSum (c : Dev nD) : (n : ℕ) → n < cfg0.N → Vec F S1x4096 .f32
  | 0, h => k0_pay4 (iblk0 V c 0 ⟨0, h⟩) (iblk0 V c 1 ⟨0, h⟩) (iblk0 V c 2 ⟨0, h⟩) (iblk0 V c 3 ⟨0, h⟩) k0_pay1
  | n + 1, h => k0_pay4 (iblk0 V c 0 ⟨n + 1, h⟩) (iblk0 V c 1 ⟨n + 1, h⟩) (iblk0 V c 2 ⟨n + 1, h⟩) (iblk0 V c 3 ⟨n + 1, h⟩) (rowSum c n (Nat.lt_of_succ_lt h))

/-- The running row of column sums of squares after point `n`. -/
def rowSq (c : Dev nD) : (n : ℕ) → n < cfg0.N → Vec F S1x4096 .f32
  | 0, h => k0_pay5 (iblk0 V c 0 ⟨0, h⟩) (iblk0 V c 1 ⟨0, h⟩) (iblk0 V c 2 ⟨0, h⟩) (iblk0 V c 3 ⟨0, h⟩) k0_pay2
  | n + 1, h => k0_pay5 (iblk0 V c 0 ⟨n + 1, h⟩) (iblk0 V c 1 ⟨n + 1, h⟩) (iblk0 V c 2 ⟨n + 1, h⟩) (iblk0 V c 3 ⟨n + 1, h⟩) (rowSq c n (Nat.lt_of_succ_lt h))

/-- What the three output buffers hold after point `n`. -/
theorem outsAt_eq (c : Dev nD) : ∀ (n : ℕ) (h : n < cfg0.N),
    outsAt0 V c n h = (k0_pay3 (iblk0 V c 0 ⟨n, h⟩) (iblk0 V c 1 ⟨n, h⟩) (iblk0 V c 2 ⟨n, h⟩) (iblk0 V c 3 ⟨n, h⟩), rowSum V c n h, rowSq V c n h)
  | 0, h => (outsAt0_A V c ⟨0, h⟩ rfl).trans
      (congrArg₂ Prod.mk (first_block ..) (congrArg₂ Prod.mk (first_sum ..) (first_sumsq ..)))
  | n + 1, h => by
    have hN : cfg0.N = 16 := N_0
    have hB : ¬(⟨n + 1, h⟩ : Fin cfg0.N).val % 16 = 0 := by dsimp only; omega
    rw [outsAt0_B V c ⟨n + 1, h⟩ hB, later_block, later_sum, later_sumsq]
    show (_, k0_pay4 _ _ _ _ (outsAt0 V c n _).2.1, k0_pay5 _ _ _ _ (outsAt0 V c n _).2.2) = _
    rw [outsAt_eq c n]
    rfl

end AnyFloat

section Reals
variable (V : (c : Dev nD) → (b : Ref sig .tc) → Buf (Elt Ideal) ((c : Thread nD τ).loc b))

/-- Over the extended reals the running row of sums at column `q` is the sum over the points so far of each block's
    column sum. -/
theorem rowSum_apply (c : Dev nD) (q : Fin 4096) : ∀ (n : ℕ) (h : n < cfg0.N),
    rowSum V c n h (ix2 (0 : Fin 1) q)
      = ∑ s ∈ Finset.range (n + 1), if hs : s < cfg0.N then
          ∑ r : Fin 512, k0_pay3 (F := Ideal) (iblk0 V c 0 ⟨s, hs⟩) (iblk0 V c 1 ⟨s, hs⟩) (iblk0 V c 2 ⟨s, hs⟩) (iblk0 V c 3 ⟨s, hs⟩) (ix2 r q) else 0
  | 0, h => by
    rw [Finset.sum_range_one, dif_pos h]
    show k0_pay4 (F := Ideal) _ _ _ _ _ (ix2 (0 : Fin 1) q) = _
    rw [sum_apply, zero_row_sum, zero_add]
  | n + 1, h => by
    rw [Finset.sum_range_succ, dif_pos h, ← rowSum_apply c q n (Nat.lt_of_succ_lt h)]
    show k0_pay4 (F := Ideal) _ _ _ _ _ (ix2 (0 : Fin 1) q) = _
    rw [sum_apply]

/-- The same for the running row of sums of squares. -/
theorem rowSq_apply (c : Dev nD) (q : Fin 4096) : ∀ (n : ℕ) (h : n < cfg0.N),
    rowSq V c n h (ix2 (0 : Fin 1) q)
      = ∑ s ∈ Finset.range (n + 1), if hs : s < cfg0.N then
          ∑ r : Fin 512, k0_pay3 (F := Ideal) (iblk0 V c 0 ⟨s, hs⟩) (iblk0 V c 1 ⟨s, hs⟩) (iblk0 V c 2 ⟨s, hs⟩) (iblk0 V c 3 ⟨s, hs⟩) (ix2 r q)
            * k0_pay3 (F := Ideal) (iblk0 V c 0 ⟨s, hs⟩) (iblk0 V c 1 ⟨s, hs⟩) (iblk0 V c 2 ⟨s, hs⟩) (iblk0 V c 3 ⟨s, hs⟩) (ix2 r q) else 0
  | 0, h => by
    rw [Finset.sum_range_one, dif_pos h]
    show k0_pay5 (F := Ideal) _ _ _ _ _ (ix2 (0 : Fin 1) q) = _
    rw [sumsq_apply, zero_row_sumsq, zero_add]
  | n + 1, h => by
    rw [Finset.sum_range_succ, dif_pos h, ← rowSq_apply c q n (Nat.lt_of_succ_lt h)]
    show k0_pay5 (F := Ideal) _ _ _ _ _ (ix2 (0 : Fin 1) q) = _
    rw [sumsq_apply]

end Reals

end Cert.KernelIdeal.Stage1

end
-- ==== Proof.LibBlockSum.lean ====
/-
  Regrouping a finite sum into consecutive blocks.

  A sum over the `a * b` indices `0 … a*b - 1` is the sum, over the `a` blocks, of the sum of the `b` consecutive
  entries of each block: entry `j` of block `k` is index `k * b + j`. Only commutativity and associativity of the
  addition are used, so the law holds in every additive commutative monoid — in particular on the extended reals,
  where no finiteness of the summands is needed.
-/
import Mathlib.Algebra.BigOperators.Fin
import Mathlib.Logic.Equiv.Fin.Basic

namespace Cert.LibBlockSum

open Finset

/-- Index `k * b + j` of entry `j` in block `k`, as an index below `a * b`. -/
def blockIx (a b : ℕ) (k : Fin a) (j : Fin b) : Fin (a * b) :=
  ⟨k.val * b + j.val, by
    have hk : k.val + 1 ≤ a := k.isLt
    have hj := j.isLt
    calc k.val * b + j.val < k.val * b + b := Nat.add_lt_add_left hj _
      _ = (k.val + 1) * b := (Nat.succ_mul _ _).symm
      _ ≤ a * b := Nat.mul_le_mul_right b hk⟩

@[simp] theorem blockIx_val (a b : ℕ) (k : Fin a) (j : Fin b) : (blockIx a b k j).val = k.val * b + j.val := rfl

/-- A sum over `a * b` consecutive indices is the sum over the `a` blocks of the `b` entries of each. -/
theorem sum_blocks {M : Type*} [AddCommMonoid M] (a b : ℕ) (f : Fin (a * b) → M) :
    ∑ i : Fin (a * b), f i = ∑ k : Fin a, ∑ j : Fin b, f (blockIx a b k j) := by
  rw [← Fintype.sum_prod_type' (f := fun k j => f (blockIx a b k j))]
  refine (Equiv.sum_comp (finProdFinEquiv (m := a) (n := b)) f).symm.trans ?_
  refine Finset.sum_congr rfl fun p _ => congrArg f (Fin.ext ?_)
  simp [finProdFinEquiv, blockIx_val, Nat.mul_comm, Nat.add_comm]

/-- The same with the blocks enumerated by a range of naturals — the form a fold over consecutive steps produces. `g` is
    the per-block summand as a function of every natural; only its values at the `a` block numbers matter. -/
theorem sum_range_blocks {M : Type*} [AddCommMonoid M] (a b : ℕ) (f : Fin (a * b) → M) (g : ℕ → M)
    (hg : ∀ k : Fin a, g k.val = ∑ j : Fin b, f (blockIx a b k j)) :
    ∑ s ∈ Finset.range a, g s = ∑ i : Fin (a * b), f i := by
  rw [Finset.sum_range, sum_blocks]
  exact Finset.sum_congr rfl fun k _ => hg k

/-- The same for an index type `Fin n` whose length is given as a number with `a * b = n` (so that a literal length such as
    16384 need not be rewritten as a product): entry `j` of block `k` is index `k * b + j`. -/
theorem sum_range_blocks_of_eq {M : Type*} [AddCommMonoid M] (a b n : ℕ) (hn : a * b = n) (f : Fin n → M) (g : ℕ → M)
    (hg : ∀ k : Fin a, g k.val = ∑ j : Fin b, f ⟨k.val * b + j.val, hn ▸ (blockIx a b k j).isLt⟩) :
    ∑ s ∈ Finset.range a, g s = ∑ i : Fin n, f i := by
  subst hn
  exact sum_range_blocks a b f g hg

end Cert.LibBlockSum
-- ==== Proof.SpecRows.lean ====
/-
  The column statistics from given rows of sums, and the program's five float literals by name.

  `muOf c s` is the row `s·c`; `varOf c z s ss` is `max(ss·c − (s·c)², z)`. With `s` the column sums and `ss` the
  column sums of squares of a matrix these are the multiplicative statistics of `Spec` (`meanMul_eq`, `varMul_eq`).
-/
import proofs.«178448_j5592047419764_2_alg».proof.Proof.Spec

noncomputable section

namespace Cert.Mlp

open Idealize.ShloMosaic

variable {B N : ℕ}

/-- The mean row from a row of sums. -/
def muOf (c : EReal) (s : Fin N → EReal) (q : Fin N) : EReal := s q * c

/-- The variance row from the rows of sums and of sums of squares, clamped below at `z`. -/
def varOf (c z : EReal) (s ss : Fin N → EReal) (q : Fin N) : EReal :=
  max (ss q * c - muOf c s q * muOf c s q) z

theorem meanMul_eq (c : EReal) (h : Fin B → Fin N → EReal) : meanMul c h = muOf c (colSum h) := rfl

theorem varMul_eq (c z : EReal) (h : Fin B → Fin N → EReal) : varMul c z h = varOf c z (colSum h) (colSumSq h) := rfl

/-- The word of `0.0`. -/
abbrev litZero : EReal := Ideal.ofBits .f32 0x00000000#32
/-- The word of `2⁻¹³`, the reciprocal of the batch size. -/
abbrev litRecip : EReal := Ideal.ofBits .f32 0x39000000#32
/-- The word of the batch size `8192`. -/
abbrev litBatch : EReal := Ideal.ofBits .f32 0x46000000#32
/-- The word of the normalisation's `ε`. -/
abbrev litEps : EReal := Ideal.ofBits .f32 0x3727C5AC#32
/-- The word of the leaky rectifier's slope. -/
abbrev litSlope : EReal := Ideal.ofBits .f32 0x3C23D70A#32

end Cert.Mlp

end
-- ==== Proof.Stage1Array.lean ====
/-
  The first launch: the three arrays it leaves, as functions of the four arrays it finds.

  Point `t` reads rows `512t … 512t + 511` of the two input arrays and the whole of the weight and bias arrays, so the
  block it stores is rows `512t …` of `pre = [x | noise]·W1 + b1` of the whole arrays, and the sixteen blocks tile the
  output array: it ends at `pre`. The two running rows are written back once, after the last point, holding the sums
  over the sixteen blocks of each block's column sums, which are the column sums over all 8192 rows.
-/
import proofs.«178448_j5592047419764_2_alg».proof.Proof.Stage1Rows
import proofs.«178448_j5592047419764_2_alg».proof.Proof.LibBlockSum
import proofs.«178448_j5592047419764_2_alg».proof.Proof.SpecRows

noncomputable section

open Idealize.ShloMosaic Idealize.ShloMosaic.TcCoe Idealize.SL.Sem Idealize.ShloMosaic.ValueIdx
open Idealize.ShloMosaic.Pipeline (Dat)

namespace Cert.KernelIdeal.Stage1

open Cert.KernelIdeal Cert.KernelIdeal.Gen

variable (V : (c : Dev nD) → (b : Ref sig .tc) → Buf (Elt Ideal) ((c : Thread nD τ).loc b))

/-- The windows' block indices at point `t`: the row-blocked windows sit at block `t`, the others at block 0. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0 :=
  (by decide +kernel : ∀ t : Fin grid0.N, _)

/-- Row `r` of block `t` is row `512t + r` of the array. -/
def row (t : Fin cfg0.N) (r : Fin 512) : Fin 8192 :=
  ⟨t.val * 512 + r.val, by
    have h16 : t.val < 16 := lt_of_lt_of_eq t.isLt N_0
    have := r.isLt
    omega⟩

/-- The arrays the launch finds, as functions of coordinates. -/
abbrev inX (c : Dev nD) : Fin 8192 → Fin 312 → EReal := fun p k => V c main_v0 (ix2 p k)
abbrev inN (c : Dev nD) : Fin 8192 → Fin 312 → EReal := fun p k => V c main_v1 (ix2 p k)
abbrev inW (c : Dev nD) : Fin 624 → Fin 4096 → EReal := fun k q => V c main_v2 (ix2 k q)
abbrev inB (c : Dev nD) : Fin 4096 → EReal := fun q => V c main_v5 (ix2 (0 : Fin 1) q)

/-- The first layer's pre-activation of the whole arrays. -/
def pre (c : Dev nD) : Fin 8192 → Fin 4096 → EReal :=
  Cert.Mlp.affine (Cert.Mlp.joined (rfl : 312 + 312 = 624) (inX V c) (inN V c)) (inW V c) (inB V c)

/-! ## The blocks read at an index -/

theorem blk_x (c : Dev nD) (t : Fin cfg0.N) (r : Fin 512) (k : Fin 312) :
    iblk0 V c 0 t (ix2 r k) = inX V c (row t r) k := by
  obtain ⟨e0, e1, -⟩ := idx_facts t
  unfold iblk0
  rw [View.read_apply]
  show V c main_v0 _ = V c main_v0 _
  refine congrArg (V c main_v0) (funext fun a => Fin.ext ?_)
  match a with
  | ⟨0, _⟩ => show win0_0.index t (0 : Fin 2) * 512 + 1 * r.val = t.val * 512 + r.val; rw [e0]; omega
  | ⟨1, _⟩ => show win0_0.index t (1 : Fin 2) * 312 + 1 * k.val = k.val; rw [e1]; omega

theorem blk_n (c : Dev nD) (t : Fin cfg0.N) (r : Fin 512) (k : Fin 312) :
    iblk0 V c 1 t (ix2 r k) = inN V c (row t r) k := by
  obtain ⟨-, -, e0, e1, -⟩ := idx_facts t
  unfold iblk0
  rw [View.read_apply]
  show V c main_v1 _ = V c main_v1 _
  refine congrArg (V c main_v1) (funext fun a => Fin.ext ?_)
  match a with
  | ⟨0, _⟩ => show win0_1.index t (0 : Fin 2) * 512 + 1 * r.val = t.val * 512 + r.val; rw [e0]; omega
  | ⟨1, _⟩ => show win0_1.index t (1 : Fin 2) * 312 + 1 * k.val = k.val; rw [e1]; omega

theorem blk_w (c : Dev nD) (t : Fin cfg0.N) (k : Fin 624) (q : Fin 4096) :
    iblk0 V c 2 t (ix2 k q) = inW V c k q := by
  obtain ⟨-, -, -, -, e0, e1, -⟩ := idx_facts t
  unfold iblk0
  rw [View.read_apply]
  show V c main_v2 _ = V c main_v2 _
  refine congrArg (V c main_v2) (funext fun a => Fin.ext ?_)
  match a with
  | ⟨0, _⟩ => show win0_2.index t (0 : Fin 2) * 624 + 1 * k.val = k.val; rw [e0]; omega
  | ⟨1, _⟩ => show win0_2.index t (1 : Fin 2) * 4096 + 1 * q.val = q.val; rw [e1]; omega

theorem blk_b (c : Dev nD) (t : Fin cfg0.N) (q : Fin 4096) :
    iblk0 V c 3 t (ix2 (0 : Fin 1) q) = inB V c q := by
  obtain ⟨-, -, -, -, -, -, e0, e1, -⟩ := idx_facts t
  unfold iblk0
  rw [View.read_apply]
  show V c main_v5 _ = V c main_v5 _
  refine congrArg (V c main_v5) (funext fun a => Fin.ext ?_)
  match a with
  | ⟨0, _⟩ => show win0_3.index t (0 : Fin 2) * 1 + 1 * 0 = 0; rw [e0]
  | ⟨1, _⟩ => show win0_3.index t (1 : Fin 2) * 4096 + 1 * q.val = q.val; rw [e1]; omega

/-- The block point `t` stores is rows `512t …` of `pre`. -/
theorem block_eq (c : Dev nD) (t : Fin cfg0.N) (r : Fin 512) (q : Fin 4096) :
    k0_pay3 (F := Ideal) (iblk0 V c 0 t) (iblk0 V c 1 t) (iblk0 V c 2 t) (iblk0 V c 3 t) (ix2 r q) = pre V c (row t r) q := by
  refine (block_apply (iblk0 V c 0 t) (iblk0 V c 1 t) (iblk0 V c 2 t) (iblk0 V c 3 t) r q).trans ?_
  rw [show (fun (p : Fin 512) (k : Fin 312) => iblk0 V c 0 t (ix2 p k)) = fun p k => inX V c (row t p) k from
        funext fun p => funext fun k => blk_x V c t p k,
      show (fun (p : Fin 512) (k : Fin 312) => iblk0 V c 1 t (ix2 p k)) = fun p k => inN V c (row t p) k from
        funext fun p => funext fun k => blk_n V c t p k,
      show (fun (k : Fin 624) (q : Fin 4096) => iblk0 V c 2 t (ix2 k q)) = inW V c from
        funext fun k => funext fun q => blk_w V c t k q,
      show (fun (q : Fin 4096) => iblk0 V c 3 t (ix2 (0 : Fin 1) q)) = inB V c from
        funext fun q => blk_b V c t q]
  rfl

/-! ## The block array -/

theorem mem_block (t : Fin cfg0.N) (i : S8192x4096.Idx) :
    i ∈ ((cfg0.win 4).blk t).view.set ↔ ∀ a : Fin 2, win0_4.index t a * S512x4096.size a ≤ (i a).val
      ∧ (i a).val < win0_4.index t a * S512x4096.size a + S512x4096.size a := by
  show i ∈ ((View.whole main_v11_0).slice (win0_4.rect t)).set ↔ _
  rw [View.set_slice_whole, Rect.mem_set_unit]
  exact Iff.rfl

/-- What point `t` writes back of the block array. -/
theorem flushed_block (c : Dev nD) (t : Fin cfg0.N) :
    (dat0 V c).flushed 4 t
      = ((cfg0.win 4).blk t).view.read (Elt Ideal) (fun i : S8192x4096.Idx => pre V c (i 0) (i 1)) := by
  obtain ⟨-, -, -, -, -, -, -, -, e0, e1, -⟩ := idx_facts t
  show (cfg0.win 4).cut (grid0.coords t) ((dat0 V c).after 4 t) = _
  rw [after0_4, outsAt_eq]
  funext j
  obtain ⟨r, q, rfl⟩ : ∃ (r : Fin 512) (q : Fin 4096), j = ix2 r q := ⟨j 0, j 1, eq_ix2 j⟩
  rw [View.read_apply]
  have he : ((cfg0.win 4).blk t).view.emb (ix2 r q) = ix2 (row t r) q := funext fun a => Fin.ext (by
    match a with
    | ⟨0, _⟩ => show win0_4.index t (0 : Fin 2) * 512 + 1 * r.val = t.val * 512 + r.val; rw [e0]; omega
    | ⟨1, _⟩ => show win0_4.index t (1 : Fin 2) * 4096 + 1 * q.val = q.val; rw [e1]; omega)
  rw [he]
  exact block_eq V c t r q

/-- The block array after the launch. -/
theorem final_block (c : Dev nD) :
    (dat0 V c).arrAt 4 cfg0.N = fun i : S8192x4096.Idx => pre V c (i 0) (i 1) :=
  (dat0 V c).arrAt_eq_of_cover 4 _ (fun t _ => flushed_block V c t) fun i => by
    have hi0 : (i 0).val < 8192 := (i 0).isLt
    have hi1 : (i 1).val < 4096 := (i 1).isLt
    have hN : cfg0.N = 16 := N_0
    refine ⟨⟨(i 0).val / 512, by rw [hN]; omega⟩, flush0_4 _, ?_⟩
    obtain ⟨-, -, -, -, -, -, -, -, e0, e1, -⟩ := idx_facts ⟨(i 0).val / 512, by rw [hN]; omega⟩
    rw [mem_block]
    intro a
    match a with
    | ⟨0, _⟩ =>
      show win0_4.index _ (0 : Fin 2) * 512 ≤ (i 0).val ∧ (i 0).val < win0_4.index _ (0 : Fin 2) * 512 + 512
      rw [e0]; dsimp only; omega
    | ⟨1, _⟩ =>
      show win0_4.index _ (1 : Fin 2) * 4096 ≤ (i 1).val ∧ (i 1).val < win0_4.index _ (1 : Fin 2) * 4096 + 4096
      rw [e1]; omega

/-! ## The two rows -/

theorem mem_sum (t : Fin cfg0.N) (i : S1x4096.Idx) :
    i ∈ ((cfg0.win 5).blk t).view.set ↔ ∀ a : Fin 2, win0_5.index t a * S1x4096.size a ≤ (i a).val
      ∧ (i a).val < win0_5.index t a * S1x4096.size a + S1x4096.size a := by
  show i ∈ ((View.whole main_v11_1).slice (win0_5.rect t)).set ↔ _
  rw [View.set_slice_whole, Rect.mem_set_unit]
  exact Iff.rfl

/-- The sixteen blocks' column sums add up to the column sum over all rows. -/
theorem blocks_sum (c : Dev nD) (q : Fin 4096) :
    (∑ s ∈ Finset.range (15 + 1), if hs : s < cfg0.N then
        ∑ r : Fin 512, k0_pay3 (F := Ideal) (iblk0 V c 0 ⟨s, hs⟩) (iblk0 V c 1 ⟨s, hs⟩) (iblk0 V c 2 ⟨s, hs⟩) (iblk0 V c 3 ⟨s, hs⟩) (ix2 r q) else 0) = Cert.Mlp.colSum (pre V c) q := by
  have hN : cfg0.N = 16 := N_0
  refine Cert.LibBlockSum.sum_range_blocks_of_eq 16 512 8192 rfl (fun p => pre V c p q) _ (fun k => ?_)
  rw [dif_pos (by rw [hN]; exact k.isLt)]
  refine Finset.sum_congr rfl fun j _ => ?_
  rw [block_eq V c ⟨k.val, by rw [hN]; exact k.isLt⟩ j q]
  rfl

/-- The one write-back of the row, after the last point. -/
theorem flushed_sum (c : Dev nD) (t : Fin cfg0.N) (hf : (cfg0.win 5).flush t = true) :
    (dat0 V c).flushed 5 t
      = ((cfg0.win 5).blk t).view.read (Elt Ideal) (fun i : S1x4096.Idx => Cert.Mlp.colSum (pre V c) (i 1)) := by
  have hN : cfg0.N = 16 := N_0
  have h15 : t.val = 15 := by have := (flush0_5 t).mp hf; have := t.isLt; omega
  obtain rfl : t = t0_15 := Fin.ext h15
  obtain ⟨-, -, -, -, -, -, -, -, -, -, e0, e1, -⟩ := idx_facts t0_15
  show (cfg0.win 5).cut (grid0.coords t0_15) ((dat0 V c).after 5 t0_15) = _
  rw [after0_5, outsAt_eq]
  funext j
  obtain ⟨u, q, rfl⟩ : ∃ (u : Fin 1) (q : Fin 4096), j = ix2 u q := ⟨j 0, j 1, eq_ix2 j⟩
  obtain rfl : u = 0 := Subsingleton.elim _ _
  rw [View.read_apply]
  have he : ((cfg0.win 5).blk t0_15).view.emb (ix2 (0 : Fin 1) q) = ix2 (0 : Fin 1) q := funext fun a => Fin.ext (by
    match a with
    | ⟨0, _⟩ => show win0_5.index t0_15 (0 : Fin 2) * 1 + 1 * 0 = 0; rw [e0]
    | ⟨1, _⟩ => show win0_5.index t0_15 (1 : Fin 2) * 4096 + 1 * q.val = q.val; rw [e1]; omega)
  rw [he]
  exact (rowSum_apply V c q 15 _).trans (blocks_sum V c q)

/-- The row after the launch. -/
theorem final_sum (c : Dev nD) :
    (dat0 V c).arrAt 5 cfg0.N = fun i : S1x4096.Idx => Cert.Mlp.colSum (pre V c) (i 1) :=
  (dat0 V c).arrAt_eq_of_cover 5 _ (flushed_sum V c) fun i => by
    have hi0 : (i 0).val < 1 := (i 0).isLt
    have hi1 : (i 1).val < 4096 := (i 1).isLt
    refine ⟨t0_15, (flush0_5 t0_15).mpr rfl, ?_⟩
    obtain ⟨-, -, -, -, -, -, -, -, -, -, e0, e1, -⟩ := idx_facts t0_15
    rw [mem_sum]
    intro a
    match a with
    | ⟨0, _⟩ =>
      show win0_5.index t0_15 (0 : Fin 2) * 1 ≤ (i 0).val ∧ (i 0).val < win0_5.index t0_15 (0 : Fin 2) * 1 + 1
      rw [e0]; omega
    | ⟨1, _⟩ =>
      show win0_5.index t0_15 (1 : Fin 2) * 4096 ≤ (i 1).val ∧ (i 1).val < win0_5.index t0_15 (1 : Fin 2) * 4096 + 4096
      rw [e1]; omega

theorem mem_sumsq (t : Fin cfg0.N) (i : S1x4096.Idx) :
    i ∈ ((cfg0.win 6).blk t).view.set ↔ ∀ a : Fin 2, win0_6.index t a * S1x4096.size a ≤ (i a).val
      ∧ (i a).val < win0_6.index t a * S1x4096.size a + S1x4096.size a := by
  show i ∈ ((View.whole main_v11_2).slice (win0_6.rect t)).set ↔ _
  rw [View.set_slice_whole, Rect.mem_set_unit]
  exact Iff.rfl

/-- The sixteen blocks' column sums add up to the column sum over all rows. -/
theorem blocks_sumsq (c : Dev nD) (q : Fin 4096) :
    (∑ s ∈ Finset.range (15 + 1), if hs : s < cfg0.N then
        ∑ r : Fin 512, k0_pay3 (F := Ideal) (iblk0 V c 0 ⟨s, hs⟩) (iblk0 V c 1 ⟨s, hs⟩) (iblk0 V c 2 ⟨s, hs⟩) (iblk0 V c 3 ⟨s, hs⟩) (ix2 r q)
            * k0_pay3 (F := Ideal) (iblk0 V c 0 ⟨s, hs⟩) (iblk0 V c 1 ⟨s, hs⟩) (iblk0 V c 2 ⟨s, hs⟩) (iblk0 V c 3 ⟨s, hs⟩) (ix2 r q) else 0) = Cert.Mlp.colSumSq (pre V c) q := by
  have hN : cfg0.N = 16 := N_0
  refine Cert.LibBlockSum.sum_range_blocks_of_eq 16 512 8192 rfl (fun p => pre V c p q * pre V c p q) _ (fun k => ?_)
  rw [dif_pos (by rw [hN]; exact k.isLt)]
  refine Finset.sum_congr rfl fun j _ => ?_
  rw [block_eq V c ⟨k.val, by rw [hN]; exact k.isLt⟩ j q]
  rfl

/-- The one write-back of the row, after the last point. -/
theorem flushed_sumsq (c : Dev nD) (t : Fin cfg0.N) (hf : (cfg0.win 6).flush t = true) :
    (dat0 V c).flushed 6 t
      = ((cfg0.win 6).blk t).view.read (Elt Ideal) (fun i : S1x4096.Idx => Cert.Mlp.colSumSq (pre V c) (i 1)) := by
  have hN : cfg0.N = 16 := N_0
  have h15 : t.val = 15 := by have := (flush0_6 t).mp hf; have := t.isLt; omega
  obtain rfl : t = t0_15 := Fin.ext h15
  obtain ⟨-, -, -, -, -, -, -, -, -, -, -, -, e0, e1⟩ := idx_facts t0_15
  show (cfg0.win 6).cut (grid0.coords t0_15) ((dat0 V c).after 6 t0_15) = _
  rw [after0_6, outsAt_eq]
  funext j
  obtain ⟨u, q, rfl⟩ : ∃ (u : Fin 1) (q : Fin 4096), j = ix2 u q := ⟨j 0, j 1, eq_ix2 j⟩
  obtain rfl : u = 0 := Subsingleton.elim _ _
  rw [View.read_apply]
  have he : ((cfg0.win 6).blk t0_15).view.emb (ix2 (0 : Fin 1) q) = ix2 (0 : Fin 1) q := funext fun a => Fin.ext (by
    match a with
    | ⟨0, _⟩ => show win0_6.index t0_15 (0 : Fin 2) * 1 + 1 * 0 = 0; rw [e0]
    | ⟨1, _⟩ => show win0_6.index t0_15 (1 : Fin 2) * 4096 + 1 * q.val = q.val; rw [e1]; omega)
  rw [he]
  exact (rowSq_apply V c q 15 _).trans (blocks_sumsq V c q)

/-- The row after the launch. -/
theorem final_sumsq (c : Dev nD) :
    (dat0 V c).arrAt 6 cfg0.N = fun i : S1x4096.Idx => Cert.Mlp.colSumSq (pre V c) (i 1) :=
  (dat0 V c).arrAt_eq_of_cover 6 _ (flushed_sumsq V c) fun i => by
    have hi0 : (i 0).val < 1 := (i 0).isLt
    have hi1 : (i 1).val < 4096 := (i 1).isLt
    refine ⟨t0_15, (flush0_6 t0_15).mpr rfl, ?_⟩
    obtain ⟨-, -, -, -, -, -, -, -, -, -, -, -, e0, e1⟩ := idx_facts t0_15
    rw [mem_sumsq]
    intro a
    match a with
    | ⟨0, _⟩ =>
      show win0_6.index t0_15 (0 : Fin 2) * 1 ≤ (i 0).val ∧ (i 0).val < win0_6.index t0_15 (0 : Fin 2) * 1 + 1
      rw [e0]; omega
    | ⟨1, _⟩ =>
      show win0_6.index t0_15 (1 : Fin 2) * 4096 ≤ (i 1).val ∧ (i 1).val < win0_6.index t0_15 (1 : Fin 2) * 4096 + 4096
      rw [e1]; omega

end Cert.KernelIdeal.Stage1

end
-- ==== Proof.Stage2Pieces.lean ====
/-
  The second launch, one grid point at a time: what the body leaves in each output's staging buffer.

  The body normalises the block of 128 rows of the first layer's output with the column statistics read from the two
  running rows, applies the leaky rectifier and the mask, multiplies by the second weight matrix and adds the bias; it
  stores that block and adds its column sums and column sums of squares into two running rows. At the first point
  the two rows are first set to zero; at the other points they continue from what the previous point left. So each
  output after a point is one payload of the blocks loaded at that point (and, for the running rows, of the row before).
-/
import proofs.«178448_j5592047419764_2_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)

namespace Cert.KernelIdeal.Stage2

open Cert.KernelIdeal Cert.KernelIdeal.Gen

variable {F : FTy → Type} [FloatOps F]

theorem hz : (![0, 0] : Fin 2 → Nat) = fun _ => 0 := funext fun a => by fin_cases a <;> rfl

/-- A point after the first: the stored block is the second layer's affine payload of the activated block. -/
theorem later_block (c : Dev nD) (i : grid1.Coords) (a1 : Memref sig .tc .vmem S128x4096 .f32) (h1 : a1.IsWhole) (a2 : Memref sig .tc .vmem S1x4096 .f32) (h2 : a2.IsWhole) (a3 : Memref sig .tc .vmem S1x4096 .f32) (h3 : a3.IsWhole) (a4 : Memref sig .tc .vmem S1x4096 .f32) (h4 : a4.IsWhole) (a5 : Memref sig .tc .vmem S1x4096 .f32) (h5 : a5.IsWhole) (a6 : Memref sig .tc .vmem S128x4096 .bf16) (h6 : a6.IsWhole) (a7 : Memref sig .tc .vmem S4096x2048 .bf16) (h7 : a7.IsWhole) (a8 : Memref sig .tc .vmem S1x2048 .f32) (h8 : a8.IsWhole) (a9 : Memref sig .tc .vmem S128x2048 .f32) (h9 : a9.IsWhole) (a10 : Memref sig .tc .vmem S1x2048 .f32) (h10 : a10.IsWhole) (a11 : Memref sig .tc .vmem S1x2048 .f32) (h11 : a11.IsWhole) (hc : ¬cond1_0 i)
    (x0 : Vec F S128x4096 .f32) (x1 x2 x3 x4 : Vec F S1x4096 .f32) (x5 : Vec F S128x4096 .bf16) (x6 : Vec F S4096x2048 .bf16) (x7 : Vec F S1x2048 .f32) (xo9 xo10 : Vec F S1x2048 .f32) :
    out1_B_8 c i a1 h1 a2 h2 a3 h3 a4 h4 a5 h5 a6 h6 a7 h7 a8 h8 a9 h9 a10 h10 a11 h11 hc x0 x1 x2 x3 x4 x5 x6 x7 xo9 xo10 = k1_pay1 (k1_pay6 x1 x2 x0 x3 x4) x5 x6 x7 := by
  unfold out1_B_8
  rw [View.read_writes_eq_canon _ _ _ (cover1_B_8 c i a1 h1 a2 h2 a3 h3 a4 h4 a5 h5 a6 h6 a7 h7 a8 h8 a9 h9 a10 h10 a11 h11 hc x0 x1 x2 x3 x4 x5 x6 x7 xo9 xo10)]
  unfold kernelRun1_B
  dsimp only
  sl_unfold_words
  rw [View.canon_unit_zero hz]
  simp only [View.readAt_eq_ld, h1.read_unread, h2.read_unread, h3.read_unread, h4.read_unread, h5.read_unread, h6.read_unread, h7.read_unread, h8.read_unread, View.ld_unit_zero (S := S128x4096) hz, View.ld_unit_zero (S := S1x4096) hz, View.ld_unit_zero (S := S4096x2048) hz, View.ld_unit_zero (S := S1x2048) hz]

/-- A point after the first: the running row of sums is the row before plus the block's column sums. -/
theorem later_sum (c : Dev nD) (i : grid1.Coords) (a1 : Memref sig .tc .vmem S128x4096 .f32) (h1 : a1.IsWhole) (a2 : Memref sig .tc .vmem S1x4096 .f32) (h2 : a2.IsWhole) (a3 : Memref sig .tc .vmem S1x4096 .f32) (h3 : a3.IsWhole) (a4 : Memref sig .tc .vmem S1x4096 .f32) (h4 : a4.IsWhole) (a5 : Memref sig .tc .vmem S1x4096 .f32) (h5 : a5.IsWhole) (a6 : Memref sig .tc .vmem S128x4096 .bf16) (h6 : a6.IsWhole) (a7 : Memref sig .tc .vmem S4096x2048 .bf16) (h7 : a7.IsWhole) (a8 : Memref sig .tc .vmem S1x2048 .f32) (h8 : a8.IsWhole) (a9 : Memref sig .tc .vmem S128x2048 .f32) (h9 : a9.IsWhole) (a10 : Memref sig .tc .vmem S1x2048 .f32) (h10 : a10.IsWhole) (a11 : Memref sig .tc .vmem S1x2048 .f32) (h11 : a11.IsWhole) (hc : ¬cond1_0 i)
    (x0 : Vec F S128x4096 .f32) (x1 x2 x3 x4 : Vec F S1x4096 .f32) (x5 : Vec F S128x4096 .bf16) (x6 : Vec F S4096x2048 .bf16) (x7 : Vec F S1x2048 .f32) (xo9 xo10 : Vec F S1x2048 .f32) :
    out1_B_9 c i a1 h1 a2 h2 a3 h3 a4 h4 a5 h5 a6 h6 a7 h7 a8 h8 a9 h9 a10 h10 a11 h11 hc x0 x1 x2 x3 x4 x5 x6 x7 xo9 xo10 = k1_pay2 (k1_pay6 x1 x2 x0 x3 x4) x5 x6 x7 xo9 := by
  unfold out1_B_9
  rw [View.read_writes_eq_canon _ _ _ (cover1_B_9 c i a1 h1 a2 h2 a3 h3 a4 h4 a5 h5 a6 h6 a7 h7 a8 h8 a9 h9 a10 h10 a11 h11 hc x0 x1 x2 x3 x4 x5 x6 x7 xo9 xo10)]
  unfold kernelRun1_B
  dsimp only
  sl_unfold_words
  rw [View.canon_unit_zero hz]
  simp only [View.readAt_eq_ld, h1.read_unread, h2.read_unread, h3.read_unread, h4.read_unread, h5.read_unread, h6.read_unread, h7.read_unread, h8.read_unread, View.ld_unit_zero (S := S128x4096) hz, View.ld_unit_zero (S := S1x4096) hz, View.ld_unit_zero (S := S4096x2048) hz, View.ld_unit_zero (S := S1x2048) hz, h10.read_unread]

/-- A point after the first: the running row of sums of squares likewise. -/
theorem later_sumsq (c : Dev nD) (i : grid1.Coords) (a1 : Memref sig .tc .vmem S128x4096 .f32) (h1 : a1.IsWhole) (a2 : Memref sig .tc .vmem S1x4096 .f32) (h2 : a2.IsWhole) (a3 : Memref sig .tc .vmem S1x4096 .f32) (h3 : a3.IsWhole) (a4 : Memref sig .tc .vmem S1x4096 .f32) (h4 : a4.IsWhole) (a5 : Memref sig .tc .vmem S1x4096 .f32) (h5 : a5.IsWhole) (a6 : Memref sig .tc .vmem S128x4096 .bf16) (h6 : a6.IsWhole) (a7 : Memref sig .tc .vmem S4096x2048 .bf16) (h7 : a7.IsWhole) (a8 : Memref sig .tc .vmem S1x2048 .f32) (h8 : a8.IsWhole) (a9 : Memref sig .tc .vmem S128x2048 .f32) (h9 : a9.IsWhole) (a10 : Memref sig .tc .vmem S1x2048 .f32) (h10 : a10.IsWhole) (a11 : Memref sig .tc .vmem S1x2048 .f32) (h11 : a11.IsWhole) (hc : ¬cond1_0 i)
    (x0 : Vec F S128x4096 .f32) (x1 x2 x3 x4 : Vec F S1x4096 .f32) (x5 : Vec F S128x4096 .bf16) (x6 : Vec F S4096x2048 .bf16) (x7 : Vec F S1x2048 .f32) (xo9 xo10 : Vec F S1x2048 .f32) :
    out1_B_10 c i a1 h1 a2 h2 a3 h3 a4 h4 a5 h5 a6 h6 a7 h7 a8 h8 a9 h9 a10 h10 a11 h11 hc x0 x1 x2 x3 x4 x5 x6 x7 xo9 xo10 = k1_pay3 (k1_pay6 x1 x2 x0 x3 x4) x5 x6 x7 xo10 := by
  unfold out1_B_10
  rw [View.read_writes_eq_canon _ _ _ (cover1_B_10 c i a1 h1 a2 h2 a3 h3 a4 h4 a5 h5 a6 h6 a7 h7 a8 h8 a9 h9 a10 h10 a11 h11 hc x0 x1 x2 x3 x4 x5 x6 x7 xo9 xo10)]
  unfold kernelRun1_B
  dsimp only
  sl_unfold_words
  rw [View.canon_unit_zero hz]
  simp only [View.readAt_eq_ld, h1.read_unread, h2.read_unread, h3.read_unread, h4.read_unread, h5.read_unread, h6.read_unread, h7.read_unread, h8.read_unread, View.ld_unit_zero (S := S128x4096) hz, View.ld_unit_zero (S := S1x4096) hz, View.ld_unit_zero (S := S4096x2048) hz, View.ld_unit_zero (S := S1x2048) hz, h11.read_unread]

/-- The first point: the stored block is the same payload. -/
theorem first_block (c : Dev nD) (i : grid1.Coords) (a1 : Memref sig .tc .vmem S128x4096 .f32) (h1 : a1.IsWhole) (a2 : Memref sig .tc .vmem S1x4096 .f32) (h2 : a2.IsWhole) (a3 : Memref sig .tc .vmem S1x4096 .f32) (h3 : a3.IsWhole) (a4 : Memref sig .tc .vmem S1x4096 .f32) (h4 : a4.IsWhole) (a5 : Memref sig .tc .vmem S1x4096 .f32) (h5 : a5.IsWhole) (a6 : Memref sig .tc .vmem S128x4096 .bf16) (h6 : a6.IsWhole) (a7 : Memref sig .tc .vmem S4096x2048 .bf16) (h7 : a7.IsWhole) (a8 : Memref sig .tc .vmem S1x2048 .f32) (h8 : a8.IsWhole) (a9 : Memref sig .tc .vmem S128x2048 .f32) (h9 : a9.IsWhole) (a10 : Memref sig .tc .vmem S1x2048 .f32) (h10 : a10.IsWhole) (a11 : Memref sig .tc .vmem S1x2048 .f32) (h11 : a11.IsWhole) (hc : cond1_0 i)
    (x0 : Vec F S128x4096 .f32) (x1 x2 x3 x4 : Vec F S1x4096 .f32) (x5 : Vec F S128x4096 .bf16) (x6 : Vec F S4096x2048 .bf16) (x7 : Vec F S1x2048 .f32) :
    out1_A_8 c i a1 h1 a2 h2 a3 h3 a4 h4 a5 h5 a6 h6 a7 h7 a8 h8 a9 h9 a10 h10 a11 h11 hc x0 x1 x2 x3 x4 x5 x6 x7 = k1_pay1 (k1_pay6 x1 x2 x0 x3 x4) x5 x6 x7 := by
  unfold out1_A_8
  rw [View.read_writes_eq_canon _ _ _ (cover1_A_8 c i a1 h1 a2 h2 a3 h3 a4 h4 a5 h5 a6 h6 a7 h7 a8 h8 a9 h9 a10 h10 a11 h11 hc x0 x1 x2 x3 x4 x5 x6 x7)]
  unfold kernelRun1_A
  dsimp only
  sl_unfold_words
  rw [View.canon_unit_zero hz]
  simp only [View.readAt_eq_ld, h1.read_unread, h2.read_unread, h3.read_unread, h4.read_unread, h5.read_unread, h6.read_unread, h7.read_unread, h8.read_unread, View.ld_unit_zero (S := S128x4096) hz, View.ld_unit_zero (S := S1x4096) hz, View.ld_unit_zero (S := S4096x2048) hz, View.ld_unit_zero (S := S1x2048) hz]

/-- The first point: the running row of sums starts from the zero row the body has just stored. -/
theorem first_sum (c : Dev nD) (i : grid1.Coords) (a1 : Memref sig .tc .vmem S128x4096 .f32) (h1 : a1.IsWhole) (a2 : Memref sig .tc .vmem S1x4096 .f32) (h2 : a2.IsWhole) (a3 : Memref sig .tc .vmem S1x4096 .f32) (h3 : a3.IsWhole) (a4 : Memref sig .tc .vmem S1x4096 .f32) (h4 : a4.IsWhole) (a5 : Memref sig .tc .vmem S1x4096 .f32) (h5 : a5.IsWhole) (a6 : Memref sig .tc .vmem S128x4096 .bf16) (h6 : a6.IsWhole) (a7 : Memref sig .tc .vmem S4096x2048 .bf16) (h7 : a7.IsWhole) (a8 : Memref sig .tc .vmem S1x2048 .f32) (h8 : a8.IsWhole) (a9 : Memref sig .tc .vmem S128x2048 .f32) (h9 : a9.IsWhole) (a10 : Memref sig .tc .vmem S1x2048 .f32) (h10 : a10.IsWhole) (a11 : Memref sig .tc .vmem S1x2048 .f32) (h11 : a11.IsWhole) (hc : cond1_0 i)
    (x0 : Vec F S128x4096 .f32) (x1 x2 x3 x4 : Vec F S1x4096 .f32) (x5 : Vec F S128x4096 .bf16) (x6 : Vec F S4096x2048 .bf16) (x7 : Vec F S1x2048 .f32) :
    out1_A_9 c i a1 h1 a2 h2 a3 h3 a4 h4 a5 h5 a6 h6 a7 h7 a8 h8 a9 h9 a10 h10 a11 h11 hc x0 x1 x2 x3 x4 x5 x6 x7 = k1_pay2 (k1_pay6 x1 x2 x0 x3 x4) x5 x6 x7 k1_pay4 := by
  unfold out1_A_9
  rw [View.read_writes_eq_canon _ _ _ (cover1_A_9 c i a1 h1 a2 h2 a3 h3 a4 h4 a5 h5 a6 h6 a7 h7 a8 h8 a9 h9 a10 h10 a11 h11 hc x0 x1 x2 x3 x4 x5 x6 x7)]
  unfold kernelRun1_A
  dsimp only
  sl_unfold_words
  rw [View.canon_cons_unit_zero (S := S1x2048) hz, View.readCov_unit_zero (S := S1x2048) _ hz]
  simp only [View.readAt_eq_ld, h1.read_unread, h2.read_unread, h3.read_unread, h4.read_unread, h5.read_unread, h6.read_unread, h7.read_unread, h8.read_unread, View.ld_unit_zero (S := S128x4096) hz, View.ld_unit_zero (S := S1x4096) hz, View.ld_unit_zero (S := S4096x2048) hz, View.ld_unit_zero (S := S1x2048) hz]

/-- The first point: the running row of sums of squares likewise. -/
theorem first_sumsq (c : Dev nD) (i : grid1.Coords) (a1 : Memref sig .tc .vmem S128x4096 .f32) (h1 : a1.IsWhole) (a2 : Memref sig .tc .vmem S1x4096 .f32) (h2 : a2.IsWhole) (a3 : Memref sig .tc .vmem S1x4096 .f32) (h3 : a3.IsWhole) (a4 : Memref sig .tc .vmem S1x4096 .f32) (h4 : a4.IsWhole) (a5 : Memref sig .tc .vmem S1x4096 .f32) (h5 : a5.IsWhole) (a6 : Memref sig .tc .vmem S128x4096 .bf16) (h6 : a6.IsWhole) (a7 : Memref sig .tc .vmem S4096x2048 .bf16) (h7 : a7.IsWhole) (a8 : Memref sig .tc .vmem S1x2048 .f32) (h8 : a8.IsWhole) (a9 : Memref sig .tc .vmem S128x2048 .f32) (h9 : a9.IsWhole) (a10 : Memref sig .tc .vmem S1x2048 .f32) (h10 : a10.IsWhole) (a11 : Memref sig .tc .vmem S1x2048 .f32) (h11 : a11.IsWhole) (hc : cond1_0 i)
    (x0 : Vec F S128x4096 .f32) (x1 x2 x3 x4 : Vec F S1x4096 .f32) (x5 : Vec F S128x4096 .bf16) (x6 : Vec F S4096x2048 .bf16) (x7 : Vec F S1x2048 .f32) :
    out1_A_10 c i a1 h1 a2 h2 a3 h3 a4 h4 a5 h5 a6 h6 a7 h7 a8 h8 a9 h9 a10 h10 a11 h11 hc x0 x1 x2 x3 x4 x5 x6 x7 = k1_pay3 (k1_pay6 x1 x2 x0 x3 x4) x5 x6 x7 k1_pay5 := by
  unfold out1_A_10
  rw [View.read_writes_eq_canon _ _ _ (cover1_A_10 c i a1 h1 a2 h2 a3 h3 a4 h4 a5 h5 a6 h6 a7 h7 a8 h8 a9 h9 a10 h10 a11 h11 hc x0 x1 x2 x3 x4 x5 x6 x7)]
  unfold kernelRun1_A
  dsimp only
  sl_unfold_words
  rw [View.canon_cons_unit_zero (S := S1x2048) hz, View.readCov_unit_zero (S := S1x2048) _ hz]
  simp only [View.readAt_eq_ld, h1.read_unread, h2.read_unread, h3.read_unread, h4.read_unread, h5.read_unread, h6.read_unread, h7.read_unread, h8.read_unread, View.ld_unit_zero (S := S128x4096) hz, View.ld_unit_zero (S := S1x4096) hz, View.ld_unit_zero (S := S4096x2048) hz, View.ld_unit_zero (S := S1x2048) hz]

end Cert.KernelIdeal.Stage2

end
-- ==== Proof.Stage2Payload.lean ====
/-
  The second launch's arithmetic at an index, over the extended reals.

  The activated block is, at row `p` and column `k`, the leaky rectifier of `γ(k)·(h(p, k) − μ(k))·rsqrt(v(k) + ε) + β(k)`, with
  `μ = s·c` and `v = max(ss·c − μ², 0)` read from the two running rows `s`, `ss` of the first launch: every operation
  is entrywise, and a row is spread down the rows. The block the body stores is, at row `p` and column `q`,
  `Σₖ (a(p, k)·mask(p, k))·W2(k, q) + b2(q)`: the matrix product into a zero accumulator is the plain sum and the bias
  row is spread down the rows. A running row is, at column `q`, the row before plus the sum over the block's rows of the
  entry (or of its square).
-/
import proofs.«178448_j5592047419764_2_alg».proof.Proof.Gen.KernelIdeal.Skeleton
import proofs.«178448_j5592047419764_2_alg».proof.Proof.Spec
import proofs.«178448_j5592047419764_2_alg».proof.Proof.SpecRows
import proofs.«178448_j5592047419764_2_alg».proof.Proof.LibPlainMatmul
import proofs.«178448_j5592047419764_2_alg».proof.Proof.LibAxisReduce
import Idealize.ShloMosaic.Lib.ValueIdx
import Idealize.ShloMosaic.Lib.ValueLayout
import Idealize.ShloMosaic.Lib.Pipeline.Value
import Idealize.ShloMosaic.PureOps.Ideal.Laws

noncomputable section

open Idealize.ShloMosaic Idealize.ShloMosaic.ValueIdx

namespace Cert.KernelIdeal.Stage2

open Cert.KernelIdeal Cert.KernelIdeal.Gen

/-- The activated block at `(p, k)`: the leaky rectifier of the normalised entry, the statistics from the two rows. -/
theorem act_apply (v3 v7 : Vec Ideal S1x4096 .f32) (v15 : Vec Ideal S128x4096 .f32) (v17 v28 : Vec Ideal S1x4096 .f32)
    (p : Fin 128) (k : Fin 4096) :
    k1_pay6 (F := Ideal) v3 v7 v15 v17 v28 (ix2 p k)
      = Cert.Mlp.leaky Cert.Mlp.litZero Cert.Mlp.litSlope (Cert.Mlp.normalize Cert.Mlp.litEps
          (Cert.Mlp.muOf Cert.Mlp.litRecip (fun k => v3 (ix2 (0 : Fin 1) k)))
          (Cert.Mlp.varOf Cert.Mlp.litRecip Cert.Mlp.litZero (fun k => v3 (ix2 (0 : Fin 1) k)) (fun k => v7 (ix2 (0 : Fin 1) k)))
          (fun k => v17 (ix2 (0 : Fin 1) k)) (fun k => v28 (ix2 (0 : Fin 1) k)) (fun p k => v15 (ix2 p k)) p k) := by
  unfold k1_pay6 Cert.Mlp.leaky Cert.Mlp.normalize Cert.Mlp.varOf Cert.Mlp.muOf
  dsimp only
  -- the mean row at a column: the sum row's entry times the reciprocal
  have hmu : ∀ j : Fin 4096, (shapeCast S1x4096 v3 shapeCasts_S1x4096_S1x4096) (ix2 (0 : Fin 1) j) * Cert.Mlp.litRecip
      = v3 (ix2 (0 : Fin 1) j) * Cert.Mlp.litRecip :=
    fun j => congrArg₂ (· * ·) (congrFun (shapeCast_self v3 _) _) rfl
  refine congrArg (fun t => Scalar.select (FloatOps.cmpf (F := Ideal) (φ := .f32) .oge t Cert.Mlp.litZero) t
    (Cert.Mlp.litSlope * t)) ?_
  refine congrArg₂ (· + ·) ?_ ?_
  · refine congrArg₂ (· * ·) ?_ ?_
    · refine congrArg₂ (· * ·) ?_ ?_
      · refine (broadcastTo_1b_ab_apply _ _ p k).trans ?_
        exact congrFun (shapeCast_self v17 _) _
      · refine congrArg₂ (· - ·) (congrFun (shapeCast_self v15 _) _) ?_
        refine (broadcastTo_1b_ab_apply _ _ p k).trans ?_
        exact hmu k
    · refine (broadcastTo_1b_ab_apply _ _ p k).trans ?_
      refine congrArg Ideal.rsqrt ?_
      refine congrArg₂ (· + ·) ?_ rfl
      refine congrArg₂ max ?_ rfl
      refine congrArg₂ (· - ·) ?_ ?_
      · exact congrArg₂ (· * ·) (congrFun (shapeCast_self v7 _) _) rfl
      · exact congrArg₂ (· * ·) (hmu k) (hmu k)
  · refine (broadcastTo_1b_ab_apply _ _ p k).trans ?_
    exact congrFun (shapeCast_self v28 _) _

/-- The stored block at `(p, q)`: the affine layer of the masked activated block. -/
theorem block_apply (a : FVec Ideal S128x4096 .f32) (v37 : Vec Ideal S128x4096 .bf16) (v42 : Vec Ideal S4096x2048 .bf16)
    (v45 : Vec Ideal S1x2048 .f32) (p : Fin 128) (q : Fin 2048) :
    k1_pay1 (F := Ideal) a v37 v42 v45 (ix2 p q)
      = Cert.Mlp.affine (fun p k => a (ix2 p k) * v37 (ix2 p k)) (fun k q => v42 (ix2 k q))
          (fun q => v45 (ix2 (0 : Fin 1) q)) p q := by
  unfold k1_pay1 Cert.Mlp.affine
  dsimp only
  refine congrArg₂ (· + ·) ?_ ?_
  · refine (PlainMatmul.matmul_zero_apply dot_S128x4096_S4096x2048_S128x2048_1_0_0_1_n_n_wf none _ _ p q).trans ?_
    refine Finset.sum_congr rfl fun k _ => ?_
    refine congrArg₂ (· * ·) ?_ (congrFun (shapeCast_self v42 _) _)
    exact congrArg₂ (· * ·) rfl (congrFun (shapeCast_self v37 _) _)
  · refine (broadcastTo_1b_ab_apply _ _ p q).trans ?_
    exact congrFun (shapeCast_self v45 _) _

/-- A running row of sums at column `q`: the row before plus the block's column sum. -/
theorem sum_apply (a : FVec Ideal S128x4096 .f32) (v37 : Vec Ideal S128x4096 .bf16) (v42 : Vec Ideal S4096x2048 .bf16)
    (v45 xo : Vec Ideal S1x2048 .f32) (q : Fin 2048) :
    k1_pay2 (F := Ideal) a v37 v42 v45 xo (ix2 (0 : Fin 1) q)
      = xo (ix2 (0 : Fin 1) q) + ∑ r : Fin 128, k1_pay1 (F := Ideal) a v37 v42 v45 (ix2 r q) := by
  unfold k1_pay2
  dsimp only
  refine congrArg₂ (· + ·) (congrFun (shapeCast_self xo _) _) ?_
  refine (shapeCast_a_1a_apply _ _ (0 : Fin 1) q).trans ?_
  exact AxisReduce.colSum_apply _ _ _ _ _ q

/-- A running row of sums of squares at column `q`. -/
theorem sumsq_apply (a : FVec Ideal S128x4096 .f32) (v37 : Vec Ideal S128x4096 .bf16) (v42 : Vec Ideal S4096x2048 .bf16)
    (v45 xo : Vec Ideal S1x2048 .f32) (q : Fin 2048) :
    k1_pay3 (F := Ideal) a v37 v42 v45 xo (ix2 (0 : Fin 1) q)
      = xo (ix2 (0 : Fin 1) q)
        + ∑ r : Fin 128, k1_pay1 (F := Ideal) a v37 v42 v45 (ix2 r q) * k1_pay1 (F := Ideal) a v37 v42 v45 (ix2 r q) := by
  unfold k1_pay3
  dsimp only
  refine congrArg₂ (· + ·) (congrFun (shapeCast_self xo _) _) ?_
  refine (shapeCast_a_1a_apply _ _ (0 : Fin 1) q).trans ?_
  exact AxisReduce.colSum_apply _ _ _ _ _ q

/-- The zero rows the first point stores. -/
theorem zero_row_sum (i : S1x2048.Idx) : k1_pay4 (F := Ideal) i = 0 := by
  unfold k1_pay4
  exact Ideal.ofBits_zero_f32

theorem zero_row_sumsq (i : S1x2048.Idx) : k1_pay5 (F := Ideal) i = 0 := by
  unfold k1_pay5
  exact Ideal.ofBits_zero_f32

end Cert.KernelIdeal.Stage2

end
-- ==== Proof.Stage2Rows.lean ====
/-
  The second launch over its sixty-four grid points.

  After point `n` the block buffer holds the second affine layer of point `n`'s activated block, and the two running
  rows hold the zero row plus the column sums (of the entries, of their squares) of the blocks of points `0 … n`: by
  induction on the point, as for the first launch.
-/
import proofs.«178448_j5592047419764_2_alg».proof.Proof.Stage2Pieces
import proofs.«178448_j5592047419764_2_alg».proof.Proof.Stage2Payload

noncomputable section

open Idealize.ShloMosaic Idealize.ShloMosaic.TcCoe Idealize.SL.Sem Idealize.ShloMosaic.ValueIdx
open Idealize.ShloMosaic.Pipeline (Dat)

namespace Cert.KernelIdeal.Stage2

open Cert.KernelIdeal Cert.KernelIdeal.Gen

section AnyFloat
variable {F : FTy → Type} [FloatOps F]
variable (V : (c : Dev nD) → (b : Ref sig .tc) → Buf (Elt F) ((c : Thread nD τ).loc b))

/-- The running row of column sums after point `n`. -/
def rowSum (c : Dev nD) : (n : ℕ) → n < cfg1.N → Vec F S1x2048 .f32
  | 0, h => k1_pay2 (k1_pay6 (iblk1 V c 1 ⟨0, h⟩) (iblk1 V c 2 ⟨0, h⟩) (iblk1 V c 0 ⟨0, h⟩) (iblk1 V c 3 ⟨0, h⟩) (iblk1 V c 4 ⟨0, h⟩)) (iblk1 V c 5 ⟨0, h⟩) (iblk1 V c 6 ⟨0, h⟩) (iblk1 V c 7 ⟨0, h⟩) k1_pay4
  | n + 1, h => k1_pay2 (k1_pay6 (iblk1 V c 1 ⟨n + 1, h⟩) (iblk1 V c 2 ⟨n + 1, h⟩) (iblk1 V c 0 ⟨n + 1, h⟩) (iblk1 V c 3 ⟨n + 1, h⟩) (iblk1 V c 4 ⟨n + 1, h⟩)) (iblk1 V c 5 ⟨n + 1, h⟩) (iblk1 V c 6 ⟨n + 1, h⟩) (iblk1 V c 7 ⟨n + 1, h⟩) (rowSum c n (Nat.lt_of_succ_lt h))

/-- The running row of column sums of squares after point `n`. -/
def rowSq (c : Dev nD) : (n : ℕ) → n < cfg1.N → Vec F S1x2048 .f32
  | 0, h => k1_pay3 (k1_pay6 (iblk1 V c 1 ⟨0, h⟩) (iblk1 V c 2 ⟨0, h⟩) (iblk1 V c 0 ⟨0, h⟩) (iblk1 V c 3 ⟨0, h⟩) (iblk1 V c 4 ⟨0, h⟩)) (iblk1 V c 5 ⟨0, h⟩) (iblk1 V c 6 ⟨0, h⟩) (iblk1 V c 7 ⟨0, h⟩) k1_pay5
  | n + 1, h => k1_pay3 (k1_pay6 (iblk1 V c 1 ⟨n + 1, h⟩) (iblk1 V c 2 ⟨n + 1, h⟩) (iblk1 V c 0 ⟨n + 1, h⟩) (iblk1 V c 3 ⟨n + 1, h⟩) (iblk1 V c 4 ⟨n + 1, h⟩)) (iblk1 V c 5 ⟨n + 1, h⟩) (iblk1 V c 6 ⟨n + 1, h⟩) (iblk1 V c 7 ⟨n + 1, h⟩) (rowSq c n (Nat.lt_of_succ_lt h))

/-- What the three output buffers hold after point `n`. -/
theorem outsAt_eq (c : Dev nD) : ∀ (n : ℕ) (h : n < cfg1.N),
    outsAt1 V c n h = (k1_pay1 (k1_pay6 (iblk1 V c 1 ⟨n, h⟩) (iblk1 V c 2 ⟨n, h⟩) (iblk1 V c 0 ⟨n, h⟩) (iblk1 V c 3 ⟨n, h⟩) (iblk1 V c 4 ⟨n, h⟩)) (iblk1 V c 5 ⟨n, h⟩) (iblk1 V c 6 ⟨n, h⟩) (iblk1 V c 7 ⟨n, h⟩), rowSum V c n h, rowSq V c n h)
  | 0, h => (outsAt1_A V c ⟨0, h⟩ rfl).trans
      (congrArg₂ Prod.mk (first_block ..) (congrArg₂ Prod.mk (first_sum ..) (first_sumsq ..)))
  | n + 1, h => by
    have hN : cfg1.N = 64 := N_1
    have hB : ¬(⟨n + 1, h⟩ : Fin cfg1.N).val % 64 = 0 := by dsimp only; omega
    rw [outsAt1_B V c ⟨n + 1, h⟩ hB, later_block, later_sum, later_sumsq]
    show (_, k1_pay2 _ _ _ _ (outsAt1 V c n _).2.1, k1_pay3 _ _ _ _ (outsAt1 V c n _).2.2) = _
    rw [outsAt_eq c n]
    rfl

end AnyFloat

section Reals
variable (V : (c : Dev nD) → (b : Ref sig .tc) → Buf (Elt Ideal) ((c : Thread nD τ).loc b))

/-- Over the extended reals the running row of sums at column `q` is the sum over the points so far of each block's
    column sum. -/
theorem rowSum_apply (c : Dev nD) (q : Fin 2048) : ∀ (n : ℕ) (h : n < cfg1.N),
    rowSum V c n h (ix2 (0 : Fin 1) q)
      = ∑ s ∈ Finset.range (n + 1), if hs : s < cfg1.N then
          ∑ r : Fin 128, k1_pay1 (F := Ideal) (k1_pay6 (F := Ideal) (iblk1 V c 1 ⟨s, hs⟩) (iblk1 V c 2 ⟨s, hs⟩) (iblk1 V c 0 ⟨s, hs⟩) (iblk1 V c 3 ⟨s, hs⟩) (iblk1 V c 4 ⟨s, hs⟩)) (iblk1 V c 5 ⟨s, hs⟩) (iblk1 V c 6 ⟨s, hs⟩) (iblk1 V c 7 ⟨s, hs⟩) (ix2 r q) else 0
  | 0, h => by
    rw [Finset.sum_range_one, dif_pos h]
    show k1_pay2 (F := Ideal) _ _ _ _ _ (ix2 (0 : Fin 1) q) = _
    rw [sum_apply, zero_row_sum, zero_add]
  | n + 1, h => by
    rw [Finset.sum_range_succ, dif_pos h, ← rowSum_apply c q n (Nat.lt_of_succ_lt h)]
    show k1_pay2 (F := Ideal) _ _ _ _ _ (ix2 (0 : Fin 1) q) = _
    rw [sum_apply]

/-- The same for the running row of sums of squares. -/
theorem rowSq_apply (c : Dev nD) (q : Fin 2048) : ∀ (n : ℕ) (h : n < cfg1.N),
    rowSq V c n h (ix2 (0 : Fin 1) q)
      = ∑ s ∈ Finset.range (n + 1), if hs : s < cfg1.N then
          ∑ r : Fin 128, k1_pay1 (F := Ideal) (k1_pay6 (F := Ideal) (iblk1 V c 1 ⟨s, hs⟩) (iblk1 V c 2 ⟨s, hs⟩) (iblk1 V c 0 ⟨s, hs⟩) (iblk1 V c 3 ⟨s, hs⟩) (iblk1 V c 4 ⟨s, hs⟩)) (iblk1 V c 5 ⟨s, hs⟩) (iblk1 V c 6 ⟨s, hs⟩) (iblk1 V c 7 ⟨s, hs⟩) (ix2 r q)
            * k1_pay1 (F := Ideal) (k1_pay6 (F := Ideal) (iblk1 V c 1 ⟨s, hs⟩) (iblk1 V c 2 ⟨s, hs⟩) (iblk1 V c 0 ⟨s, hs⟩) (iblk1 V c 3 ⟨s, hs⟩) (iblk1 V c 4 ⟨s, hs⟩)) (iblk1 V c 5 ⟨s, hs⟩) (iblk1 V c 6 ⟨s, hs⟩) (iblk1 V c 7 ⟨s, hs⟩) (ix2 r q) else 0
  | 0, h => by
    rw [Finset.sum_range_one, dif_pos h]
    show k1_pay3 (F := Ideal) _ _ _ _ _ (ix2 (0 : Fin 1) q) = _
    rw [sumsq_apply, zero_row_sumsq, zero_add]
  | n + 1, h => by
    rw [Finset.sum_range_succ, dif_pos h, ← rowSq_apply c q n (Nat.lt_of_succ_lt h)]
    show k1_pay3 (F := Ideal) _ _ _ _ _ (ix2 (0 : Fin 1) q) = _
    rw [sumsq_apply]

end Reals

end Cert.KernelIdeal.Stage2

end
-- ==== Proof.Stage2Array.lean ====
/-
  The second launch: the three arrays it leaves, as functions of the eight arrays it finds.

  Point `t` reads rows `128t … 128t + 127` of the pre-activation array and of the mask, and the whole of the two rows
  of statistics, the scale and shift rows, the weight array and the bias row. It normalises its rows with the mean and
  variance rows made from the statistics, applies the leaky rectifier and the mask, and stores the block
  `act·W2 + b2`; the sixty-four blocks tile the output array, which ends at `pre2`. The two running rows end at the
  column sums of `pre2` and of its squares over all 8192 rows.
-/
import proofs.«178448_j5592047419764_2_alg».proof.Proof.Stage2Rows
import proofs.«178448_j5592047419764_2_alg».proof.Proof.LibBlockSum
import proofs.«178448_j5592047419764_2_alg».proof.Proof.SpecRows

noncomputable section

open Idealize.ShloMosaic Idealize.ShloMosaic.TcCoe Idealize.SL.Sem Idealize.ShloMosaic.ValueIdx
open Idealize.ShloMosaic.Pipeline (Dat)

namespace Cert.KernelIdeal.Stage2

open Cert.KernelIdeal Cert.KernelIdeal.Gen

variable (V : (c : Dev nD) → (b : Ref sig .tc) → Buf (Elt Ideal) ((c : Thread nD τ).loc b))

/-- The windows' block indices at point `t`: the two row-blocked inputs and the block output sit at block `t`, the
    others at block 0. -/
theorem idx_facts : ∀ t : Fin cfg1.N,
    (win1_0.index t (0 : Fin 2) = t.val ∧ win1_0.index t (1 : Fin 2) = 0) ∧ (win1_1.index t (0 : Fin 2) = 0 ∧ win1_1.index t (1 : Fin 2) = 0) ∧ (win1_2.index t (0 : Fin 2) = 0 ∧ win1_2.index t (1 : Fin 2) = 0) ∧ (win1_3.index t (0 : Fin 2) = 0 ∧ win1_3.index t (1 : Fin 2) = 0)
    ∧ (win1_4.index t (0 : Fin 2) = 0 ∧ win1_4.index t (1 : Fin 2) = 0) ∧ (win1_5.index t (0 : Fin 2) = t.val ∧ win1_5.index t (1 : Fin 2) = 0) ∧ (win1_6.index t (0 : Fin 2) = 0 ∧ win1_6.index t (1 : Fin 2) = 0) ∧ (win1_7.index t (0 : Fin 2) = 0 ∧ win1_7.index t (1 : Fin 2) = 0)
    ∧ (win1_8.index t (0 : Fin 2) = t.val ∧ win1_8.index t (1 : Fin 2) = 0) ∧ (win1_9.index t (0 : Fin 2) = 0 ∧ win1_9.index t (1 : Fin 2) = 0) ∧ (win1_10.index t (0 : Fin 2) = 0 ∧ win1_10.index t (1 : Fin 2) = 0) :=
  (by decide +kernel : ∀ t : Fin grid1.N, _)

/-- Row `r` of block `t` is row `128t + r` of the array. -/
def row (t : Fin cfg1.N) (r : Fin 128) : Fin 8192 :=
  ⟨t.val * 128 + r.val, by
    have h64 : t.val < 64 := lt_of_lt_of_eq t.isLt N_1
    have := r.isLt
    omega⟩

/-- The last point. -/
def tLast : Fin cfg1.N := ⟨63, by rw [show cfg1.N = 64 from N_1]; decide⟩

/-- The arrays the launch finds, as functions of coordinates. -/
abbrev inH (c : Dev nD) : Fin 8192 → Fin 4096 → EReal := fun p k => V c main_v11_0 (ix2 p k)
abbrev inS (c : Dev nD) : Fin 4096 → EReal := fun k => V c main_v11_1 (ix2 (0 : Fin 1) k)
abbrev inSS (c : Dev nD) : Fin 4096 → EReal := fun k => V c main_v11_2 (ix2 (0 : Fin 1) k)
abbrev inG (c : Dev nD) : Fin 4096 → EReal := fun k => V c main_v6 (ix2 (0 : Fin 1) k)
abbrev inBe (c : Dev nD) : Fin 4096 → EReal := fun k => V c main_v7 (ix2 (0 : Fin 1) k)
abbrev inM (c : Dev nD) : Fin 8192 → Fin 4096 → EReal := fun p k => V c main_v4 (ix2 p k)
abbrev inW (c : Dev nD) : Fin 4096 → Fin 2048 → EReal := fun k q => V c main_v3 (ix2 k q)
abbrev inB (c : Dev nD) : Fin 2048 → EReal := fun q => V c main_v8 (ix2 (0 : Fin 1) q)

/-- The normalised, rectified rows. -/
def act (c : Dev nD) : Fin 8192 → Fin 4096 → EReal := fun p k =>
  Cert.Mlp.leaky Cert.Mlp.litZero Cert.Mlp.litSlope
    (Cert.Mlp.normalize Cert.Mlp.litEps (Cert.Mlp.muOf Cert.Mlp.litRecip (inS V c))
      (Cert.Mlp.varOf Cert.Mlp.litRecip Cert.Mlp.litZero (inS V c) (inSS V c)) (inG V c) (inBe V c) (inH V c) p k)

/-- The second layer's pre-activation of the whole arrays. -/
def pre2 (c : Dev nD) : Fin 8192 → Fin 2048 → EReal :=
  Cert.Mlp.affine (fun p k => act V c p k * inM V c p k) (inW V c) (inB V c)

/-! ## The blocks read at an index -/

theorem blk_h (c : Dev nD) (t : Fin cfg1.N) (r : Fin 128) (k : Fin 4096) :
    iblk1 V c 0 t (ix2 r k) = inH V c (row t r) k := by
  have e0 := (idx_facts t).1.1
  have e1 := (idx_facts t).1.2
  unfold iblk1
  rw [View.read_apply]
  show V c main_v11_0 _ = V c main_v11_0 _
  refine congrArg (V c main_v11_0) (funext fun a => Fin.ext ?_)
  match a with
  | ⟨0, _⟩ => show win1_0.index t (0 : Fin 2) * 128 + 1 * r.val = t.val * 128 + r.val; rw [e0]; omega
  | ⟨1, _⟩ => show win1_0.index t (1 : Fin 2) * 4096 + 1 * k.val = k.val; rw [e1]; omega

theorem blk_m (c : Dev nD) (t : Fin cfg1.N) (r : Fin 128) (k : Fin 4096) :
    iblk1 V c 5 t (ix2 r k) = inM V c (row t r) k := by
  have e0 := (idx_facts t).2.2.2.2.2.1.1
  have e1 := (idx_facts t).2.2.2.2.2.1.2
  unfold iblk1
  rw [View.read_apply]
  show V c main_v4 _ = V c main_v4 _
  refine congrArg (V c main_v4) (funext fun a => Fin.ext ?_)
  match a with
  | ⟨0, _⟩ => show win1_5.index t (0 : Fin 2) * 128 + 1 * r.val = t.val * 128 + r.val; rw [e0]; omega
  | ⟨1, _⟩ => show win1_5.index t (1 : Fin 2) * 4096 + 1 * k.val = k.val; rw [e1]; omega

theorem blk_w (c : Dev nD) (t : Fin cfg1.N) (k : Fin 4096) (q : Fin 2048) :
    iblk1 V c 6 t (ix2 k q) = inW V c k q := by
  have e0 := (idx_facts t).2.2.2.2.2.2.1.1
  have e1 := (idx_facts t).2.2.2.2.2.2.1.2
  unfold iblk1
  rw [View.read_apply]
  show V c main_v3 _ = V c main_v3 _
  refine congrArg (V c main_v3) (funext fun a => Fin.ext ?_)
  match a with
  | ⟨0, _⟩ => show win1_6.index t (0 : Fin 2) * 4096 + 1 * k.val = k.val; rw [e0]; omega
  | ⟨1, _⟩ => show win1_6.index t (1 : Fin 2) * 2048 + 1 * q.val = q.val; rw [e1]; omega

theorem blk_s (c : Dev nD) (t : Fin cfg1.N) (q : Fin 4096) :
    iblk1 V c 1 t (ix2 (0 : Fin 1) q) = inS V c q := by
  have e0 := (idx_facts t).2.1.1
  have e1 := (idx_facts t).2.1.2
  unfold iblk1
  rw [View.read_apply]
  show V c main_v11_1 _ = V c main_v11_1 _
  refine congrArg (V c main_v11_1) (funext fun a => Fin.ext ?_)
  match a with
  | ⟨0, _⟩ => show win1_1.index t (0 : Fin 2) * 1 + 1 * 0 = 0; rw [e0]
  | ⟨1, _⟩ => show win1_1.index t (1 : Fin 2) * 4096 + 1 * q.val = q.val; rw [e1]; omega

theorem blk_ss (c : Dev nD) (t : Fin cfg1.N) (q : Fin 4096) :
    iblk1 V c 2 t (ix2 (0 : Fin 1) q) = inSS V c q := by
  have e0 := (idx_facts t).2.2.1.1
  have e1 := (idx_facts t).2.2.1.2
  unfold iblk1
  rw [View.read_apply]
  show V c main_v11_2 _ = V c main_v11_2 _
  refine congrArg (V c main_v11_2) (funext fun a => Fin.ext ?_)
  match a with
  | ⟨0, _⟩ => show win1_2.index t (0 : Fin 2) * 1 + 1 * 0 = 0; rw [e0]
  | ⟨1, _⟩ => show win1_2.index t (1 : Fin 2) * 4096 + 1 * q.val = q.val; rw [e1]; omega

theorem blk_g (c : Dev nD) (t : Fin cfg1.N) (q : Fin 4096) :
    iblk1 V c 3 t (ix2 (0 : Fin 1) q) = inG V c q := by
  have e0 := (idx_facts t).2.2.2.1.1
  have e1 := (idx_facts t).2.2.2.1.2
  unfold iblk1
  rw [View.read_apply]
  show V c main_v6 _ = V c main_v6 _
  refine congrArg (V c main_v6) (funext fun a => Fin.ext ?_)
  match a with
  | ⟨0, _⟩ => show win1_3.index t (0 : Fin 2) * 1 + 1 * 0 = 0; rw [e0]
  | ⟨1, _⟩ => show win1_3.index t (1 : Fin 2) * 4096 + 1 * q.val = q.val; rw [e1]; omega

theorem blk_be (c : Dev nD) (t : Fin cfg1.N) (q : Fin 4096) :
    iblk1 V c 4 t (ix2 (0 : Fin 1) q) = inBe V c q := by
  have e0 := (idx_facts t).2.2.2.2.1.1
  have e1 := (idx_facts t).2.2.2.2.1.2
  unfold iblk1
  rw [View.read_apply]
  show V c main_v7 _ = V c main_v7 _
  refine congrArg (V c main_v7) (funext fun a => Fin.ext ?_)
  match a with
  | ⟨0, _⟩ => show win1_4.index t (0 : Fin 2) * 1 + 1 * 0 = 0; rw [e0]
  | ⟨1, _⟩ => show win1_4.index t (1 : Fin 2) * 4096 + 1 * q.val = q.val; rw [e1]; omega

theorem blk_b (c : Dev nD) (t : Fin cfg1.N) (q : Fin 2048) :
    iblk1 V c 7 t (ix2 (0 : Fin 1) q) = inB V c q := by
  have e0 := (idx_facts t).2.2.2.2.2.2.2.1.1
  have e1 := (idx_facts t).2.2.2.2.2.2.2.1.2
  unfold iblk1
  rw [View.read_apply]
  show V c main_v8 _ = V c main_v8 _
  refine congrArg (V c main_v8) (funext fun a => Fin.ext ?_)
  match a with
  | ⟨0, _⟩ => show win1_7.index t (0 : Fin 2) * 1 + 1 * 0 = 0; rw [e0]
  | ⟨1, _⟩ => show win1_7.index t (1 : Fin 2) * 2048 + 1 * q.val = q.val; rw [e1]; omega

/-- The block point `t` stores is rows `128t …` of `pre2`. -/
theorem block_eq (c : Dev nD) (t : Fin cfg1.N) (r : Fin 128) (q : Fin 2048) :
    k1_pay1 (F := Ideal) (k1_pay6 (F := Ideal) (iblk1 V c 1 t) (iblk1 V c 2 t) (iblk1 V c 0 t) (iblk1 V c 3 t) (iblk1 V c 4 t)) (iblk1 V c 5 t) (iblk1 V c 6 t) (iblk1 V c 7 t) (ix2 r q) = pre2 V c (row t r) q := by
  refine (block_apply (k1_pay6 (F := Ideal) (iblk1 V c 1 t) (iblk1 V c 2 t) (iblk1 V c 0 t) (iblk1 V c 3 t) (iblk1 V c 4 t)) (iblk1 V c 5 t) (iblk1 V c 6 t) (iblk1 V c 7 t) r q).trans ?_
  have ha : (fun (p : Fin 128) (k : Fin 4096) => (k1_pay6 (F := Ideal) (iblk1 V c 1 t) (iblk1 V c 2 t) (iblk1 V c 0 t) (iblk1 V c 3 t) (iblk1 V c 4 t)) (ix2 p k) * iblk1 V c 5 t (ix2 p k))
      = fun p k => act V c (row t p) k * inM V c (row t p) k := by
    funext p k
    rw [act_apply (iblk1 V c 1 t) (iblk1 V c 2 t) (iblk1 V c 0 t) (iblk1 V c 3 t) (iblk1 V c 4 t) p k, blk_m V c t p k,
      show (fun (k : Fin 4096) => iblk1 V c 1 t (ix2 (0 : Fin 1) k)) = inS V c from funext fun k => blk_s V c t k,
      show (fun (k : Fin 4096) => iblk1 V c 2 t (ix2 (0 : Fin 1) k)) = inSS V c from funext fun k => blk_ss V c t k,
      show (fun (k : Fin 4096) => iblk1 V c 3 t (ix2 (0 : Fin 1) k)) = inG V c from funext fun k => blk_g V c t k,
      show (fun (k : Fin 4096) => iblk1 V c 4 t (ix2 (0 : Fin 1) k)) = inBe V c from funext fun k => blk_be V c t k,
      show (fun (p : Fin 128) (k : Fin 4096) => iblk1 V c 0 t (ix2 p k)) = fun p k => inH V c (row t p) k from
        funext fun p => funext fun k => blk_h V c t p k]
    rfl
  rw [ha,
    show (fun (k : Fin 4096) (q : Fin 2048) => iblk1 V c 6 t (ix2 k q)) = inW V c from
      funext fun k => funext fun q => blk_w V c t k q,
    show (fun (q : Fin 2048) => iblk1 V c 7 t (ix2 (0 : Fin 1) q)) = inB V c from funext fun q => blk_b V c t q]
  rfl

/-! ## The block array -/

theorem mem_block (t : Fin cfg1.N) (i : S8192x2048.Idx) :
    i ∈ ((cfg1.win 8).blk t).view.set ↔ ∀ a : Fin 2, win1_8.index t a * S128x2048.size a ≤ (i a).val
      ∧ (i a).val < win1_8.index t a * S128x2048.size a + S128x2048.size a := by
  show i ∈ ((View.whole main_v12_0).slice (win1_8.rect t)).set ↔ _
  rw [View.set_slice_whole, Rect.mem_set_unit]
  exact Iff.rfl

/-- What point `t` writes back of the block array. -/
theorem flushed_block (c : Dev nD) (t : Fin cfg1.N) :
    (dat1 V c).flushed 8 t
      = ((cfg1.win 8).blk t).view.read (Elt Ideal) (fun i : S8192x2048.Idx => pre2 V c (i 0) (i 1)) := by
  have e0 := (idx_facts t).2.2.2.2.2.2.2.2.1.1
  have e1 := (idx_facts t).2.2.2.2.2.2.2.2.1.2
  show (cfg1.win 8).cut (grid1.coords t) ((dat1 V c).after 8 t) = _
  rw [after1_8, outsAt_eq]
  funext j
  obtain ⟨r, q, rfl⟩ : ∃ (r : Fin 128) (q : Fin 2048), j = ix2 r q := ⟨j 0, j 1, eq_ix2 j⟩
  rw [View.read_apply]
  have he : ((cfg1.win 8).blk t).view.emb (ix2 r q) = ix2 (row t r) q := funext fun a => Fin.ext (by
    match a with
    | ⟨0, _⟩ => show win1_8.index t (0 : Fin 2) * 128 + 1 * r.val = t.val * 128 + r.val; rw [e0]; omega
    | ⟨1, _⟩ => show win1_8.index t (1 : Fin 2) * 2048 + 1 * q.val = q.val; rw [e1]; omega)
  rw [he]
  exact block_eq V c t r q

/-- The block array after the launch. -/
theorem final_block (c : Dev nD) :
    (dat1 V c).arrAt 8 cfg1.N = fun i : S8192x2048.Idx => pre2 V c (i 0) (i 1) :=
  (dat1 V c).arrAt_eq_of_cover 8 _ (fun t _ => flushed_block V c t) fun i => by
    have hi0 : (i 0).val < 8192 := (i 0).isLt
    have hi1 : (i 1).val < 2048 := (i 1).isLt
    have hN : cfg1.N = 64 := N_1
    refine ⟨⟨(i 0).val / 128, by rw [hN]; omega⟩, flush1_8 _, ?_⟩
    have e0 := (idx_facts ⟨(i 0).val / 128, by rw [hN]; omega⟩).2.2.2.2.2.2.2.2.1.1
    have e1 := (idx_facts ⟨(i 0).val / 128, by rw [hN]; omega⟩).2.2.2.2.2.2.2.2.1.2
    rw [mem_block]
    intro a
    match a with
    | ⟨0, _⟩ =>
      show win1_8.index _ (0 : Fin 2) * 128 ≤ (i 0).val ∧ (i 0).val < win1_8.index _ (0 : Fin 2) * 128 + 128
      rw [e0]; dsimp only; omega
    | ⟨1, _⟩ =>
      show win1_8.index _ (1 : Fin 2) * 2048 ≤ (i 1).val ∧ (i 1).val < win1_8.index _ (1 : Fin 2) * 2048 + 2048
      rw [e1]; omega

/-! ## The two rows -/

theorem mem_sum (t : Fin cfg1.N) (i : S1x2048.Idx) :
    i ∈ ((cfg1.win 9).blk t).view.set ↔ ∀ a : Fin 2, win1_9.index t a * S1x2048.size a ≤ (i a).val
      ∧ (i a).val < win1_9.index t a * S1x2048.size a + S1x2048.size a := by
  show i ∈ ((View.whole main_v12_1).slice (win1_9.rect t)).set ↔ _
  rw [View.set_slice_whole, Rect.mem_set_unit]
  exact Iff.rfl

/-- The sixty-four blocks' column sums add up to the column sum over all rows. -/
theorem blocks_sum (c : Dev nD) (q : Fin 2048) :
    (∑ s ∈ Finset.range (63 + 1), if hs : s < cfg1.N then
        ∑ r : Fin 128, k1_pay1 (F := Ideal) (k1_pay6 (F := Ideal) (iblk1 V c 1 ⟨s, hs⟩) (iblk1 V c 2 ⟨s, hs⟩) (iblk1 V c 0 ⟨s, hs⟩) (iblk1 V c 3 ⟨s, hs⟩) (iblk1 V c 4 ⟨s, hs⟩)) (iblk1 V c 5 ⟨s, hs⟩) (iblk1 V c 6 ⟨s, hs⟩) (iblk1 V c 7 ⟨s, hs⟩) (ix2 r q) else 0) = Cert.Mlp.colSum (pre2 V c) q := by
  have hN : cfg1.N = 64 := N_1
  refine Cert.LibBlockSum.sum_range_blocks_of_eq 64 128 8192 rfl (fun p => pre2 V c p q) _ (fun k => ?_)
  rw [dif_pos (by rw [hN]; exact k.isLt)]
  refine Finset.sum_congr rfl fun j _ => ?_
  rw [block_eq V c ⟨k.val, by rw [hN]; exact k.isLt⟩ j q]
  rfl

/-- The one write-back of the row, after the last point. -/
theorem flushed_sum (c : Dev nD) (t : Fin cfg1.N) (hf : (cfg1.win 9).flush t = true) :
    (dat1 V c).flushed 9 t
      = ((cfg1.win 9).blk t).view.read (Elt Ideal) (fun i : S1x2048.Idx => Cert.Mlp.colSum (pre2 V c) (i 1)) := by
  have hN : cfg1.N = 64 := N_1
  have h63 : t.val = 63 := by have := (flush1_9 t).mp hf; have := t.isLt; omega
  obtain rfl : t = tLast := Fin.ext h63
  have e0 := (idx_facts tLast).2.2.2.2.2.2.2.2.2.1.1
  have e1 := (idx_facts tLast).2.2.2.2.2.2.2.2.2.1.2
  show (cfg1.win 9).cut (grid1.coords tLast) ((dat1 V c).after 9 tLast) = _
  rw [after1_9, outsAt_eq]
  funext j
  obtain ⟨u, q, rfl⟩ : ∃ (u : Fin 1) (q : Fin 2048), j = ix2 u q := ⟨j 0, j 1, eq_ix2 j⟩
  obtain rfl : u = 0 := Subsingleton.elim _ _
  rw [View.read_apply]
  have he : ((cfg1.win 9).blk tLast).view.emb (ix2 (0 : Fin 1) q) = ix2 (0 : Fin 1) q := funext fun a => Fin.ext (by
    match a with
    | ⟨0, _⟩ => show win1_9.index tLast (0 : Fin 2) * 1 + 1 * 0 = 0; rw [e0]
    | ⟨1, _⟩ => show win1_9.index tLast (1 : Fin 2) * 2048 + 1 * q.val = q.val; rw [e1]; omega)
  rw [he]
  exact (rowSum_apply V c q 63 _).trans (blocks_sum V c q)

/-- The row after the launch. -/
theorem final_sum (c : Dev nD) :
    (dat1 V c).arrAt 9 cfg1.N = fun i : S1x2048.Idx => Cert.Mlp.colSum (pre2 V c) (i 1) :=
  (dat1 V c).arrAt_eq_of_cover 9 _ (flushed_sum V c) fun i => by
    have hi0 : (i 0).val < 1 := (i 0).isLt
    have hi1 : (i 1).val < 2048 := (i 1).isLt
    refine ⟨tLast, (flush1_9 tLast).mpr rfl, ?_⟩
    have e0 := (idx_facts tLast).2.2.2.2.2.2.2.2.2.1.1
    have e1 := (idx_facts tLast).2.2.2.2.2.2.2.2.2.1.2
    rw [mem_sum]
    intro a
    match a with
    | ⟨0, _⟩ =>
      show win1_9.index tLast (0 : Fin 2) * 1 ≤ (i 0).val ∧ (i 0).val < win1_9.index tLast (0 : Fin 2) * 1 + 1
      rw [e0]; omega
    | ⟨1, _⟩ =>
      show win1_9.index tLast (1 : Fin 2) * 2048 ≤ (i 1).val ∧ (i 1).val < win1_9.index tLast (1 : Fin 2) * 2048 + 2048
      rw [e1]; omega

theorem mem_sumsq (t : Fin cfg1.N) (i : S1x2048.Idx) :
    i ∈ ((cfg1.win 10).blk t).view.set ↔ ∀ a : Fin 2, win1_10.index t a * S1x2048.size a ≤ (i a).val
      ∧ (i a).val < win1_10.index t a * S1x2048.size a + S1x2048.size a := by
  show i ∈ ((View.whole main_v12_2).slice (win1_10.rect t)).set ↔ _
  rw [View.set_slice_whole, Rect.mem_set_unit]
  exact Iff.rfl

/-- The sixty-four blocks' column sums add up to the column sum over all rows. -/
theorem blocks_sumsq (c : Dev nD) (q : Fin 2048) :
    (∑ s ∈ Finset.range (63 + 1), if hs : s < cfg1.N then
        ∑ r : Fin 128, k1_pay1 (F := Ideal) (k1_pay6 (F := Ideal) (iblk1 V c 1 ⟨s, hs⟩) (iblk1 V c 2 ⟨s, hs⟩) (iblk1 V c 0 ⟨s, hs⟩) (iblk1 V c 3 ⟨s, hs⟩) (iblk1 V c 4 ⟨s, hs⟩)) (iblk1 V c 5 ⟨s, hs⟩) (iblk1 V c 6 ⟨s, hs⟩) (iblk1 V c 7 ⟨s, hs⟩) (ix2 r q)
            * k1_pay1 (F := Ideal) (k1_pay6 (F := Ideal) (iblk1 V c 1 ⟨s, hs⟩) (iblk1 V c 2 ⟨s, hs⟩) (iblk1 V c 0 ⟨s, hs⟩) (iblk1 V c 3 ⟨s, hs⟩) (iblk1 V c 4 ⟨s, hs⟩)) (iblk1 V c 5 ⟨s, hs⟩) (iblk1 V c 6 ⟨s, hs⟩) (iblk1 V c 7 ⟨s, hs⟩) (ix2 r q) else 0) = Cert.Mlp.colSumSq (pre2 V c) q := by
  have hN : cfg1.N = 64 := N_1
  refine Cert.LibBlockSum.sum_range_blocks_of_eq 64 128 8192 rfl (fun p => pre2 V c p q * pre2 V c p q) _ (fun k => ?_)
  rw [dif_pos (by rw [hN]; exact k.isLt)]
  refine Finset.sum_congr rfl fun j _ => ?_
  rw [block_eq V c ⟨k.val, by rw [hN]; exact k.isLt⟩ j q]
  rfl

/-- The one write-back of the row, after the last point. -/
theorem flushed_sumsq (c : Dev nD) (t : Fin cfg1.N) (hf : (cfg1.win 10).flush t = true) :
    (dat1 V c).flushed 10 t
      = ((cfg1.win 10).blk t).view.read (Elt Ideal) (fun i : S1x2048.Idx => Cert.Mlp.colSumSq (pre2 V c) (i 1)) := by
  have hN : cfg1.N = 64 := N_1
  have h63 : t.val = 63 := by have := (flush1_10 t).mp hf; have := t.isLt; omega
  obtain rfl : t = tLast := Fin.ext h63
  have e0 := (idx_facts tLast).2.2.2.2.2.2.2.2.2.2.1
  have e1 := (idx_facts tLast).2.2.2.2.2.2.2.2.2.2.2
  show (cfg1.win 10).cut (grid1.coords tLast) ((dat1 V c).after 10 tLast) = _
  rw [after1_10, outsAt_eq]
  funext j
  obtain ⟨u, q, rfl⟩ : ∃ (u : Fin 1) (q : Fin 2048), j = ix2 u q := ⟨j 0, j 1, eq_ix2 j⟩
  obtain rfl : u = 0 := Subsingleton.elim _ _
  rw [View.read_apply]
  have he : ((cfg1.win 10).blk tLast).view.emb (ix2 (0 : Fin 1) q) = ix2 (0 : Fin 1) q := funext fun a => Fin.ext (by
    match a with
    | ⟨0, _⟩ => show win1_10.index tLast (0 : Fin 2) * 1 + 1 * 0 = 0; rw [e0]
    | ⟨1, _⟩ => show win1_10.index tLast (1 : Fin 2) * 2048 + 1 * q.val = q.val; rw [e1]; omega)
  rw [he]
  exact (rowSq_apply V c q 63 _).trans (blocks_sumsq V c q)

/-- The row after the launch. -/
theorem final_sumsq (c : Dev nD) :
    (dat1 V c).arrAt 10 cfg1.N = fun i : S1x2048.Idx => Cert.Mlp.colSumSq (pre2 V c) (i 1) :=
  (dat1 V c).arrAt_eq_of_cover 10 _ (flushed_sumsq V c) fun i => by
    have hi0 : (i 0).val < 1 := (i 0).isLt
    have hi1 : (i 1).val < 2048 := (i 1).isLt
    refine ⟨tLast, (flush1_10 tLast).mpr rfl, ?_⟩
    have e0 := (idx_facts tLast).2.2.2.2.2.2.2.2.2.2.1
    have e1 := (idx_facts tLast).2.2.2.2.2.2.2.2.2.2.2
    rw [mem_sumsq]
    intro a
    match a with
    | ⟨0, _⟩ =>
      show win1_10.index tLast (0 : Fin 2) * 1 ≤ (i 0).val ∧ (i 0).val < win1_10.index tLast (0 : Fin 2) * 1 + 1
      rw [e0]; omega
    | ⟨1, _⟩ =>
      show win1_10.index tLast (1 : Fin 2) * 2048 ≤ (i 1).val ∧ (i 1).val < win1_10.index tLast (1 : Fin 2) * 2048 + 2048
      rw [e1]; omega

end Cert.KernelIdeal.Stage2

end
-- ==== Proof.Stage3Value.lean ====
/-
  The last launch, complete: what its result array holds afterwards, as one function of the arrays it finds.

  Every grid point takes a block of 512 rows of the pre-activation `o` and the four rows `Σo`, `Σo²`, `γ`, `β`, and
  stores `max(γ·(o − μ)·rsqrt(v + ε) + β, 0)` with `μ = Σo·c` and `v = max(Σo²·c − μ², 0)`, entry by entry. The
  sixteen blocks tile the 8192 rows, so the array ends holding that function at every entry.
-/
import proofs.«178448_j5592047419764_2_alg».proof.Proof.Gen.KernelIdeal.Frame
import proofs.«178448_j5592047419764_2_alg».proof.Proof.SpecRows
import Idealize.ShloMosaic.Lib.ValueIdx
import Idealize.ShloMosaic.Lib.ValueLayout
import Idealize.ShloMosaic.Lib.Pipeline.Value
import Idealize.ShloMosaic.PureOps.Ideal.Laws

noncomputable section

open Idealize.ShloMosaic Idealize.ShloMosaic.ValueIdx Idealize.ShloMosaic.TcCoe Idealize.SL.Sem
open Idealize.ShloMosaic.Pipeline (Dat)

namespace Cert.KernelIdeal.Stage3

open Cert.KernelIdeal Cert.KernelIdeal.Gen

/-- The normalised and rectified entry from the rows of sums `s`, `ss`, the scale and shift rows `g`, `be` and
    the matrix `o`. -/
def outOf {B : ℕ} (s ss g be : Fin 2048 → EReal) (o : Fin B → Fin 2048 → EReal) (p : Fin B) (q : Fin 2048) : EReal :=
  max (Cert.Mlp.normalize Cert.Mlp.litEps (Cert.Mlp.muOf Cert.Mlp.litRecip s)
        (Cert.Mlp.varOf Cert.Mlp.litRecip Cert.Mlp.litZero s ss) g be o p q) Cert.Mlp.litZero

/-- The stored block at `(r, q)`: the normalisation of the loaded block by the loaded rows, rectified. -/
theorem block_apply (s ss g be : Vec Ideal S1x2048 .f32) (o : Vec Ideal S512x2048 .f32) (r : Fin 512) (q : Fin 2048) :
    k2_pay1 (F := Ideal) s ss o g be (ix2 r q)
      = outOf (fun q => s (ix2 (0 : Fin 1) q)) (fun q => ss (ix2 (0 : Fin 1) q)) (fun q => g (ix2 (0 : Fin 1) q))
          (fun q => be (ix2 (0 : Fin 1) q)) (fun r q => o (ix2 r q)) r q := by
  unfold k2_pay1 outOf Cert.Mlp.normalize Cert.Mlp.varOf Cert.Mlp.muOf
  dsimp only
  simp only [shapeCast_self]
  simp only [maximumf, addf, mulf, subf, rsqrt, broadcast, broadcastTo_1b_ab_apply]
  rfl

/-- The entry alone: the same value, from the one matrix entry `x` it uses. -/
def entry (s ss g be : Fin 2048 → EReal) (x : EReal) (q : Fin 2048) : EReal :=
  outOf s ss g be (fun (_ : Fin 1) _ => x) 0 q

theorem outOf_eq_entry {B : ℕ} (s ss g be : Fin 2048 → EReal) (o : Fin B → Fin 2048 → EReal) (p : Fin B) (q : Fin 2048) :
    outOf s ss g be o p q = entry s ss g be (o p q) q := rfl

variable (V : (c : Dev nD) → (b : Ref sig .tc) → Buf (Elt Ideal) ((c : Thread nD τ).loc b))

theorem zero_offsets : (![0, 0] : Fin 2 → Nat) = fun _ => 0 := funext fun a => by fin_cases a <;> rfl

/-- The result array: at `(p, q)` the entry from the four rows and the pre-activation's entry `(p, q)`. -/
def G (c : Dev nD) : S8192x2048.Idx → Elt Ideal .f32 := fun i =>
  entry (fun q => (V c main_v12_1 : Vec Ideal S1x2048 .f32) (ix2 (0 : Fin 1) q))
    (fun q => (V c main_v12_2 : Vec Ideal S1x2048 .f32) (ix2 (0 : Fin 1) q))
    (fun q => (V c main_v9 : Vec Ideal S1x2048 .f32) (ix2 (0 : Fin 1) q))
    (fun q => (V c main_v10 : Vec Ideal S1x2048 .f32) (ix2 (0 : Fin 1) q))
    ((V c main_v12_0 : Vec Ideal S8192x2048 .f32) i) (i 1)

/-- The block index maps over the grid: the two row-blocked windows are at block `(t, 0)`, the four rows at `(0, 0)`. -/
theorem index_facts : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = t.val ∧ win2_5.index t (1 : Fin 2) = 0 :=
  (by decide +kernel : ∀ t : Fin grid2.N, _)

/-- A row window's block is the row itself. -/
theorem row1_read (c : Dev nD) (t : Fin cfg2.N) (q : Fin 2048) :
    (iblk2 V c 1 t : Vec Ideal S1x2048 .f32) (ix2 (0 : Fin 1) q) = (V c main_v12_1 : Vec Ideal S1x2048 .f32) (ix2 (0 : Fin 1) q) := by
  obtain ⟨-, -, e0, e1, -⟩ := index_facts t
  unfold iblk2
  rw [View.read_apply]
  show V c main_v12_1 _ = V c main_v12_1 _
  refine congrArg (V c main_v12_1) ?_
  funext a; apply Fin.ext
  match a with
  | ⟨0, _⟩ => show win2_1.index t (0 : Fin 2) * 1 + 1 * 0 = 0; omega
  | ⟨1, _⟩ => show win2_1.index t (1 : Fin 2) * 2048 + 1 * q.val = q.val; omega

theorem row2_read (c : Dev nD) (t : Fin cfg2.N) (q : Fin 2048) :
    (iblk2 V c 2 t : Vec Ideal S1x2048 .f32) (ix2 (0 : Fin 1) q) = (V c main_v12_2 : Vec Ideal S1x2048 .f32) (ix2 (0 : Fin 1) q) := by
  obtain ⟨-, -, -, -, e0, e1, -⟩ := index_facts t
  unfold iblk2
  rw [View.read_apply]
  show V c main_v12_2 _ = V c main_v12_2 _
  refine congrArg (V c main_v12_2) ?_
  funext a; apply Fin.ext
  match a with
  | ⟨0, _⟩ => show win2_2.index t (0 : Fin 2) * 1 + 1 * 0 = 0; omega
  | ⟨1, _⟩ => show win2_2.index t (1 : Fin 2) * 2048 + 1 * q.val = q.val; omega

theorem row3_read (c : Dev nD) (t : Fin cfg2.N) (q : Fin 2048) :
    (iblk2 V c 3 t : Vec Ideal S1x2048 .f32) (ix2 (0 : Fin 1) q) = (V c main_v9 : Vec Ideal S1x2048 .f32) (ix2 (0 : Fin 1) q) := by
  obtain ⟨-, -, -, -, -, -, e0, e1, -⟩ := index_facts t
  unfold iblk2
  rw [View.read_apply]
  show V c main_v9 _ = V c main_v9 _
  refine congrArg (V c main_v9) ?_
  funext a; apply Fin.ext
  match a with
  | ⟨0, _⟩ => show win2_3.index t (0 : Fin 2) * 1 + 1 * 0 = 0; omega
  | ⟨1, _⟩ => show win2_3.index t (1 : Fin 2) * 2048 + 1 * q.val = q.val; omega

theorem row4_read (c : Dev nD) (t : Fin cfg2.N) (q : Fin 2048) :
    (iblk2 V c 4 t : Vec Ideal S1x2048 .f32) (ix2 (0 : Fin 1) q) = (V c main_v10 : Vec Ideal S1x2048 .f32) (ix2 (0 : Fin 1) q) := by
  obtain ⟨-, -, -, -, -, -, -, -, e0, e1, -⟩ := index_facts t
  unfold iblk2
  rw [View.read_apply]
  show V c main_v10 _ = V c main_v10 _
  refine congrArg (V c main_v10) ?_
  funext a; apply Fin.ext
  match a with
  | ⟨0, _⟩ => show win2_4.index t (0 : Fin 2) * 1 + 1 * 0 = 0; omega
  | ⟨1, _⟩ => show win2_4.index t (1 : Fin 2) * 2048 + 1 * q.val = q.val; omega

/-- The pre-activation's block at point `t` sits in its array where the result's block sits in the result. -/
theorem block_read (c : Dev nD) (t : Fin cfg2.N) (r : Fin 512) (q : Fin 2048) :
    (iblk2 V c 0 t : Vec Ideal S512x2048 .f32) (ix2 r q)
      = (V c main_v12_0 : Vec Ideal S8192x2048 .f32) (((cfg2.win 5).blk t).view.emb (ix2 r q)) := by
  obtain ⟨e00, e01, -, -, -, -, -, -, -, -, e50, e51⟩ := index_facts t
  unfold iblk2
  rw [View.read_apply]
  show V c main_v12_0 _ = V c main_v12_0 _
  refine congrArg (V c main_v12_0) ?_
  funext a; apply Fin.ext
  match a with
  | ⟨0, _⟩ => show win2_0.index t (0 : Fin 2) * 512 + 1 * r.val = win2_5.index t (0 : Fin 2) * 512 + 1 * r.val; omega
  | ⟨1, _⟩ => show win2_0.index t (1 : Fin 2) * 2048 + 1 * q.val = win2_5.index t (1 : Fin 2) * 2048 + 1 * q.val; omega

/-- The column of an entry of the result's block is the column inside the block. -/
theorem block_col (t : Fin cfg2.N) (r : Fin 512) (q : Fin 2048) :
    ((((cfg2.win 5).blk t).view.emb (ix2 r q) : S8192x2048.Idx) 1 : Fin 2048) = q := by
  obtain ⟨-, -, -, -, -, -, -, -, -, -, -, e51⟩ := index_facts t
  apply Fin.ext
  show win2_5.index t (1 : Fin 2) * 2048 + 1 * q.val = q.val
  omega

/-- What point `t` writes back is block `t` of `G`. -/
theorem flushed_eq (c : Dev nD) (t : Fin cfg2.N) :
    (dat2 V c).flushed 5 t = ((cfg2.win 5).blk t).view.read (Elt Ideal) (G V c) := by
  show (cfg2.win 5).cut (grid2.coords t) ((dat2 V c).after 5 t) = _
  rw [after2_5]
  unfold out2_5
  rw [View.canon_unit_zero zero_offsets]
  simp only [View.ld_unit_zero (S := S1x2048) zero_offsets, View.ld_unit_zero (S := S512x2048) zero_offsets]
  funext j
  obtain ⟨r, q, rfl⟩ : ∃ (r : Fin 512) (q : Fin 2048), j = ix2 r q := ⟨j 0, j 1, eq_ix2 j⟩
  refine (block_apply _ _ _ _ _ r q).trans ?_
  rw [outOf_eq_entry, funext (row1_read V c t), funext (row2_read V c t), funext (row3_read V c t),
    funext (row4_read V c t), block_read V c t r q]
  exact congrArg (entry _ _ _ _ _) (block_col t r q).symm

/-- An index of the array is in point `t`'s block iff each coordinate is in the block's range on its axis. -/
theorem mem_blk (t : Fin cfg2.N) (i : S8192x2048.Idx) :
    i ∈ ((cfg2.win 5).blk t).view.set ↔ ∀ a : Fin 2, win2_5.index t a * S512x2048.size a ≤ (i a).val ∧ (i a).val < win2_5.index t a * S512x2048.size a + S512x2048.size a := by
  show i ∈ ((View.whole main_v13).slice (win2_5.rect t)).set ↔ _
  rw [View.set_slice_whole, Rect.mem_set_unit]
  exact Iff.rfl

/-- Row `p` is in the block of point `p / 512`. -/
theorem cover (i : S8192x2048.Idx) :
    ∃ t : Fin cfg2.N, (cfg2.win 5).flush t = true ∧ i ∈ ((cfg2.win 5).blk t).view.set := by
  have hi0 : (i 0).val < 8192 := (i 0).isLt
  have hi1 : (i 1).val < 2048 := (i 1).isLt
  have hN : cfg2.N = 16 := N_2
  have hlt : (i 0).val / 512 < cfg2.N := by rw [hN]; omega
  obtain ⟨-, -, -, -, -, -, -, -, -, -, e50, e51⟩ := index_facts ⟨(i 0).val / 512, hlt⟩
  refine ⟨⟨(i 0).val / 512, hlt⟩, flush2_5 _, ?_⟩
  rw [mem_blk]
  intro a
  match a with
  | ⟨0, _⟩ =>
    show win2_5.index ⟨(i 0).val / 512, hlt⟩ (0 : Fin 2) * 512 ≤ (i 0).val
      ∧ (i 0).val < win2_5.index ⟨(i 0).val / 512, hlt⟩ (0 : Fin 2) * 512 + 512
    rw [e50]
    show (i 0).val / 512 * 512 ≤ (i 0).val ∧ (i 0).val < (i 0).val / 512 * 512 + 512
    omega
  | ⟨1, _⟩ =>
    show win2_5.index ⟨(i 0).val / 512, hlt⟩ (1 : Fin 2) * 2048 ≤ (i 1).val
      ∧ (i 1).val < win2_5.index ⟨(i 0).val / 512, hlt⟩ (1 : Fin 2) * 2048 + 2048
    rw [e51]
    omega

/-- The result array after the launch is `G`. -/
theorem final_array (c : Dev nD) : (dat2 V c).arrAt 5 cfg2.N = G V c :=
  (dat2 V c).arrAt_eq_of_cover 5 (G V c) (fun t _ => flushed_eq V c t) cover

/-- The result array after the launch, entry by entry. -/
theorem final (c : Dev nD) (p : Fin 8192) (q : Fin 2048) :
    (dat2 V c).arrAt 5 cfg2.N (ix2 p q)
      = max (Cert.Mlp.normalize Cert.Mlp.litEps
              (Cert.Mlp.muOf Cert.Mlp.litRecip (fun q => V c main_v12_1 (ix2 (0 : Fin 1) q)))
              (Cert.Mlp.varOf Cert.Mlp.litRecip Cert.Mlp.litZero (fun q => V c main_v12_1 (ix2 (0 : Fin 1) q)) (fun q => V c main_v12_2 (ix2 (0 : Fin 1) q)))
              (fun q => V c main_v9 (ix2 (0 : Fin 1) q)) (fun q => V c main_v10 (ix2 (0 : Fin 1) q))
              (fun p q => V c main_v12_0 (ix2 p q)) p q) Cert.Mlp.litZero := by
  rw [final_array]
  rfl

end Cert.KernelIdeal.Stage3

end
-- ==== Proof.KernelValue.lean ====
/-
  The idealized kernel's result as one function of its eleven arguments.

  The host stretch only changes formats (the identity on extended reals) and views each vector as a one-row matrix. The
  first launch leaves the first layer's pre-activation and its column sums and sums of squares; the second launch reads
  those, normalises, rectifies, masks and leaves the second layer's pre-activation with its column statistics; the third
  launch normalises and rectifies. Chaining the three through the buffer contents at each boundary, the result at
  `(p, q)` is the network with the statistics taken as products with the reciprocal of the batch size.
-/
import proofs.«178448_j5592047419764_2_alg».proof.Proof.KernelChain
import proofs.«178448_j5592047419764_2_alg».proof.Proof.Stage1Array
import proofs.«178448_j5592047419764_2_alg».proof.Proof.Stage2Array
import proofs.«178448_j5592047419764_2_alg».proof.Proof.Stage3Value
import proofs.«178448_j5592047419764_2_alg».proof.Proof.SpecRows

noncomputable section

open Idealize.ShloMosaic Idealize.ShloMosaic.TcCoe Idealize.SL.Sem Idealize.ShloMosaic.ValueIdx

namespace Cert.KernelIdeal.Result

open Cert.KernelIdeal Cert.KernelIdeal.Gen

variable (m : (ℓ : Loc nD τ sig) → Buf (Elt Ideal) ℓ) (ρ : Dev nD → PrngReg) (c : Dev nD)

/-- The arguments as functions of coordinates. -/
abbrev aX : Fin 8192 → Fin 312 → EReal := fun p k => m ((c : Thread nD τ).loc main_arg0) (ix2 p k)
abbrev aN : Fin 8192 → Fin 312 → EReal := fun p k => m ((c : Thread nD τ).loc main_arg1) (ix2 p k)
abbrev aW1 : Fin 624 → Fin 4096 → EReal := fun k q => m ((c : Thread nD τ).loc main_arg2) (ix2 k q)
abbrev aB1 : Fin 4096 → EReal := fun q => m ((c : Thread nD τ).loc main_arg3) (ix1 q)
abbrev aG1 : Fin 4096 → EReal := fun q => m ((c : Thread nD τ).loc main_arg4) (ix1 q)
abbrev aBe1 : Fin 4096 → EReal := fun q => m ((c : Thread nD τ).loc main_arg5) (ix1 q)
abbrev aW2 : Fin 4096 → Fin 2048 → EReal := fun k q => m ((c : Thread nD τ).loc main_arg6) (ix2 k q)
abbrev aB2 : Fin 2048 → EReal := fun q => m ((c : Thread nD τ).loc main_arg7) (ix1 q)
abbrev aG2 : Fin 2048 → EReal := fun q => m ((c : Thread nD τ).loc main_arg8) (ix1 q)
abbrev aBe2 : Fin 2048 → EReal := fun q => m ((c : Thread nD τ).loc main_arg9) (ix1 q)
abbrev aMask : Fin 8192 → Fin 4096 → EReal := fun p k => m ((c : Thread nD τ).loc main_arg10) (ix2 p k)

/-- The first layer's pre-activation, of the arguments. -/
abbrev layer1 : Fin 8192 → Fin 4096 → EReal :=
  Cert.Mlp.affine (Cert.Mlp.joined (rfl : 312 + 312 = 624) (aX m c) (aN m c)) (aW1 m c) (aB1 m c)

/-- The normalised, rectified and masked first layer, of the arguments. -/
abbrev hidden : Fin 8192 → Fin 4096 → EReal := fun p k =>
  Cert.Mlp.leaky Cert.Mlp.litZero Cert.Mlp.litSlope
    (Cert.Mlp.normalize Cert.Mlp.litEps (Cert.Mlp.muOf Cert.Mlp.litRecip (Cert.Mlp.colSum (layer1 m c)))
      (Cert.Mlp.varOf Cert.Mlp.litRecip Cert.Mlp.litZero (Cert.Mlp.colSum (layer1 m c)) (Cert.Mlp.colSumSq (layer1 m c)))
      (aG1 m c) (aBe1 m c) (layer1 m c) p k) * aMask m c p k

/-- The second layer's pre-activation, of the arguments. -/
abbrev layer2 : Fin 8192 → Fin 2048 → EReal := Cert.Mlp.affine (hidden m c) (aW2 m c) (aB2 m c)

/-- What the first launch computes from is the arguments. -/
theorem pre_eq : Stage1.pre (V1 m ρ) c = layer1 m c := by
  unfold Stage1.pre
  rw [show Stage1.inX (V1 m ρ) c = aX m c from funext fun p => funext fun k => Chain.host_x m ρ c p k,
    show Stage1.inN (V1 m ρ) c = aN m c from funext fun p => funext fun k => Chain.host_n m ρ c p k,
    show Stage1.inW (V1 m ρ) c = aW1 m c from funext fun k => funext fun q => Chain.host_w1 m ρ c k q,
    show Stage1.inB (V1 m ρ) c = aB1 m c from funext fun q => Chain.host_b1 m ρ c q]

/-- What the second launch computes is the second layer of the arguments. -/
theorem pre2_eq : Stage2.pre2 (V2 m ρ) c = layer2 m c := by
  have hH : Stage2.inH (V2 m ρ) c = layer1 m c := funext fun p => funext fun k =>
    ((congrFun (Chain.after0_block m ρ c) (ix2 p k)).trans
      (congrFun (Stage1.final_block (V1 m ρ) c) (ix2 p k))).trans (congrFun (congrFun (pre_eq m ρ c) p) k)
  have hS : Stage2.inS (V2 m ρ) c = Cert.Mlp.colSum (layer1 m c) := funext fun k =>
    ((congrFun (Chain.after0_sum m ρ c) (ix2 (0 : Fin 1) k)).trans
      (congrFun (Stage1.final_sum (V1 m ρ) c) (ix2 (0 : Fin 1) k))).trans
      (congrFun (congrArg Cert.Mlp.colSum (pre_eq m ρ c)) k)
  have hSS : Stage2.inSS (V2 m ρ) c = Cert.Mlp.colSumSq (layer1 m c) := funext fun k =>
    ((congrFun (Chain.after0_sumsq m ρ c) (ix2 (0 : Fin 1) k)).trans
      (congrFun (Stage1.final_sumsq (V1 m ρ) c) (ix2 (0 : Fin 1) k))).trans
      (congrFun (congrArg Cert.Mlp.colSumSq (pre_eq m ρ c)) k)
  have hG : Stage2.inG (V2 m ρ) c = aG1 m c := funext fun k =>
    (congrFun (Chain.keep0_v6 m ρ c) (ix2 (0 : Fin 1) k)).trans (Chain.host_g1 m ρ c k)
  have hBe : Stage2.inBe (V2 m ρ) c = aBe1 m c := funext fun k =>
    (congrFun (Chain.keep0_v7 m ρ c) (ix2 (0 : Fin 1) k)).trans (Chain.host_be1 m ρ c k)
  have hM : Stage2.inM (V2 m ρ) c = aMask m c := funext fun p => funext fun k =>
    (congrFun (Chain.keep0_v4 m ρ c) (ix2 p k)).trans (Chain.host_mask m ρ c p k)
  have hW : Stage2.inW (V2 m ρ) c = aW2 m c := funext fun k => funext fun q =>
    (congrFun (Chain.keep0_v3 m ρ c) (ix2 k q)).trans (Chain.host_w2 m ρ c k q)
  have hB : Stage2.inB (V2 m ρ) c = aB2 m c := funext fun q =>
    (congrFun (Chain.keep0_v8 m ρ c) (ix2 (0 : Fin 1) q)).trans (Chain.host_b2 m ρ c q)
  unfold Stage2.pre2 Stage2.act
  rw [hH, hS, hSS, hG, hBe, hM, hW, hB]

/-- The result buffer after the run, at `(p, q)`: the network of the arguments, its column statistics taken as sums
    times the reciprocal of the batch size. -/
theorem kernel_value (p : Fin 8192) (q : Fin 2048) :
    W4 m ρ c (Proc.devRef .tc main_v13) (ix2 p q)
      = Cert.Mlp.netMul Cert.Mlp.litZero Cert.Mlp.litRecip Cert.Mlp.litEps Cert.Mlp.litSlope (rfl : 312 + 312 = 624)
          (aX m c) (aN m c) (aW1 m c) (aB1 m c) (aG1 m c) (aBe1 m c) (aW2 m c) (aB2 m c) (aG2 m c) (aBe2 m c)
          (aMask m c) p q := by
  have hO : (fun (p : Fin 8192) (q : Fin 2048) => V3 m ρ c main_v12_0 (ix2 p q)) = layer2 m c :=
    funext fun p => funext fun q =>
      ((congrFun (Chain.after1_block m ρ c) (ix2 p q)).trans
        (congrFun (Stage2.final_block (V2 m ρ) c) (ix2 p q))).trans (congrFun (congrFun (pre2_eq m ρ c) p) q)
  have hS : (fun (q : Fin 2048) => V3 m ρ c main_v12_1 (ix2 (0 : Fin 1) q)) = Cert.Mlp.colSum (layer2 m c) :=
    funext fun q =>
      ((congrFun (Chain.after1_sum m ρ c) (ix2 (0 : Fin 1) q)).trans
        (congrFun (Stage2.final_sum (V2 m ρ) c) (ix2 (0 : Fin 1) q))).trans
        (congrFun (congrArg Cert.Mlp.colSum (pre2_eq m ρ c)) q)
  have hSS : (fun (q : Fin 2048) => V3 m ρ c main_v12_2 (ix2 (0 : Fin 1) q)) = Cert.Mlp.colSumSq (layer2 m c) :=
    funext fun q =>
      ((congrFun (Chain.after1_sumsq m ρ c) (ix2 (0 : Fin 1) q)).trans
        (congrFun (Stage2.final_sumsq (V2 m ρ) c) (ix2 (0 : Fin 1) q))).trans
        (congrFun (congrArg Cert.Mlp.colSumSq (pre2_eq m ρ c)) q)
  have hG : (fun (q : Fin 2048) => V3 m ρ c main_v9 (ix2 (0 : Fin 1) q)) = aG2 m c := funext fun q =>
    ((congrFun (Chain.keep1_v9 m ρ c) (ix2 (0 : Fin 1) q)).trans
      (congrFun (Chain.keep0_v9 m ρ c) (ix2 (0 : Fin 1) q))).trans (Chain.host_g2 m ρ c q)
  have hBe : (fun (q : Fin 2048) => V3 m ρ c main_v10 (ix2 (0 : Fin 1) q)) = aBe2 m c := funext fun q =>
    ((congrFun (Chain.keep1_v10 m ρ c) (ix2 (0 : Fin 1) q)).trans
      (congrFun (Chain.keep0_v10 m ρ c) (ix2 (0 : Fin 1) q))).trans (Chain.host_be2 m ρ c q)
  refine (congrFun (Chain.result m ρ c) (ix2 p q)).trans ?_
  refine (Stage3.final (V3 m ρ) c p q).trans ?_
  rw [hS, hSS, hG, hBe, hO]
  rfl

end Cert.KernelIdeal.Result

end
-- ==== Proof.RefStages.lean ====
/-
  The reference program's result, stage by stage, at the extended reals.

  The reference joins its two input blocks, applies the first affine layer, normalises every column over the batch
  (mean and variance as quotients by the batch size), applies the leaky rectifier and the mask, applies the second
  affine layer, normalises again and clamps below at zero. Each lemma below reads one of these stages at an index and
  identifies it with the corresponding function of the specification; the last one composes them.
-/
import proofs.«178448_j5592047419764_2_alg».proof.Proof.Gen.ReferenceIdeal.Read
import proofs.«178448_j5592047419764_2_alg».proof.Proof.Spec
import Idealize.ShloMosaic.Lib.ValueIdx
import Idealize.ShloMosaic.Lib.Pipeline.Value

noncomputable section

namespace Cert.RefSide

open Cert.ReferenceIdeal Cert.ReferenceIdeal.Gen Cert.ReferenceIdeal.Read Idealize.ShloMosaic Idealize.ShloMosaic.ValueIdx

/-- The joined input at row `p`, column `k`: the first block's entry for `k < 312`, the second block's entry at
    `k - 312` otherwise. -/
theorem joined_eq (x0 x1 : (⟨S8192x312, .f32⟩ : BufTy).Contents (Elt Ideal)) (p : Fin 8192) (k : Fin 624) :
    val_main_v0 (F := Ideal) x0 x1 (ix2 p k)
      = Cert.Mlp.joined (rfl : 312 + 312 = 624) (fun p k => x0 (ix2 p k)) (fun p k => x1 (ix2 p k)) p k := by
  unfold Cert.Mlp.joined val_main_v0
  split_ifs with h
  · exact concatenate_pair_apply_left 1 x0 x1 _ (ix2 p k) rfl (ix2 p ⟨k.val, h⟩)
      (fun b => by match b with | ⟨0, _⟩ => rfl | ⟨1, _⟩ => rfl)
  · exact concatenate_pair_apply_right 1 x0 x1 _ (ix2 p k) rfl rfl (ix2 p ⟨k.val - 312, by omega⟩)
      (fun b hb => by
        match b with
        | ⟨0, _⟩ => rfl
        | ⟨1, _⟩ => exact absurd rfl hb)
      (by show k.val - 312 + 312 = k.val; omega)

/-- The first affine layer at row `p`, column `q`. -/
theorem affine1_eq (x0 x1 : (⟨S8192x312, .f32⟩ : BufTy).Contents (Elt Ideal)) (x2 : (⟨S624x4096, .f32⟩ : BufTy).Contents (Elt Ideal)) (x3 : (⟨S4096, .f32⟩ : BufTy).Contents (Elt Ideal)) (p : Fin 8192) (q : Fin 4096) :
    val_main_v4 (F := Ideal) x0 x1 x2 x3 (ix2 p q)
      = Cert.Mlp.affine (Cert.Mlp.joined (rfl : 312 + 312 = 624) (fun p k => x0 (ix2 p k)) (fun p k => x1 (ix2 p k)))
          (fun k q => x2 (ix2 k q)) (fun q => x3 (ix1 q)) p q := by
  have el : ∀ k : Fin 624, lidx_main_v1 (ix2 p q) k = ix2 p k := fun k =>
    funext fun a => Fin.ext (by match a with | ⟨0, _⟩ => rfl | ⟨1, _⟩ => rfl)
  have er : ∀ k : Fin 624, ridx_main_v1 (ix2 p q) k = ix2 k q := fun k =>
    funext fun a => Fin.ext (by match a with | ⟨0, _⟩ => rfl | ⟨1, _⟩ => rfl)
  have eb : idx_main_v2 (idx_main_v3 (ix2 p q)) = ix1 q :=
    funext fun a => Fin.ext (by match a with | ⟨0, _⟩ => rfl)
  rw [val_main_v4_apply, val_main_v1_apply, val_main_v3_apply, val_main_v2_apply, eb]
  simp only [el, er, joined_eq, Ideal.addf_def]
  rfl

/-- The first layer's column mean: the column's sum, started from the zero word, over the batch size. -/
theorem mean1_eq (x0 x1 : (⟨S8192x312, .f32⟩ : BufTy).Contents (Elt Ideal)) (x2 : (⟨S624x4096, .f32⟩ : BufTy).Contents (Elt Ideal)) (x3 : (⟨S4096, .f32⟩ : BufTy).Contents (Elt Ideal)) (q : Fin 4096) :
    val_main_v7 (F := Ideal) x0 x1 x2 x3 (ix1 q)
      = Cert.Mlp.meanDiv (Ideal.ofBits .f32 0x00000000#32) (Ideal.ofBits .f32 0x46000000#32) (fun p q => val_main_v4 (F := Ideal) x0 x1 x2 x3 (ix2 p q)) q := by
  have e : ∀ k : Fin 8192, idx_main_v5 (ix1 q) k = ix2 k q := fun k => funext fun a => Fin.ext (by match a with | ⟨0, _⟩ => rfl | ⟨1, _⟩ => rfl)
  rw [val_main_v7_apply, val_main_v5_apply, val_main_v6_apply, val_main_cst_apply, val_main_cst_0_apply]
  simp only [e, Ideal.hostDivf_def, Ideal.ofBits_def]
  rfl

/-- The first layer's column variance: the summed squared deviations from the mean over the batch size. -/
theorem var1_eq (x0 x1 : (⟨S8192x312, .f32⟩ : BufTy).Contents (Elt Ideal)) (x2 : (⟨S624x4096, .f32⟩ : BufTy).Contents (Elt Ideal)) (x3 : (⟨S4096, .f32⟩ : BufTy).Contents (Elt Ideal)) (q : Fin 4096) :
    val_main_v14 (F := Ideal) x0 x1 x2 x3 (ix1 q)
      = Cert.Mlp.varDiv (Ideal.ofBits .f32 0x00000000#32) (Ideal.ofBits .f32 0x46000000#32) (fun p q => val_main_v4 (F := Ideal) x0 x1 x2 x3 (ix2 p q)) q := by
  have e : ∀ k : Fin 8192, idx_main_v12 (ix1 q) k = ix2 k q := fun k => funext fun a => Fin.ext (by match a with | ⟨0, _⟩ => rfl | ⟨1, _⟩ => rfl)
  have em : ∀ k : Fin 8192, idx_main_v8 (idx_main_v9 (ix2 k q)) = ix1 q := fun k => funext fun a => Fin.ext (by match a with | ⟨0, _⟩ => rfl)
  rw [val_main_v14_apply, val_main_v12_apply, val_main_v13_apply, val_main_cst_1_apply, val_main_cst_2_apply]
  simp only [e, val_main_v11_apply, val_main_v10_apply, val_main_v9_apply, val_main_v8_apply, em, mean1_eq,
    Ideal.hostDivf_def, Ideal.ofBits_def, Ideal.mulf_def, Ideal.subf_def]
  rfl

/-- The first normalisation at row `p`, column `q`: scale times deviation times the reciprocal root of the
    stabilised variance, plus shift. -/
theorem norm1_eq (x0 x1 : (⟨S8192x312, .f32⟩ : BufTy).Contents (Elt Ideal)) (x2 : (⟨S624x4096, .f32⟩ : BufTy).Contents (Elt Ideal)) (x3 x4 x5 : (⟨S4096, .f32⟩ : BufTy).Contents (Elt Ideal)) (p : Fin 8192) (q : Fin 4096) :
    val_main_v29 (F := Ideal) x0 x1 x2 x3 x4 x5 (ix2 p q)
      = Cert.Mlp.normalize (Ideal.ofBits .f32 0x3727C5AC#32)
          (Cert.Mlp.meanDiv (Ideal.ofBits .f32 0x00000000#32) (Ideal.ofBits .f32 0x46000000#32) (fun p q => val_main_v4 (F := Ideal) x0 x1 x2 x3 (ix2 p q)))
          (Cert.Mlp.varDiv (Ideal.ofBits .f32 0x00000000#32) (Ideal.ofBits .f32 0x46000000#32) (fun p q => val_main_v4 (F := Ideal) x0 x1 x2 x3 (ix2 p q)))
          (fun q => x4 (ix1 q)) (fun q => x5 (ix1 q)) (fun p q => val_main_v4 (F := Ideal) x0 x1 x2 x3 (ix2 p q)) p q := by
  have e1 : idx_main_v18 (idx_main_v19 (ix2 p q)) = ix1 q := funext fun a => Fin.ext (by match a with | ⟨0, _⟩ => rfl)
  have e2 : idx_main_v15 (idx_main_v16 (ix2 p q)) = ix1 q := funext fun a => Fin.ext (by match a with | ⟨0, _⟩ => rfl)
  have e3 : idx_main_v24 (idx_main_v25 (ix2 p q)) = ix1 q := funext fun a => Fin.ext (by match a with | ⟨0, _⟩ => rfl)
  have e4 : idx_main_v27 (idx_main_v28 (ix2 p q)) = ix1 q := funext fun a => Fin.ext (by match a with | ⟨0, _⟩ => rfl)
  rw [val_main_v29_apply, val_main_v26_apply, val_main_v28_apply, val_main_v27_apply, val_main_v20_apply,
    val_main_v25_apply, val_main_v24_apply, val_main_v23_apply, val_main_v22_apply, val_main_v21_apply,
    val_main_cst_3_apply, val_main_v19_apply, val_main_v18_apply, val_main_v17_apply, val_main_v16_apply,
    val_main_v15_apply, e1, e2, e3, e4, mean1_eq, var1_eq]
  simp only [Ideal.addf_def, Ideal.mulf_def, Ideal.subf_def, Ideal.hostUnary_rsqrt_def, Ideal.ofBits_def]
  rfl

/-- The leaky rectifier of the first normalisation, times the mask. -/
theorem act_eq (x0 x1 : (⟨S8192x312, .f32⟩ : BufTy).Contents (Elt Ideal)) (x2 : (⟨S624x4096, .f32⟩ : BufTy).Contents (Elt Ideal)) (x3 x4 x5 : (⟨S4096, .f32⟩ : BufTy).Contents (Elt Ideal)) (x10 : (⟨S8192x4096, .f32⟩ : BufTy).Contents (Elt Ideal)) (p : Fin 8192) (q : Fin 4096) :
    val_main_v35 (F := Ideal) x0 x1 x2 x3 x4 x5 x10 (ix2 p q)
      = Cert.Mlp.leaky (Ideal.ofBits .f32 0x00000000#32) (Ideal.ofBits .f32 0x3C23D70A#32) (val_main_v29 (F := Ideal) x0 x1 x2 x3 x4 x5 (ix2 p q)) * x10 (ix2 p q) := by
  rw [val_main_v35_apply, val_main_v34_apply, val_main_v31_apply, val_main_v33_apply, val_main_v30_apply,
    val_main_v32_apply, val_main_cst_4_apply, val_main_cst_5_apply]
  simp only [Ideal.mulf_def, Ideal.ofBits_def]
  rfl

/-- The second affine layer at row `p`, column `q`, over the masked activations. -/
theorem affine2_eq (x0 x1 : (⟨S8192x312, .f32⟩ : BufTy).Contents (Elt Ideal)) (x2 : (⟨S624x4096, .f32⟩ : BufTy).Contents (Elt Ideal)) (x3 x4 x5 : (⟨S4096, .f32⟩ : BufTy).Contents (Elt Ideal)) (x6 : (⟨S4096x2048, .f32⟩ : BufTy).Contents (Elt Ideal)) (x7 : (⟨S2048, .f32⟩ : BufTy).Contents (Elt Ideal)) (x10 : (⟨S8192x4096, .f32⟩ : BufTy).Contents (Elt Ideal)) (p : Fin 8192) (q : Fin 2048) :
    val_main_v39 (F := Ideal) x0 x1 x2 x3 x4 x5 x6 x7 x10 (ix2 p q)
      = Cert.Mlp.affine (fun p k => val_main_v35 (F := Ideal) x0 x1 x2 x3 x4 x5 x10 (ix2 p k))
          (fun k q => x6 (ix2 k q)) (fun q => x7 (ix1 q)) p q := by
  have el : ∀ k : Fin 4096, lidx_main_v36 (ix2 p q) k = ix2 p k := fun k => funext fun a => Fin.ext (by match a with | ⟨0, _⟩ => rfl | ⟨1, _⟩ => rfl)
  have er : ∀ k : Fin 4096, ridx_main_v36 (ix2 p q) k = ix2 k q := fun k => funext fun a => Fin.ext (by match a with | ⟨0, _⟩ => rfl | ⟨1, _⟩ => rfl)
  have eb : idx_main_v37 (idx_main_v38 (ix2 p q)) = ix1 q := funext fun a => Fin.ext (by match a with | ⟨0, _⟩ => rfl)
  rw [val_main_v39_apply, val_main_v36_apply, val_main_v38_apply, val_main_v37_apply, eb]
  simp only [el, er, Ideal.addf_def]
  rfl

/-- The second layer's column mean. -/
theorem mean2_eq (x0 x1 : (⟨S8192x312, .f32⟩ : BufTy).Contents (Elt Ideal)) (x2 : (⟨S624x4096, .f32⟩ : BufTy).Contents (Elt Ideal)) (x3 x4 x5 : (⟨S4096, .f32⟩ : BufTy).Contents (Elt Ideal)) (x6 : (⟨S4096x2048, .f32⟩ : BufTy).Contents (Elt Ideal)) (x7 : (⟨S2048, .f32⟩ : BufTy).Contents (Elt Ideal)) (x10 : (⟨S8192x4096, .f32⟩ : BufTy).Contents (Elt Ideal)) (q : Fin 2048) :
    val_main_v42 (F := Ideal) x0 x1 x2 x3 x4 x5 x6 x7 x10 (ix1 q)
      = Cert.Mlp.meanDiv (Ideal.ofBits .f32 0x00000000#32) (Ideal.ofBits .f32 0x46000000#32) (fun p q => val_main_v39 (F := Ideal) x0 x1 x2 x3 x4 x5 x6 x7 x10 (ix2 p q)) q := by
  have e : ∀ k : Fin 8192, idx_main_v40 (ix1 q) k = ix2 k q := fun k => funext fun a => Fin.ext (by match a with | ⟨0, _⟩ => rfl | ⟨1, _⟩ => rfl)
  rw [val_main_v42_apply, val_main_v40_apply, val_main_v41_apply, val_main_cst_6_apply, val_main_cst_7_apply]
  simp only [e, Ideal.hostDivf_def, Ideal.ofBits_def]
  rfl

/-- The second layer's column variance. -/
theorem var2_eq (x0 x1 : (⟨S8192x312, .f32⟩ : BufTy).Contents (Elt Ideal)) (x2 : (⟨S624x4096, .f32⟩ : BufTy).Contents (Elt Ideal)) (x3 x4 x5 : (⟨S4096, .f32⟩ : BufTy).Contents (Elt Ideal)) (x6 : (⟨S4096x2048, .f32⟩ : BufTy).Contents (Elt Ideal)) (x7 : (⟨S2048, .f32⟩ : BufTy).Contents (Elt Ideal)) (x10 : (⟨S8192x4096, .f32⟩ : BufTy).Contents (Elt Ideal)) (q : Fin 2048) :
    val_main_v49 (F := Ideal) x0 x1 x2 x3 x4 x5 x6 x7 x10 (ix1 q)
      = Cert.Mlp.varDiv (Ideal.ofBits .f32 0x00000000#32) (Ideal.ofBits .f32 0x46000000#32) (fun p q => val_main_v39 (F := Ideal) x0 x1 x2 x3 x4 x5 x6 x7 x10 (ix2 p q)) q := by
  have e : ∀ k : Fin 8192, idx_main_v47 (ix1 q) k = ix2 k q := fun k => funext fun a => Fin.ext (by match a with | ⟨0, _⟩ => rfl | ⟨1, _⟩ => rfl)
  have em : ∀ k : Fin 8192, idx_main_v43 (idx_main_v44 (ix2 k q)) = ix1 q := fun k => funext fun a => Fin.ext (by match a with | ⟨0, _⟩ => rfl)
  rw [val_main_v49_apply, val_main_v47_apply, val_main_v48_apply, val_main_cst_8_apply, val_main_cst_9_apply]
  simp only [e, val_main_v46_apply, val_main_v45_apply, val_main_v44_apply, val_main_v43_apply, em, mean2_eq,
    Ideal.hostDivf_def, Ideal.ofBits_def, Ideal.mulf_def, Ideal.subf_def]
  rfl

/-- The second normalisation at row `p`, column `q`. -/
theorem norm2_eq (x0 x1 : (⟨S8192x312, .f32⟩ : BufTy).Contents (Elt Ideal)) (x2 : (⟨S624x4096, .f32⟩ : BufTy).Contents (Elt Ideal)) (x3 x4 x5 : (⟨S4096, .f32⟩ : BufTy).Contents (Elt Ideal)) (x6 : (⟨S4096x2048, .f32⟩ : BufTy).Contents (Elt Ideal)) (x7 x8 x9 : (⟨S2048, .f32⟩ : BufTy).Contents (Elt Ideal)) (x10 : (⟨S8192x4096, .f32⟩ : BufTy).Contents (Elt Ideal)) (p : Fin 8192) (q : Fin 2048) :
    val_main_v64 (F := Ideal) x0 x1 x2 x3 x4 x5 x6 x7 x8 x9 x10 (ix2 p q)
      = Cert.Mlp.normalize (Ideal.ofBits .f32 0x3727C5AC#32)
          (Cert.Mlp.meanDiv (Ideal.ofBits .f32 0x00000000#32) (Ideal.ofBits .f32 0x46000000#32) (fun p q => val_main_v39 (F := Ideal) x0 x1 x2 x3 x4 x5 x6 x7 x10 (ix2 p q)))
          (Cert.Mlp.varDiv (Ideal.ofBits .f32 0x00000000#32) (Ideal.ofBits .f32 0x46000000#32) (fun p q => val_main_v39 (F := Ideal) x0 x1 x2 x3 x4 x5 x6 x7 x10 (ix2 p q)))
          (fun q => x8 (ix1 q)) (fun q => x9 (ix1 q)) (fun p q => val_main_v39 (F := Ideal) x0 x1 x2 x3 x4 x5 x6 x7 x10 (ix2 p q)) p q := by
  have e1 : idx_main_v53 (idx_main_v54 (ix2 p q)) = ix1 q := funext fun a => Fin.ext (by match a with | ⟨0, _⟩ => rfl)
  have e2 : idx_main_v50 (idx_main_v51 (ix2 p q)) = ix1 q := funext fun a => Fin.ext (by match a with | ⟨0, _⟩ => rfl)
  have e3 : idx_main_v59 (idx_main_v60 (ix2 p q)) = ix1 q := funext fun a => Fin.ext (by match a with | ⟨0, _⟩ => rfl)
  have e4 : idx_main_v62 (idx_main_v63 (ix2 p q)) = ix1 q := funext fun a => Fin.ext (by match a with | ⟨0, _⟩ => rfl)
  rw [val_main_v64_apply, val_main_v61_apply, val_main_v63_apply, val_main_v62_apply, val_main_v55_apply,
    val_main_v60_apply, val_main_v59_apply, val_main_v58_apply, val_main_v57_apply, val_main_v56_apply,
    val_main_cst_10_apply, val_main_v54_apply, val_main_v53_apply, val_main_v52_apply, val_main_v51_apply,
    val_main_v50_apply, e1, e2, e3, e4, mean2_eq, var2_eq]
  simp only [Ideal.addf_def, Ideal.mulf_def, Ideal.subf_def, Ideal.hostUnary_rsqrt_def, Ideal.ofBits_def]
  rfl

/-- The reference's result at row `p`, column `q` is the network with the column statistics as quotients. -/
theorem ref_eq (x0 x1 : (⟨S8192x312, .f32⟩ : BufTy).Contents (Elt Ideal)) (x2 : (⟨S624x4096, .f32⟩ : BufTy).Contents (Elt Ideal)) (x3 x4 x5 : (⟨S4096, .f32⟩ : BufTy).Contents (Elt Ideal)) (x6 : (⟨S4096x2048, .f32⟩ : BufTy).Contents (Elt Ideal)) (x7 x8 x9 : (⟨S2048, .f32⟩ : BufTy).Contents (Elt Ideal)) (x10 : (⟨S8192x4096, .f32⟩ : BufTy).Contents (Elt Ideal)) (p : Fin 8192) (q : Fin 2048) :
    Cert.ReferenceIdeal.Read.val_main_v65 (F := Ideal) x0 x1 x2 x3 x4 x5 x6 x7 x8 x9 x10 (ValueIdx.ix2 p q)
      = Cert.Mlp.netDiv (Ideal.ofBits .f32 0x00000000#32) (Ideal.ofBits .f32 0x46000000#32) (Ideal.ofBits .f32 0x3727C5AC#32) (Ideal.ofBits .f32 0x3C23D70A#32)
          (rfl : 312 + 312 = 624)
          (fun p k => x0 (ValueIdx.ix2 p k)) (fun p k => x1 (ValueIdx.ix2 p k)) (fun k q => x2 (ValueIdx.ix2 k q))
          (fun q => x3 (ValueIdx.ix1 q)) (fun q => x4 (ValueIdx.ix1 q)) (fun q => x5 (ValueIdx.ix1 q))
          (fun k q => x6 (ValueIdx.ix2 k q)) (fun q => x7 (ValueIdx.ix1 q)) (fun q => x8 (ValueIdx.ix1 q)) (fun q => x9 (ValueIdx.ix1 q))
          (fun p k => x10 (ValueIdx.ix2 p k)) p q := by
  have h1 : (fun p q => val_main_v4 (F := Ideal) x0 x1 x2 x3 (ix2 p q))
      = Cert.Mlp.affine (Cert.Mlp.joined (rfl : 312 + 312 = 624) (fun p k => x0 (ix2 p k)) (fun p k => x1 (ix2 p k)))
          (fun k q => x2 (ix2 k q)) (fun q => x3 (ix1 q)) :=
    funext fun p => funext fun q => affine1_eq x0 x1 x2 x3 p q
  have ha : (fun p k => val_main_v35 (F := Ideal) x0 x1 x2 x3 x4 x5 x10 (ix2 p k))
      = fun p k => Cert.Mlp.leaky (Ideal.ofBits .f32 0x00000000#32) (Ideal.ofBits .f32 0x3C23D70A#32)
          (Cert.Mlp.normalize (Ideal.ofBits .f32 0x3727C5AC#32)
            (Cert.Mlp.meanDiv (Ideal.ofBits .f32 0x00000000#32) (Ideal.ofBits .f32 0x46000000#32) (fun p q => val_main_v4 (F := Ideal) x0 x1 x2 x3 (ix2 p q)))
            (Cert.Mlp.varDiv (Ideal.ofBits .f32 0x00000000#32) (Ideal.ofBits .f32 0x46000000#32) (fun p q => val_main_v4 (F := Ideal) x0 x1 x2 x3 (ix2 p q)))
            (fun q => x4 (ix1 q)) (fun q => x5 (ix1 q)) (fun p q => val_main_v4 (F := Ideal) x0 x1 x2 x3 (ix2 p q)) p k) * x10 (ix2 p k) :=
    funext fun p => funext fun k => by rw [act_eq, norm1_eq]
  have h2 : (fun p q => val_main_v39 (F := Ideal) x0 x1 x2 x3 x4 x5 x6 x7 x10 (ix2 p q))
      = Cert.Mlp.affine (fun p k => val_main_v35 (F := Ideal) x0 x1 x2 x3 x4 x5 x10 (ix2 p k))
          (fun k q => x6 (ix2 k q)) (fun q => x7 (ix1 q)) :=
    funext fun p => funext fun q => affine2_eq x0 x1 x2 x3 x4 x5 x6 x7 x10 p q
  rw [val_main_v65_apply, val_main_call1_v0_apply, val_main_call1_cst_apply, norm2_eq, h2, ha, h1]
  simp only [Ideal.maximumf_def, Ideal.ofBits_def]
  rfl

end Cert.RefSide

end
-- ==== Proof.BnMath.lean ====
/-
  The two arrangements of the column statistics agree on real data.

  For a column of real numbers h₁ … h_B with mean μ = (Σ h)/B, the mean of the squared deviations equals the
  mean of the squares minus the square of the mean:
      (Σ (h − μ)²)/B = (Σ h²)/B − μ²,
  and the left side is a sum of squares over a positive number, hence never negative; so clamping the right side
  below at 0 changes nothing. All values met on the way through the network stay real (the argument of the
  reciprocal square root is a nonnegative variance plus a positive ε), so the identity applies at both layers.
-/
import proofs.«178448_j5592047419764_2_alg».proof.Proof.Spec

noncomputable section

namespace Cert.Mlp

open Idealize.ShloMosaic

/-- An extended real that is a real number. -/
def IsR (a : EReal) : Prop := ∃ r : ℝ, a = (r : EReal)

theorem IsR.coe (r : ℝ) : IsR (r : EReal) := ⟨r, rfl⟩

theorem IsR.zero : IsR (0 : EReal) := ⟨0, rfl⟩

theorem IsR.add {a b : EReal} (ha : IsR a) (hb : IsR b) : IsR (a + b) := by
  obtain ⟨r, rfl⟩ := ha; obtain ⟨t, rfl⟩ := hb; exact ⟨r + t, (EReal.coe_add r t).symm⟩

theorem IsR.sub {a b : EReal} (ha : IsR a) (hb : IsR b) : IsR (a - b) := by
  obtain ⟨r, rfl⟩ := ha; obtain ⟨t, rfl⟩ := hb; exact ⟨r - t, (EReal.coe_sub r t).symm⟩

theorem IsR.mul {a b : EReal} (ha : IsR a) (hb : IsR b) : IsR (a * b) := by
  obtain ⟨r, rfl⟩ := ha; obtain ⟨t, rfl⟩ := hb; exact ⟨r * t, (EReal.coe_mul r t).symm⟩

theorem isR_max {a b : EReal} (ha : IsR a) (hb : IsR b) : IsR (max a b) := by
  rcases max_choice a b with h | h <;> rw [h] <;> assumption

/-- The coercion of a finite sum of reals is the sum of the coercions. -/
theorem coe_sum {ι : Type} (s : Finset ι) (g : ι → ℝ) :
    (∑ i ∈ s, ((g i : ℝ) : EReal)) = ((∑ i ∈ s, g i : ℝ) : EReal) := by
  classical
  induction s using Finset.induction_on with
  | empty => simp
  | insert a s ha ih => rw [Finset.sum_insert ha, Finset.sum_insert ha, ih, EReal.coe_add]

theorem isR_sum {ι : Type} (s : Finset ι) (f : ι → EReal) (hf : ∀ i, IsR (f i)) : IsR (∑ i ∈ s, f i) := by
  choose g hg using hf
  have : f = fun i => ((g i : ℝ) : EReal) := funext hg
  rw [this, coe_sum]; exact ⟨_, rfl⟩

/-- The reciprocal square root of a positive real is a real. -/
theorem isR_rsqrt {a : EReal} (ha : ∃ r : ℝ, 0 < r ∧ a = (r : EReal)) : IsR (Ideal.rsqrt a) := by
  obtain ⟨r, hr, rfl⟩ := ha
  rw [Ideal.rsqrt_coe, if_neg (not_lt.mpr hr.le), if_neg hr.ne']; exact ⟨_, rfl⟩

/-- The leaky rectifier of a real with a real slope is a real: it is the value or the slope times the value. -/
theorem isR_leaky {z s v : EReal} (hs : IsR s) (hv : IsR v) : IsR (leaky z s v) := by
  unfold leaky Scalar.select
  split_ifs
  · exact hv
  · exact hs.mul hv

/-- The one-column law on the reals: second moment minus squared mean is the mean squared deviation. -/
theorem real_var {B : ℕ} (hB : 0 < B) (g : Fin B → ℝ) (m : ℝ) (hm : m = (∑ p, g p) * (1 / (B : ℝ))) :
    (∑ p, g p * g p) * (1 / (B : ℝ)) - m * m = (∑ p, (g p - m) * (g p - m)) * (1 / (B : ℝ)) := by
  have hBne : (B : ℝ) ≠ 0 := by exact_mod_cast hB.ne'
  have hsum : ∑ p, g p = (B : ℝ) * m := by rw [hm]; field_simp
  have hexp : ∑ p, (g p - m) * (g p - m)
      = (∑ p, g p * g p) - 2 * m * (∑ p, g p) + (B : ℝ) * (m * m) := by
    have : ∀ p, (g p - m) * (g p - m) = g p * g p - 2 * m * g p + m * m := fun p => by ring
    simp only [this, Finset.sum_add_distrib, Finset.sum_sub_distrib, ← Finset.mul_sum, Finset.sum_const,
      Finset.card_univ, Fintype.card_fin, nsmul_eq_mul]
    ring
  rw [hexp, hsum]; field_simp; ring

theorem real_var_nonneg {B : ℕ} (g : Fin B → ℝ) (m : ℝ) :
    0 ≤ (∑ p, (g p - m) * (g p - m)) * (1 / (B : ℝ)) :=
  mul_nonneg (Finset.sum_nonneg (fun p _ => mul_self_nonneg _)) (by positivity)

variable {B K N : ℕ}

/-- The two means agree (on any data). -/
theorem meanMul_eq_meanDiv (hB : 0 < B) (h : Fin B → Fin N → EReal) :
    meanMul (((1 : ℝ) / (B : ℝ) : ℝ) : EReal) h = meanDiv 0 ((B : ℝ) : EReal) h := by
  have hBne : (B : ℝ) ≠ 0 := by exact_mod_cast hB.ne'
  funext q
  rw [meanMul, meanDiv, zero_add, Ideal.div_coe hBne]

/-- The quotient variance of a real column is a nonnegative real, and the clamped moment form equals it. -/
theorem var_col (hB : 0 < B) (h : Fin B → Fin N → EReal) (hh : ∀ p q, IsR (h p q)) (q : Fin N) :
    ∃ r : ℝ, 0 ≤ r ∧ varDiv 0 ((B : ℝ) : EReal) h q = (r : EReal) ∧
      varMul (((1 : ℝ) / (B : ℝ) : ℝ) : EReal) 0 h q = (r : EReal) := by
  have hBne : (B : ℝ) ≠ 0 := by exact_mod_cast hB.ne'
  choose g hg using hh
  have hfun : h = fun p q => ((g p q : ℝ) : EReal) := by funext p q; exact hg p q
  subst hfun
  set m : ℝ := (∑ p, g p q) * (1 / (B : ℝ)) with hm
  have hmean : meanDiv 0 ((B : ℝ) : EReal) (fun p q => ((g p q : ℝ) : EReal)) q = (m : EReal) := by
    rw [meanDiv, zero_add, Ideal.div_coe hBne, colSum, coe_sum, ← EReal.coe_mul]
  refine ⟨(∑ p, (g p q - m) * (g p q - m)) * (1 / (B : ℝ)), real_var_nonneg _ _, ?_, ?_⟩
  · rw [varDiv, zero_add, Ideal.div_coe hBne, hmean]
    simp only [← EReal.coe_sub, ← EReal.coe_mul, coe_sum]
  · have hv : (∑ p, g p q * g p q) * (1 / (B : ℝ)) - m * m
        = (∑ p, (g p q - m) * (g p q - m)) * (1 / (B : ℝ)) := real_var hB (fun p => g p q) m hm
    rw [varMul, meanMul_eq_meanDiv hB, hmean, colSumSq]
    simp only [← EReal.coe_mul, coe_sum, ← EReal.coe_sub]
    rw [hv, max_eq_left]
    exact_mod_cast real_var_nonneg (fun p => g p q) m

/-- The two variances agree on real data. -/
theorem varMul_eq_varDiv (hB : 0 < B) (h : Fin B → Fin N → EReal) (hh : ∀ p q, IsR (h p q)) :
    varMul (((1 : ℝ) / (B : ℝ) : ℝ) : EReal) 0 h = varDiv 0 ((B : ℝ) : EReal) h := by
  funext q
  obtain ⟨r, _, h1, h2⟩ := var_col hB h hh q
  rw [h1, h2]

theorem isR_meanDiv (hB : 0 < B) (h : Fin B → Fin N → EReal) (hh : ∀ p q, IsR (h p q)) (q : Fin N) :
    IsR (meanDiv 0 ((B : ℝ) : EReal) h q) := by
  have hBne : (B : ℝ) ≠ 0 := by exact_mod_cast hB.ne'
  rw [meanDiv, zero_add, Ideal.div_coe hBne, colSum]
  exact (isR_sum _ _ (fun p => hh p q)).mul (IsR.coe _)

theorem isR_joined {K₁ K₂ : ℕ} (hK : K₁ + K₂ = K) (x : Fin B → Fin K₁ → EReal) (y : Fin B → Fin K₂ → EReal)
    (hx : ∀ p k, IsR (x p k)) (hy : ∀ p k, IsR (y p k)) (p : Fin B) (k : Fin K) :
    IsR (joined hK x y p k) := by
  unfold joined; split_ifs
  · exact hx _ _
  · exact hy _ _

theorem isR_affine (x : Fin B → Fin K → EReal) (w : Fin K → Fin N → EReal) (b : Fin N → EReal)
    (hx : ∀ p k, IsR (x p k)) (hw : ∀ k q, IsR (w k q)) (hb : ∀ q, IsR (b q)) (p : Fin B) (q : Fin N) :
    IsR (affine x w b p q) := by
  unfold affine
  exact (isR_sum _ _ (fun k => (hx p k).mul (hw k q))).add (hb q)

/-- The normalisation of real data with real statistics, a nonnegative variance and a positive ε is real. -/
theorem isR_normalize (eps : ℝ) (heps : 0 < eps) (mu v g be : Fin N → EReal) (h : Fin B → Fin N → EReal)
    (hmu : ∀ q, IsR (mu q)) (hv : ∀ q, ∃ r : ℝ, 0 ≤ r ∧ v q = (r : EReal)) (hg : ∀ q, IsR (g q))
    (hbe : ∀ q, IsR (be q)) (hh : ∀ p q, IsR (h p q)) (p : Fin B) (q : Fin N) :
    IsR (normalize (eps : EReal) mu v g be h p q) := by
  unfold normalize
  obtain ⟨r, hr, hvr⟩ := hv q
  refine (((hg q).mul ((hh p q).sub (hmu q))).mul (isR_rsqrt ⟨r + eps, by positivity, ?_⟩)).add (hbe q)
  rw [hvr, EReal.coe_add]

/-- The normalisation with the quotient statistics of real data is real. -/
theorem isR_normalize_div (hB : 0 < B) (eps : ℝ) (heps : 0 < eps) (g be : Fin N → EReal)
    (h : Fin B → Fin N → EReal) (hg : ∀ q, IsR (g q)) (hbe : ∀ q, IsR (be q)) (hh : ∀ p q, IsR (h p q))
    (p : Fin B) (q : Fin N) :
    IsR (normalize (eps : EReal) (meanDiv 0 ((B : ℝ) : EReal) h) (varDiv 0 ((B : ℝ) : EReal) h) g be h p q) :=
  isR_normalize eps heps _ _ g be h (isR_meanDiv hB h hh)
    (fun q => by obtain ⟨r, hr, h1, _⟩ := var_col hB h hh q; exact ⟨r, hr, h1⟩) hg hbe hh p q

/-- The two arrangements of the column statistics give the same network on real data. -/
theorem netMul_eq_netDiv {B K K₁ K₂ H O : ℕ} (hB : 0 < B) (hK : K₁ + K₂ = K) (eps s : ℝ) (heps : 0 < eps)
    (x : Fin B → Fin K₁ → EReal) (y : Fin B → Fin K₂ → EReal) (w1 : Fin K → Fin H → EReal) (b1 g1 be1 : Fin H → EReal)
    (w2 : Fin H → Fin O → EReal) (b2 g2 be2 : Fin O → EReal) (mask : Fin B → Fin H → EReal)
    (hx : ∀ p k, ∃ r : ℝ, x p k = (r : EReal)) (hy : ∀ p k, ∃ r : ℝ, y p k = (r : EReal)) (hw1 : ∀ k q, ∃ r : ℝ, w1 k q = (r : EReal))
    (hb1 : ∀ q, ∃ r : ℝ, b1 q = (r : EReal)) (hg1 : ∀ q, ∃ r : ℝ, g1 q = (r : EReal)) (hbe1 : ∀ q, ∃ r : ℝ, be1 q = (r : EReal))
    (hw2 : ∀ k q, ∃ r : ℝ, w2 k q = (r : EReal)) (hb2 : ∀ q, ∃ r : ℝ, b2 q = (r : EReal)) (hg2 : ∀ q, ∃ r : ℝ, g2 q = (r : EReal))
    (hbe2 : ∀ q, ∃ r : ℝ, be2 q = (r : EReal)) (hmask : ∀ p k, ∃ r : ℝ, mask p k = (r : EReal)) :
    netMul (0 : EReal) (((1 : ℝ) / (B : ℝ) : ℝ) : EReal) (eps : EReal) (s : EReal) hK x y w1 b1 g1 be1 w2 b2 g2 be2 mask
      = netDiv (0 : EReal) (((B : ℝ) : ℝ) : EReal) (eps : EReal) (s : EReal) hK x y w1 b1 g1 be1 w2 b2 g2 be2 mask := by
  funext p q
  -- the first layer's pre-activation is real, so its two statistics agree
  have hh : ∀ p k, IsR (affine (joined hK x y) w1 b1 p k) :=
    isR_affine _ _ _ (isR_joined hK x y hx hy) hw1 hb1
  have hm1 := meanMul_eq_meanDiv hB (affine (joined hK x y) w1 b1)
  have hv1 := varMul_eq_varDiv hB (affine (joined hK x y) w1 b1) hh
  -- the second layer's input is real
  have ha : ∀ p k, IsR (leaky 0 (s : EReal) (normalize (eps : EReal)
      (meanDiv 0 ((B : ℝ) : EReal) (affine (joined hK x y) w1 b1))
      (varDiv 0 ((B : ℝ) : EReal) (affine (joined hK x y) w1 b1)) g1 be1
      (affine (joined hK x y) w1 b1) p k) * mask p k) :=
    fun p k => (isR_leaky (IsR.coe s) (isR_normalize_div hB eps heps g1 be1 _ hg1 hbe1 hh p k)).mul (hmask p k)
  have ho := isR_affine _ w2 b2 ha hw2 hb2
  have hm2 := meanMul_eq_meanDiv hB (affine (fun p k => leaky 0 (s : EReal) (normalize (eps : EReal)
      (meanDiv 0 ((B : ℝ) : EReal) (affine (joined hK x y) w1 b1))
      (varDiv 0 ((B : ℝ) : EReal) (affine (joined hK x y) w1 b1)) g1 be1
      (affine (joined hK x y) w1 b1) p k) * mask p k) w2 b2)
  have hv2 := varMul_eq_varDiv hB _ ho
  simp only [netMul, netDiv]
  rw [hm1, hv1, hm2, hv2]

end Cert.Mlp

end
-- ==== Proof.Finite.lean ====
/-
  Every entry of every argument array is a real number.

  The precondition compares, entry by entry, the absolute value max x (−x) of each argument with +∞ under
  the strict order of the extended reals, and takes the conjunction of all the comparisons. At ⊤ the absolute
  value is ⊤ and at ⊥ it is max ⊥ ⊤ = ⊤, so neither is strictly below ⊤: an entry that passes is a real.
-/
import proofs.«178448_j5592047419764_2_alg».proof.Defs
import proofs.«178448_j5592047419764_2_alg».proof.Proof.Gen.Pre_finite_inputs
import Idealize.ShloMosaic.Lib.ReduceAll
import Idealize.ShloMosaic.Lib.ValueIdx
import Idealize.ShloMosaic.PureOps.Ideal.Laws

noncomputable section

namespace Cert.FiniteArgs

open Idealize.ShloMosaic Idealize.SL.Sem

/-- The rank-0 shape has one index. -/
instance subsingleton_scalarIdx : Subsingleton Cert.Pre_finite_inputs.S_.Idx :=
  ⟨fun a b => funext fun d => d.elim0⟩

/-- The word 0x7F800000 (sign 0, exponent all ones, fraction 0) denotes +∞. -/
theorem ofBits_inf : (FloatOps.ofBits (F := Ideal) .f32 0x7F800000#32 : Ideal .f32) = (⊤ : EReal) := by
  show Ideal.ofBits .f32 0x7F800000#32 = ⊤
  simp [Ideal.ofBits, Ideal.ieee]

/-- An extended real whose absolute value max x (−x) is strictly below ⊤ is a real. -/
theorem real_of_abs_lt_top (x : EReal) (h : Ideal.cmp .olt (max x (-x)) ⊤ = 1#1) : ∃ r : ℝ, x = (r : EReal) := by
  induction x using EReal.rec with
  | bot => simp [Ideal.cmp] at h
  | coe r => exact ⟨r, rfl⟩
  | top => simp [Ideal.cmp] at h

/-- The conjunction over all entries of |x| < +∞ being 1 makes every entry of x a real. -/
theorem real_of_all_lt_inf {S : Shape} (hb : Cert.Pre_finite_inputs.S_.BroadcastsInDim S (![] : Fin 0 → Fin S.rank))
    {axes : List (Fin S.rank)} (hr : S.ReducesTo axes Cert.Pre_finite_inputs.S_) (h0 : 0 < Cert.Pre_finite_inputs.S_.numel)
    (x : FVec Ideal S .f32)
    (h : Host.reduce IntOp.andi (cmpf .olt (Host.absf x)
        (broadcastInDim S ![] hb (constant Cert.Pre_finite_inputs.S_ .f32 0x7F800000#32)))
        (constantI Cert.Pre_finite_inputs.S_ 1 1#1) hr h0 ValueIdx.ix0 = 1#1) :
    ∀ i, ∃ r : ℝ, x i = (r : EReal) := by
  intro i
  have e := Host.reduce_andi_all _ _ hr h0 _ h i
  simp only [cmpf, Host.absf, broadcastInDim, constant] at e
  rw [ofBits_inf] at e
  exact real_of_abs_lt_top (x i) e

theorem real_args [hPre_finite_inputs : Cert.Pre_finite_inputs.Facts]
    (m : (ℓ : Loc Cert.KernelIdeal.nD Cert.KernelIdeal.τ Cert.KernelIdeal.sig) → Buf (Elt Ideal) ℓ) (h : Cert.Pre_KernelIdeal m) (c : Dev Cert.KernelIdeal.nD) :
    (∀ i, ∃ r : ℝ, m ((c.tc : Thread Cert.KernelIdeal.nD Cert.KernelIdeal.τ).loc Cert.KernelIdeal.main_arg0) i = (r : EReal))
    ∧ (∀ i, ∃ r : ℝ, m ((c.tc : Thread Cert.KernelIdeal.nD Cert.KernelIdeal.τ).loc Cert.KernelIdeal.main_arg1) i = (r : EReal))
    ∧ (∀ i, ∃ r : ℝ, m ((c.tc : Thread Cert.KernelIdeal.nD Cert.KernelIdeal.τ).loc Cert.KernelIdeal.main_arg2) i = (r : EReal))
    ∧ (∀ i, ∃ r : ℝ, m ((c.tc : Thread Cert.KernelIdeal.nD Cert.KernelIdeal.τ).loc Cert.KernelIdeal.main_arg3) i = (r : EReal))
    ∧ (∀ i, ∃ r : ℝ, m ((c.tc : Thread Cert.KernelIdeal.nD Cert.KernelIdeal.τ).loc Cert.KernelIdeal.main_arg4) i = (r : EReal))
    ∧ (∀ i, ∃ r : ℝ, m ((c.tc : Thread Cert.KernelIdeal.nD Cert.KernelIdeal.τ).loc Cert.KernelIdeal.main_arg5) i = (r : EReal))
    ∧ (∀ i, ∃ r : ℝ, m ((c.tc : Thread Cert.KernelIdeal.nD Cert.KernelIdeal.τ).loc Cert.KernelIdeal.main_arg6) i = (r : EReal))
    ∧ (∀ i, ∃ r : ℝ, m ((c.tc : Thread Cert.KernelIdeal.nD Cert.KernelIdeal.τ).loc Cert.KernelIdeal.main_arg7) i = (r : EReal))
    ∧ (∀ i, ∃ r : ℝ, m ((c.tc : Thread Cert.KernelIdeal.nD Cert.KernelIdeal.τ).loc Cert.KernelIdeal.main_arg8) i = (r : EReal))
    ∧ (∀ i, ∃ r : ℝ, m ((c.tc : Thread Cert.KernelIdeal.nD Cert.KernelIdeal.τ).loc Cert.KernelIdeal.main_arg9) i = (r : EReal))
    ∧ (∀ i, ∃ r : ℝ, m ((c.tc : Thread Cert.KernelIdeal.nD Cert.KernelIdeal.τ).loc Cert.KernelIdeal.main_arg10) i = (r : EReal)) := by
  have h1 := congrFun (h c) ValueIdx.ix0
  dsimp only [Cert.Pre_finite_inputs.fn, Cert.Pre_finite_inputs.fn_part1, Cert.Pre_finite_inputs.fn_part2, Cert.Pre_finite_inputs.fn_part3] at h1
  simp only [Idealize.ShloMosaic.andi, IntOp.andi_eq_one] at h1
  obtain ⟨⟨⟨⟨⟨⟨⟨⟨⟨⟨a0, a1⟩, a2⟩, a3⟩, a4⟩, a5⟩, a6⟩, a7⟩, a8⟩, a9⟩, a10⟩ := h1
  exact ⟨real_of_all_lt_inf _ _ _ _ a0, real_of_all_lt_inf _ _ _ _ a1, real_of_all_lt_inf _ _ _ _ a2,
    real_of_all_lt_inf _ _ _ _ a3, real_of_all_lt_inf _ _ _ _ a4, real_of_all_lt_inf _ _ _ _ a5,
    real_of_all_lt_inf _ _ _ _ a6, real_of_all_lt_inf _ _ _ _ a7, real_of_all_lt_inf _ _ _ _ a8,
    real_of_all_lt_inf _ _ _ _ a9, real_of_all_lt_inf _ _ _ _ a10⟩

end Cert.FiniteArgs

end
-- ==== Proof.LibLiterals.lean ====
/-
  The float literals the two programs spell, as the extended reals their bit patterns denote:
  0, 1, 50000, 100000, -1/2, and the stabiliser 10995116 · 2⁻⁴⁰ (the binary32 nearest to 10⁻⁵).
-/
import Idealize.ShloMosaic.PureOps.Ideal

noncomputable section

namespace Cert.Bridge

open Idealize.ShloMosaic

theorem ofBits_zero : Ideal.ofBits .f32 0x00000000#32 = 0 := by
  simp [Ideal.ofBits, Ideal.ieee]

theorem ofBits_one : Ideal.ofBits .f32 0x3F800000#32 = 1 := by
  simp [Ideal.ofBits, Ideal.ieee, -EReal.coe_mul]; norm_num

/-- Sign 0, exponent 142 - 127 = 15, significand 1 + 4411392 / 2²³: 2¹⁵ · 1.52587890625 = 50000. -/
theorem ofBits_50000 : Ideal.ofBits .f32 0x47435000#32 = ((50000 : ℝ) : EReal) := by
  simp [Ideal.ofBits, Ideal.ieee, -EReal.coe_mul]; norm_num

theorem ofBits_50000_nat : Ideal.ofBits .f32 0x47435000#32 = (((50000 : ℕ) : ℝ) : EReal) := by
  rw [ofBits_50000]; norm_num

/-- Sign 0, exponent 143 - 127 = 16, the same significand: 2¹⁶ · 1.52587890625 = 100000. -/
theorem ofBits_100000 : Ideal.ofBits .f32 0x47C35000#32 = ((100000 : ℝ) : EReal) := by
  simp [Ideal.ofBits, Ideal.ieee, -EReal.coe_mul]; norm_num

theorem ofBits_100000_nat : Ideal.ofBits .f32 0x47C35000#32 = (((100000 : ℕ) : ℝ) : EReal) := by
  rw [ofBits_100000]; norm_num

theorem ofBits_neg_half : Ideal.ofBits .f32 0xBF000000#32 = ((-1/2 : ℝ) : EReal) := by
  simp [Ideal.ofBits, Ideal.ieee, -EReal.coe_mul]; norm_num

/-- Sign 0, exponent 110 - 127 = -17, significand (2²³ + 2606508) / 2²³: the value 10995116 · 2⁻⁴⁰. -/
theorem ofBits_eps : Ideal.ofBits .f32 0x3727C5AC#32 = (((10995116 : ℝ) * (2 : ℝ) ^ (-40 : ℤ) : ℝ) : EReal) := by
  simp [Ideal.ofBits, Ideal.ieee, -EReal.coe_mul]

theorem ofBits_eps_pos : ∃ r : ℝ, 0 < r ∧ Ideal.ofBits .f32 0x3727C5AC#32 = (r : EReal) :=
  ⟨_, by positivity, ofBits_eps⟩

end Cert.Bridge

end
-- ==== Proof.Consts.lean ====
/-
  The program's float literals as real numbers.

  `0x39000000` is `2⁻¹³ = 1/8192` and `0x46000000` is `2¹³ = 8192`, both exact; the rectifier's slope
  `0x3C23D70A` is the real `10737418·2⁻³⁰` (the float nearest to one hundredth), and `ε` a positive real.
-/
import proofs.«178448_j5592047419764_2_alg».proof.Proof.SpecRows
import proofs.«178448_j5592047419764_2_alg».proof.Proof.LibLiterals
import Idealize.ShloMosaic.PureOps.Ideal.Laws

noncomputable section

namespace Cert.Mlp

open Idealize.ShloMosaic

theorem litZero_eq : litZero = 0 := Ideal.ofBits_zero_f32

theorem litRecip_eq : litRecip = (((1 : ℝ) / ((8192 : ℕ) : ℝ) : ℝ) : EReal) := by
  unfold litRecip
  simp [Ideal.ofBits, Ideal.ieee, -EReal.coe_mul]; norm_num

theorem litBatch_eq : litBatch = ((((8192 : ℕ) : ℝ) : ℝ) : EReal) := by
  unfold litBatch
  simp [Ideal.ofBits, Ideal.ieee, -EReal.coe_mul]; norm_num

theorem litSlope_eq : litSlope = (((10737418 : ℝ) * (2 : ℝ) ^ (-30 : ℤ) : ℝ) : EReal) := by
  unfold litSlope
  simp [Ideal.ofBits, Ideal.ieee, -EReal.coe_mul]

theorem litEps_eq : litEps = (((10995116 : ℝ) * (2 : ℝ) ^ (-40 : ℤ) : ℝ) : EReal) := Cert.Bridge.ofBits_eps

theorem eps_pos : (0 : ℝ) < (10995116 : ℝ) * (2 : ℝ) ^ (-40 : ℤ) := by positivity

end Cert.Mlp

end
-- ==== Proof.Algebraic.lean ====
/-
  The idealized kernel and the idealized reference compute the same network.

  From memories that agree on the eleven arguments, the kernel's result buffer ends at the network with each column's
  mean and variance taken as `(Σh)·2⁻¹³` and `max((Σh²)·2⁻¹³ − mean², 0)`, and the reference's at the network with them
  taken as `(0 + Σh)/8192` and `(0 + Σ(h − mean)²)/8192`. Every argument entry is a real number by the precondition,
  so every intermediate is real, and on real data the two arrangements of the statistics are one function: `2⁻¹³` is the
  exact reciprocal of 8192, the mean of the squared deviations is the mean of the squares minus the squared mean, and
  that number is not negative, so clamping it at zero changes nothing.
-/
import proofs.«178448_j5592047419764_2_alg».proof.Defs
import proofs.«178448_j5592047419764_2_alg».proof.Proof.Gen.ReferenceIdeal.Read
import proofs.«178448_j5592047419764_2_alg».proof.Proof.KernelRun
import proofs.«178448_j5592047419764_2_alg».proof.Proof.KernelValue
import proofs.«178448_j5592047419764_2_alg».proof.Proof.RefStages
import proofs.«178448_j5592047419764_2_alg».proof.Proof.BnMath
import proofs.«178448_j5592047419764_2_alg».proof.Proof.Finite
import proofs.«178448_j5592047419764_2_alg».proof.Proof.Consts

noncomputable section

open Idealize.ShloMosaic Idealize.ShloMosaic.TcCoe Idealize.SL.Sem Idealize.ShloMosaic.ValueIdx

namespace Cert.Proof.Claims

/-- With the literal words read as reals, the network with multiplicative statistics is the network with quotient
    statistics, on arguments whose entries are all real. -/
theorem net_eq (m : (ℓ : Loc Cert.KernelIdeal.nD Cert.KernelIdeal.τ Cert.KernelIdeal.sig) → Buf (Elt Ideal) ℓ) (hpre : Cert.Pre_KernelIdeal m)
    (c : Dev Cert.KernelIdeal.nD) (p : Fin 8192) (q : Fin 2048) :
    Cert.Mlp.netDiv Cert.Mlp.litZero Cert.Mlp.litBatch Cert.Mlp.litEps Cert.Mlp.litSlope (rfl : 312 + 312 = 624)
        (Cert.KernelIdeal.Result.aX m c) (Cert.KernelIdeal.Result.aN m c) (Cert.KernelIdeal.Result.aW1 m c) (Cert.KernelIdeal.Result.aB1 m c)
        (Cert.KernelIdeal.Result.aG1 m c) (Cert.KernelIdeal.Result.aBe1 m c) (Cert.KernelIdeal.Result.aW2 m c) (Cert.KernelIdeal.Result.aB2 m c)
        (Cert.KernelIdeal.Result.aG2 m c) (Cert.KernelIdeal.Result.aBe2 m c) (Cert.KernelIdeal.Result.aMask m c) p q
      = Cert.Mlp.netMul Cert.Mlp.litZero Cert.Mlp.litRecip Cert.Mlp.litEps Cert.Mlp.litSlope (rfl : 312 + 312 = 624)
        (Cert.KernelIdeal.Result.aX m c) (Cert.KernelIdeal.Result.aN m c) (Cert.KernelIdeal.Result.aW1 m c) (Cert.KernelIdeal.Result.aB1 m c)
        (Cert.KernelIdeal.Result.aG1 m c) (Cert.KernelIdeal.Result.aBe1 m c) (Cert.KernelIdeal.Result.aW2 m c) (Cert.KernelIdeal.Result.aB2 m c)
        (Cert.KernelIdeal.Result.aG2 m c) (Cert.KernelIdeal.Result.aBe2 m c) (Cert.KernelIdeal.Result.aMask m c) p q := by
  obtain ⟨f0, f1, f2, f3, f4, f5, f6, f7, f8, f9, f10⟩ := Cert.FiniteArgs.real_args m hpre c
  rw [Cert.Mlp.litZero_eq, Cert.Mlp.litBatch_eq, Cert.Mlp.litRecip_eq, Cert.Mlp.litEps_eq, Cert.Mlp.litSlope_eq]
  exact (congrFun (congrFun (Cert.Mlp.netMul_eq_netDiv (B := 8192) (by decide) (rfl : 312 + 312 = 624)
    ((10995116 : ℝ) * (2 : ℝ) ^ (-40 : ℤ)) ((10737418 : ℝ) * (2 : ℝ) ^ (-30 : ℤ)) Cert.Mlp.eps_pos
    (Cert.KernelIdeal.Result.aX m c) (Cert.KernelIdeal.Result.aN m c) (Cert.KernelIdeal.Result.aW1 m c) (Cert.KernelIdeal.Result.aB1 m c)
    (Cert.KernelIdeal.Result.aG1 m c) (Cert.KernelIdeal.Result.aBe1 m c) (Cert.KernelIdeal.Result.aW2 m c) (Cert.KernelIdeal.Result.aB2 m c)
    (Cert.KernelIdeal.Result.aG2 m c) (Cert.KernelIdeal.Result.aBe2 m c) (Cert.KernelIdeal.Result.aMask m c)
    (fun p k => f0 (ix2 p k)) (fun p k => f1 (ix2 p k)) (fun k q => f2 (ix2 k q)) (fun q => f3 (ix1 q))
    (fun q => f4 (ix1 q)) (fun q => f5 (ix1 q)) (fun k q => f6 (ix2 k q)) (fun q => f7 (ix1 q))
    (fun q => f8 (ix1 q)) (fun q => f9 (ix1 q)) (fun p k => f10 (ix2 p k))) p) q).symm

theorem algebraic : Cert.algebraic_KernelIdeal_ReferenceIdeal := by
  intro m ρ m' ρ' hpre hagree
  refine ⟨fun c => Cert.KernelIdeal.Gen.W4 m ρ c (Proc.devRef .tc Cert.KernelIdeal.main_v13), Cert.KernelIdeal.RunValue.run_result m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5, a6, a7, a8, a9, a10⟩ := hagree c
  rw [Cert.ReferenceIdeal.Read.val_main_v65_eq, a0, a1, a2, a3, a4, a5, a6, a7, a8, a9, a10]
  funext i
  obtain ⟨p, q, rfl⟩ : ∃ (p : Fin 8192) (q : Fin 2048), i = ix2 p q := ⟨i 0, i 1, eq_ix2 i⟩
  refine (Cert.RefSide.ref_eq _ _ _ _ _ _ _ _ _ _ _ p q).trans ?_
  exact (net_eq m hpre c p q).trans (Cert.KernelIdeal.Result.kernel_value m ρ c p q).symm

end Cert.Proof.Claims

end
-- ==== Proof.lean ====
/-
  A two-layer perceptron with batch normalisation, a leaky rectifier and a dropout mask, computed by three tiled kernel
  launches against a plain array program.

  The three frames: each program terminates without a fault and leaves its arguments unchanged (the kernel at both
  float instances by its launches' frames; the reference by its run). The idealization rewrote nothing, so it preserves
  the kernel trivially. The two idealized programs agree (`Proof/Algebraic.lean`): the kernel accumulates each layer's
  column sums and sums of squares block by block and normalises with `(Σh)·2⁻¹³` and `max((Σh²)·2⁻¹³ − mean², 0)`,
  the reference with `(Σh)/8192` and `(Σ(h − mean)²)/8192`, and on the real data the precondition guarantees these
  are the same numbers.
-/
import proofs.«178448_j5592047419764_2_alg».proof.Defs
import proofs.«178448_j5592047419764_2_alg».proof.Proof.Gen.Kernel
import proofs.«178448_j5592047419764_2_alg».proof.Proof.Gen.Kernel.Skeleton
import proofs.«178448_j5592047419764_2_alg».proof.Proof.Gen.Kernel.Launch
import proofs.«178448_j5592047419764_2_alg».proof.Proof.Gen.Kernel.Points
import proofs.«178448_j5592047419764_2_alg».proof.Proof.Gen.Kernel.Frame
import proofs.«178448_j5592047419764_2_alg».proof.Proof.Gen.KernelIdeal
import proofs.«178448_j5592047419764_2_alg».proof.Proof.Gen.KernelIdeal.Skeleton
import proofs.«178448_j5592047419764_2_alg».proof.Proof.Gen.KernelIdeal.Launch
import proofs.«178448_j5592047419764_2_alg».proof.Proof.Gen.KernelIdeal.Points
import proofs.«178448_j5592047419764_2_alg».proof.Proof.Gen.KernelIdeal.Frame
import proofs.«178448_j5592047419764_2_alg».proof.Proof.Gen.ReferenceIdeal
import proofs.«178448_j5592047419764_2_alg».proof.Proof.Gen.ReferenceIdeal.Run
import proofs.«178448_j5592047419764_2_alg».proof.Proof.Gen.Pre_finite_inputs
import proofs.«178448_j5592047419764_2_alg».proof.Proof.Algebraic
import Idealize.ShloMosaic.Adequacy
import Idealize.ShloMosaic.Init

noncomputable section

namespace Cert.Proof

open Idealize.ShloMosaic Idealize.SL.Sem Cert.Kernel

theorem frame_kernel : Cert.frame_Kernel := fun m ρ _ => Cert.Kernel.Gen.frame m ρ

theorem frame_kernel_ideal : Cert.frame_KernelIdeal := fun m ρ _ => Cert.KernelIdeal.Gen.frame m ρ

theorem frame_reference_ideal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference_ideal, preserves, Cert.Proof.Claims.algebraic⟩

end Cert.Proof

end
